-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S2112x8192 : Shape := ⟨2, ![2112, 8192]⟩
abbrev S2112x264 : Shape := ⟨2, ![2112, 264]⟩
abbrev S264x264 : Shape := ⟨2, ![264, 264]⟩
abbrev S264 : Shape := ⟨1, ![264]⟩
abbrev S88x264 : Shape := ⟨2, ![88, 264]⟩
abbrev S88 : Shape := ⟨1, ![88]⟩
abbrev S88x88 : Shape := ⟨2, ![88, 88]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S2112x8192 : S_.BroadcastsInDim S2112x8192 (![] : Fin 0 → Fin S2112x8192.rank)
  reducesTo_S2112x8192_S_d0_1 : S2112x8192.ReducesTo [0, 1] S_
  bcast_S_S2112x264 : S_.BroadcastsInDim S2112x264 (![] : Fin 0 → Fin S2112x264.rank)
  reducesTo_S2112x264_S_d0_1 : S2112x264.ReducesTo [0, 1] S_
  bcast_S_S264x264 : S_.BroadcastsInDim S264x264 (![] : Fin 0 → Fin S264x264.rank)
  reducesTo_S264x264_S_d0_1 : S264x264.ReducesTo [0, 1] S_
  bcast_S_S264 : S_.BroadcastsInDim S264 (![] : Fin 0 → Fin S264.rank)
  reducesTo_S264_S_d0 : S264.ReducesTo [0] S_
  bcast_S_S88x264 : S_.BroadcastsInDim S88x264 (![] : Fin 0 → Fin S88x264.rank)
  reducesTo_S88x264_S_d0_1 : S88x264.ReducesTo [0, 1] S_
  bcast_S_S88 : S_.BroadcastsInDim S88 (![] : Fin 0 → Fin S88.rank)
  reducesTo_S88_S_d0 : S88.ReducesTo [0] S_
  bcast_S_S88x88 : S_.BroadcastsInDim S88x88 (![] : Fin 0 → Fin S88x88.rank)
  reducesTo_S88x88_S_d0_1 : S88x88.ReducesTo [0, 1] S_

variable [Facts]

def fn_part3 {F : FTy → Type} [FloatOps F] (main_v48 : IVec S_ 1) (main_v49 : FVec F S88 .f32) (main_v50 : FVec F S88 .f32) : IVec S_ 1 :=
  let main_v51 : IVec S88 1 := cmpf .olt main_v49 main_v50
  let main_c_19 : IVec S_ 1 := constantI S_ 1 1#1
  let main_v52 : IVec S_ 1 := (fun x v => Host.reduce IntOp.andi x v reducesTo_S88_S_d0 h_S_) main_v51 main_c_19
  let main_v53 : IVec S_ 1 := andi main_v48 main_v52
  main_v53

def fn_part2 {F : FTy → Type} [FloatOps F] (main_arg7 : FVec F S88x264 .f32) (main_arg8 : FVec F S88 .f32) (main_arg9 : FVec F S88x88 .f32) (main_arg10 : FVec F S88 .f32) (main_v33 : IVec S_ 1) : IVec S_ 1 :=
  let main_v34 : FVec F S88x264 .f32 := Host.absf main_arg7
  let main_cst_12 : FVec F S_ .f32 := constant S_ .f32 0x7F800000#32
  let main_v35 : FVec F S88x264 .f32 := broadcastInDim S88x264 ![] bcast_S_S88x264 main_cst_12
  let main_v36 : IVec S88x264 1 := cmpf .olt main_v34 main_v35
  let main_c_13 : IVec S_ 1 := constantI S_ 1 1#1
  let main_v37 : IVec S_ 1 := (fun x v => Host.reduce IntOp.andi x v reducesTo_S88x264_S_d0_1 h_S_) main_v36 main_c_13
  let main_v38 : IVec S_ 1 := andi main_v33 main_v37
  let main_v39 : FVec F S88 .f32 := Host.absf main_arg8
  let main_cst_14 : FVec F S_ .f32 := constant S_ .f32 0x7F800000#32
  let main_v40 : FVec F S88 .f32 := broadcastInDim S88 ![] bcast_S_S88 main_cst_14
  let main_v41 : IVec S88 1 := cmpf .olt main_v39 main_v40
  let main_c_15 : IVec S_ 1 := constantI S_ 1 1#1
  let main_v42 : IVec S_ 1 := (fun x v => Host.reduce IntOp.andi x v reducesTo_S88_S_d0 h_S_) main_v41 main_c_15
  let main_v43 : IVec S_ 1 := andi main_v38 main_v42
  let main_v44 : FVec F S88x88 .f32 := Host.absf main_arg9
  let main_cst_16 : FVec F S_ .f32 := constant S_ .f32 0x7F800000#32
  let main_v45 : FVec F S88x88 .f32 := broadcastInDim S88x88 ![] bcast_S_S88x88 main_cst_16
  let main_v46 : IVec S88x88 1 := cmpf .olt main_v44 main_v45
  let main_c_17 : IVec S_ 1 := constantI S_ 1 1#1
  let main_v47 : IVec S_ 1 := (fun x v => Host.reduce IntOp.andi x v reducesTo_S88x88_S_d0_1 h_S_) main_v46 main_c_17
  let main_v48 : IVec S_ 1 := andi main_v43 main_v47
  let main_v49 : FVec F S88 .f32 := Host.absf main_arg10
  let main_cst_18 : FVec F S_ .f32 := constant S_ .f32 0x7F800000#32
  let main_v50 : FVec F S88 .f32 := broadcastInDim S88 ![] bcast_S_S88 main_cst_18
  fn_part3 (F := F) main_v48 main_v49 main_v50

def fn_part1 {F : FTy → Type} [FloatOps F] (main_arg4 : FVec F S2112x264 .f32) (main_arg5 : FVec F S264x264 .f32) (main_arg6 : FVec F S264 .f32) (main_arg7 : FVec F S88x264 .f32) (main_arg8 : FVec F S88 .f32) (main_arg9 : FVec F S88x88 .f32) (main_arg10 : FVec F S88 .f32) (main_v13 : IVec S_ 1) (main_v16 : IVec S2112x8192 1) : IVec S_ 1 :=
  let main_c_5 : IVec S_ 1 := constantI S_ 1 1#1
  let main_v17 : IVec S_ 1 := (fun x v => Host.reduce IntOp.andi x v reducesTo_S2112x8192_S_d0_1 h_S_) main_v16 main_c_5
  let main_v18 : IVec S_ 1 := andi main_v13 main_v17
  let main_v19 : FVec F S2112x264 .f32 := Host.absf main_arg4
  let main_cst_6 : FVec F S_ .f32 := constant S_ .f32 0x7F800000#32
  let main_v20 : FVec F S2112x264 .f32 := broadcastInDim S2112x264 ![] bcast_S_S2112x264 main_cst_6
  let main_v21 : IVec S2112x264 1 := cmpf .olt main_v19 main_v20
  let main_c_7 : IVec S_ 1 := constantI S_ 1 1#1
  let main_v22 : IVec S_ 1 := (fun x v => Host.reduce IntOp.andi x v reducesTo_S2112x264_S_d0_1 h_S_) main_v21 main_c_7
  let main_v23 : IVec S_ 1 := andi main_v18 main_v22
  let main_v24 : FVec F S264x264 .f32 := Host.absf main_arg5
  let main_cst_8 : FVec F S_ .f32 := constant S_ .f32 0x7F800000#32
  let main_v25 : FVec F S264x264 .f32 := broadcastInDim S264x264 ![] bcast_S_S264x264 main_cst_8
  let main_v26 : IVec S264x264 1 := cmpf .olt main_v24 main_v25
  let main_c_9 : IVec S_ 1 := constantI S_ 1 1#1
  let main_v27 : IVec S_ 1 := (fun x v => Host.reduce IntOp.andi x v reducesTo_S264x264_S_d0_1 h_S_) main_v26 main_c_9
  let main_v28 : IVec S_ 1 := andi main_v23 main_v27
  let main_v29 : FVec F S264 .f32 := Host.absf main_arg6
  let main_cst_10 : FVec F S_ .f32 := constant S_ .f32 0x7F800000#32
  let main_v30 : FVec F S264 .f32 := broadcastInDim S264 ![] bcast_S_S264 main_cst_10
  let main_v31 : IVec S264 1 := cmpf .olt main_v29 main_v30
  let main_c_11 : IVec S_ 1 := constantI S_ 1 1#1
  let main_v32 : IVec S_ 1 := (fun x v => Host.reduce IntOp.andi x v reducesTo_S264_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x8192 .f32) (main_arg1 : FVec F S4096x8192 .f32) (main_arg2 : FVec F S2112x8192 .f32) (main_arg3 : FVec F S2112x8192 .f32) (main_arg4 : FVec F S2112x264 .f32) (main_arg5 : FVec F S264x264 .f32) (main_arg6 : FVec F S264 .f32) (main_arg7 : FVec F S88x264 .f32) (main_arg8 : FVec F S88 .f32) (main_arg9 : FVec F S88x88 .f32) (main_arg10 : FVec F S88 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S2112x8192 .f32 := Host.absf main_arg2
  let main_cst_2 : FVec F S_ .f32 := constant S_ .f32 0x7F800000#32
  let main_v10 : FVec F S2112x8192 .f32 := broadcastInDim S2112x8192 ![] bcast_S_S2112x8192 main_cst_2
  let main_v11 : IVec S2112x8192 1 := cmpf .olt main_v9 main_v10
  let main_c_3 : IVec S_ 1 := constantI S_ 1 1#1
  let main_v12 : IVec S_ 1 := (fun x v => Host.reduce IntOp.andi x v reducesTo_S2112x8192_S_d0_1 h_S_) main_v11 main_c_3
  let main_v13 : IVec S_ 1 := andi main_v8 main_v12
  let main_v14 : FVec F S2112x8192 .f32 := Host.absf main_arg3
  let main_cst_4 : FVec F S_ .f32 := constant S_ .f32 0x7F800000#32
  let main_v15 : FVec F S2112x8192 .f32 := broadcastInDim S2112x8192 ![] bcast_S_S2112x8192 main_cst_4
  let main_v16 : IVec S2112x8192 1 := cmpf .olt main_v14 main_v15
  fn_part1 (F := F) main_arg4 main_arg5 main_arg6 main_arg7 main_arg8 main_arg9 main_arg10 main_v13 main_v16
-- ==== Kernel.lean ====
abbrev S4096x8192 : Shape := ⟨2, ![4096, 8192]⟩
abbrev S2112x8192 : Shape := ⟨2, ![2112, 8192]⟩
abbrev S2112x264 : Shape := ⟨2, ![2112, 264]⟩
abbrev S264x264 : Shape := ⟨2, ![264, 264]⟩
abbrev S264 : Shape := ⟨1, ![264]⟩
abbrev S88x264 : Shape := ⟨2, ![88, 264]⟩
abbrev S88 : Shape := ⟨1, ![88]⟩
abbrev S88x88 : Shape := ⟨2, ![88, 88]⟩
abbrev S264x2112 : Shape := ⟨2, ![264, 2112]⟩
abbrev S_ : Shape := ⟨0, ![]⟩
abbrev S128x264 : Shape := ⟨2, ![128, 264]⟩
abbrev S128 : Shape := ⟨1, ![128]⟩
abbrev S1x128 : Shape := ⟨2, ![1, 128]⟩
abbrev S128x128 : Shape := ⟨2, ![128, 128]⟩
abbrev S1x264 : Shape := ⟨2, ![1, 264]⟩
abbrev S4096x128 : Shape := ⟨2, ![4096, 128]⟩
abbrev S1024x512 : Shape := ⟨2, ![1024, 512]⟩
abbrev S2112x512 : Shape := ⟨2, ![2112, 512]⟩
abbrev S1024x128 : Shape := ⟨2, ![1024, 128]⟩
abbrev S1024x2112 : Shape := ⟨2, ![1024, 2112]⟩
abbrev S1024x1 : Shape := ⟨2, ![1024, 1]⟩
abbrev S1024 : Shape := ⟨1, ![1024]⟩
abbrev S1024x264 : Shape := ⟨2, ![1024, 264]⟩
abbrev S4096x88 : Shape := ⟨2, ![4096, 88]⟩

abbrev nBuf : Space → Nat
  | .hbm => 31
  | .vmem => 19
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S2112x8192, .f32⟩
  | .hbm, ⟨3, _⟩ => ⟨S2112x8192, .f32⟩
  | .hbm, ⟨4, _⟩ => ⟨S2112x264, .f32⟩
  | .hbm, ⟨5, _⟩ => ⟨S264x264, .f32⟩
  | .hbm, ⟨6, _⟩ => ⟨S264, .f32⟩
  | .hbm, ⟨7, _⟩ => ⟨S88x264, .f32⟩
  | .hbm, ⟨8, _⟩ => ⟨S88, .f32⟩
  | .hbm, ⟨9, _⟩ => ⟨S88x88, .f32⟩
  | .hbm, ⟨10, _⟩ => ⟨S88, .f32⟩
  | .hbm, ⟨11, _⟩ => ⟨S2112x8192, .bf16⟩
  | .hbm, ⟨12, _⟩ => ⟨S2112x8192, .bf16⟩
  | .hbm, ⟨13, _⟩ => ⟨S264x2112, .f32⟩
  | .hbm, ⟨14, _⟩ => ⟨S_, .i32⟩
  | .hbm, ⟨15, _⟩ => ⟨S_, .f32⟩
  | .hbm, ⟨16, _⟩ => ⟨S128x264, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .i32⟩
  | .hbm, ⟨22, _⟩ => ⟨S_, .f32⟩
  | .hbm, ⟨23, _⟩ => ⟨S128x128, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S1x264, .f32⟩
  | .hbm, ⟨29, _⟩ => ⟨S4096x128, .f32⟩
  | .hbm, ⟨30, _⟩ => ⟨S4096x88, .f32⟩
  | .local _ .vmem, ⟨0, _⟩ => ⟨S1024x512, .f32⟩
  | .local _ .vmem, ⟨1, _⟩ => ⟨S1024x512, .f32⟩
  | .local _ .vmem, ⟨2, _⟩ => ⟨S2112x512, .bf16⟩
  | .local _ .vmem, ⟨3, _⟩ => ⟨S2112x512, .bf16⟩
  | .local _ .vmem, ⟨4, _⟩ => ⟨S2112x512, .bf16⟩
  | .local _ .vmem, ⟨5, _⟩ => ⟨S2112x512, .bf16⟩
  | .local _ .vmem, ⟨6, _⟩ => ⟨S2112x264, .f32⟩
  | .local _ .vmem, ⟨7, _⟩ => ⟨S264x2112, .f32⟩
  | .local _ .vmem, ⟨8, _⟩ => ⟨S264x264, .f32⟩
  | .local _ .vmem, ⟨9, _⟩ => ⟨S1x264, .f32⟩
  | .local _ .vmem, ⟨10, _⟩ => ⟨S128x264, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x2112, .f32⟩
  | .local _ .vmem, ⟨17, _⟩ => ⟨S1024x2112, .f32⟩
  | .local _ .vmem, ⟨18, _⟩ => ⟨S1024x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_call2_v0 : Ref sig .tc := ⟨.hbm, 22, rfl⟩
abbrev main_v6 : Ref sig .tc := ⟨.hbm, 23, rfl⟩
abbrev main_c_2 : Ref sig .tc := ⟨.hbm, 24, rfl⟩
abbrev main_call3_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2112x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2112x264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S264x2112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S264x264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x264 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  bitsLt_bf16_f32 : FTy.bits .bf16 < FTy.bits .f32
  transposes_S2112x264_S264x2112_1_0 : S2112x264.Transposes [1, 0] S264x2112
  pads_S88x264_S128x264_0400_000 : S88x264.Pads (![0, 0] : Fin 2 → Nat) ![40, 0] ![0, 0] S128x264
  h_S_ : 0 < S_.numel
  pads_S88_S128_0400 : S88.Pads (![0] : Fin 1 → Nat) ![40] ![0] S128
  shapeCasts_S128_S1x128 : S128.ShapeCasts S1x128
  pads_S88x88_S128x128_0400_0400 : S88x88.Pads (![0, 0] : Fin 2 → Nat) ![40, 40] ![0, 0] S128x128
  shapeCasts_S264_S1x264 : S264.ShapeCasts S1x264
  inb_S1024x2112_S1024x2112_0_0 : ∀ a, (![0, 0] : Fin 2 → Nat) a + S1024x2112.size a ≤ S1024x2112.size a
  h_S1024x2112 : 0 < S1024x2112.numel
  shapeCasts_S1024x2112_S1024x2112 : S1024x2112.ShapeCasts S1024x2112
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  natLt_1_32 : 1 < 32
  reduces_S1024x512_S1024 : S1024x512.Reduces [1] S1024
  shapeCasts_S1024_S1024x1 : S1024.ShapeCasts S1024x1
  inb_S2112x512_S2112x512_0_0 : ∀ a, (![0, 0] : Fin 2 → Nat) a + S2112x512.size a ≤ S2112x512.size a
  h_S2112x512 : 0 < S2112x512.numel
  shapeCasts_S2112x512_S2112x512 : S2112x512.ShapeCasts S2112x512
  broadcasts_S1024x1_S1024x2112 : S1024x1.Broadcasts S1024x2112
  inb_S2112x264_S2112x264_0_0 : ∀ a, (![0, 0] : Fin 2 → Nat) a + S2112x264.size a ≤ S2112x264.size a
  h_S2112x264 : 0 < S2112x264.numel
  inb_S264x2112_S264x2112_0_0 : ∀ a, (![0, 0] : Fin 2 → Nat) a + S264x2112.size a ≤ S264x2112.size a
  h_S264x2112 : 0 < S264x2112.numel
  shapeCasts_S264x2112_S264x2112 : S264x2112.ShapeCasts S264x2112
  inb_S264x264_S264x264_0_0 : ∀ a, (![0, 0] : Fin 2 → Nat) a + S264x264.size a ≤ S264x264.size a
  h_S264x264 : 0 < S264x264.numel
  inb_S1x264_S1x264_0_0 : ∀ a, (![0, 0] : Fin 2 → Nat) a + S1x264.size a ≤ S1x264.size a
  h_S1x264 : 0 < S1x264.numel
  shapeCasts_S1x264_S1x264 : S1x264.ShapeCasts S1x264
  broadcasts_S1x264_S1024x264 : S1x264.Broadcasts S1024x264
  inb_S128x264_S128x264_0_0 : ∀ a, (![0, 0] : Fin 2 → Nat) a + S128x264.size a ≤ S128x264.size a
  h_S128x264 : 0 < S128x264.numel
  shapeCasts_S128x264_S128x264 : S128x264.ShapeCasts S128x264
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  slices_S4096x128_S4096x88_0_0 : S4096x128.Slices ![0, 0] S4096x88
  dot_S1024x512_S2112x512_S1024x2112_1_1_0_0_n_n_wf : DotDims.WF S1024x512 S2112x512 S1024x2112 [1] [1] [0] [0] [] []
  dot_S1024x2112_S2112x264_S1024x264_1_0_0_1_n_n_wf : DotDims.WF S1024x2112 S2112x264 S1024x264 [1] [0] [0] [1] [] []
  dot_S1024x264_S264x2112_S1024x2112_1_0_0_1_n_n_wf : DotDims.WF S1024x264 S264x2112 S1024x2112 [1] [0] [0] [1] [] []
  dot_S1024x264_S264x264_S1024x264_1_1_0_0_n_n_wf : DotDims.WF S1024x264 S264x264 S1024x264 [1] [1] [0] [0] [] []
  dot_S1024x264_S128x264_S1024x128_1_1_0_0_n_n_wf : DotDims.WF S1024x264 S128x264 S1024x128 [1] [1] [0] [0] [] []
  dot_S1024x128_S128x128_S1024x128_1_1_0_0_n_n_wf : DotDims.WF S1024x128 S128x128 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x8192.size a
  hwx0_0 : ∀ i : grid0.Coords, EltTy.bits .f32 = 32 ∨ (Rect.block (s := S4096x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2112x512.size a ≤ S2112x8192.size a
  hwx0_1 : ∀ i : grid0.Coords, EltTy.bits .bf16 = 32 ∨ (Rect.block (s := S2112x8192) S2112x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2112x512.size a ≤ S2112x8192.size a
  hwx0_2 : ∀ i : grid0.Coords, EltTy.bits .bf16 = 32 ∨ (Rect.block (s := S2112x8192) S2112x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2112x264.size a ≤ S2112x264.size a
  hwx0_3 : ∀ i : grid0.Coords, EltTy.bits .f32 = 32 ∨ (Rect.block (s := S2112x264) S2112x264.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S264x2112.size a ≤ S264x2112.size a
  hwx0_4 : ∀ i : grid0.Coords, EltTy.bits .f32 = 32 ∨ (Rect.block (s := S264x2112) S264x2112.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S264x264.size a ≤ S264x264.size a
  hwx0_5 : ∀ i : grid0.Coords, EltTy.bits .f32 = 32 ∨ (Rect.block (s := S264x264) S264x264.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x264.size a ≤ S1x264.size a
  hwx0_6 : ∀ i : grid0.Coords, EltTy.bits .f32 = 32 ∨ (Rect.block (s := S1x264) S1x264.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x264.size a ≤ S128x264.size a
  hwx0_7 : ∀ i : grid0.Coords, EltTy.bits .f32 = 32 ∨ (Rect.block (s := S128x264) S128x264.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S4096x128.size a
  hwx0_11 : ∀ i : grid0.Coords, EltTy.bits .f32 = 32 ∨ (Rect.block (s := S4096x128) S1024x128.size (cc0_transform_11 i) (hinb0_11 i)).WholeWords (EltTy.packing .f32)

variable [Facts₀]

def dot_S1024x512_S2112x512_S1024x2112_1_1_0_0_n_n : DotDims S1024x512 S2112x512 S1024x2112 where
  lhsContracting := [1]
  rhsContracting := [1]
  lhsNonContracting := [0]
  rhsNonContracting := [0]
  lhsBatch := []
  rhsBatch := []
  wf := dot_S1024x512_S2112x512_S1024x2112_1_1_0_0_n_n_wf
def dot_S1024x2112_S2112x264_S1024x264_1_0_0_1_n_n : DotDims S1024x2112 S2112x264 S1024x264 where
  lhsContracting := [1]
  rhsContracting := [0]
  lhsNonContracting := [0]
  rhsNonContracting := [1]
  lhsBatch := []
  rhsBatch := []
  wf := dot_S1024x2112_S2112x264_S1024x264_1_0_0_1_n_n_wf
def dot_S1024x264_S264x2112_S1024x2112_1_0_0_1_n_n : DotDims S1024x264 S264x2112 S1024x2112 where
  lhsContracting := [1]
  rhsContracting := [0]
  lhsNonContracting := [0]
  rhsNonContracting := [1]
  lhsBatch := []
  rhsBatch := []
  wf := dot_S1024x264_S264x2112_S1024x2112_1_0_0_1_n_n_wf
def dot_S1024x264_S264x264_S1024x264_1_1_0_0_n_n : DotDims S1024x264 S264x264 S1024x264 where
  lhsContracting := [1]
  rhsContracting := [1]
  lhsNonContracting := [0]
  rhsNonContracting := [0]
  lhsBatch := []
  rhsBatch := []
  wf := dot_S1024x264_S264x264_S1024x264_1_1_0_0_n_n_wf
def dot_S1024x264_S128x264_S1024x128_1_1_0_0_n_n : DotDims S1024x264 S128x264 S1024x128 where
  lhsContracting := [1]
  rhsContracting := [1]
  lhsNonContracting := [0]
  rhsNonContracting := [0]
  lhsBatch := []
  rhsBatch := []
  wf := dot_S1024x264_S128x264_S1024x128_1_1_0_0_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2112x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2112x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2112x264.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S264x2112.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S264x264.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x264.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x264.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1024x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x8192 : Shape := ⟨2, ![4096, 8192]⟩
abbrev S2112x8192 : Shape := ⟨2, ![2112, 8192]⟩
abbrev S2112x264 : Shape := ⟨2, ![2112, 264]⟩
abbrev S264x264 : Shape := ⟨2, ![264, 264]⟩
abbrev S264 : Shape := ⟨1, ![264]⟩
abbrev S88x264 : Shape := ⟨2, ![88, 264]⟩
abbrev S88 : Shape := ⟨1, ![88]⟩
abbrev S88x88 : Shape := ⟨2, ![88, 88]⟩
abbrev S_ : Shape := ⟨0, ![]⟩
abbrev S4096 : Shape := ⟨1, ![4096]⟩
abbrev S4096x1 : Shape := ⟨2, ![4096, 1]⟩
abbrev S8192x2112 : Shape := ⟨2, ![8192, 2112]⟩
abbrev S4096x2112 : Shape := ⟨2, ![4096, 2112]⟩
abbrev S4096x264 : Shape := ⟨2, ![4096, 264]⟩
abbrev S264x2112 : Shape := ⟨2, ![264, 2112]⟩
abbrev S1x264 : Shape := ⟨2, ![1, 264]⟩
abbrev S264x88 : Shape := ⟨2, ![264, 88]⟩
abbrev S4096x88 : Shape := ⟨2, ![4096, 88]⟩
abbrev S1x88 : Shape := ⟨2, ![1, 88]⟩

abbrev nBuf : Space → Nat
  | .hbm => 157
  | .vmem => 0
  | .smem => 0
  | _ => 0

abbrev hbmTy0_0 (i : Nat) : BufTy := match i % 128 with
  | 0 => ⟨S4096x8192, .f32⟩
  | 1 => ⟨S4096x8192, .f32⟩
  | 2 => ⟨S2112x8192, .f32⟩
  | 3 => ⟨S2112x8192, .f32⟩
  | 4 => ⟨S2112x264, .f32⟩
  | 5 => ⟨S264x264, .f32⟩
  | 6 => ⟨S264, .f32⟩
  | 7 => ⟨S88x264, .f32⟩
  | 8 => ⟨S88, .f32⟩
  | 9 => ⟨S88x88, .f32⟩
  | 10 => ⟨S88, .f32⟩
  | 11 => ⟨S_, .f32⟩
  | 12 => ⟨S4096x8192, .f32⟩
  | 13 => ⟨S4096x8192, .i1⟩
  | 14 => ⟨S4096x8192, .i32⟩
  | 15 => ⟨S_, .i32⟩
  | 16 => ⟨S4096, .i32⟩
  | 17 => ⟨S_, .i32⟩
  | 18 => ⟨S4096, .i32⟩
  | 19 => ⟨S4096, .i32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S8192x2112, .f32⟩
  | 26 => ⟨S4096x2112, .f32⟩
  | 27 => ⟨S4096x2112, .f32⟩
  | 28 => ⟨S4096x2112, .f32⟩
  | 29 => ⟨S8192x2112, .f32⟩
  | 30 => ⟨S4096x2112, .f32⟩
  | 31 => ⟨S4096x2112, .f32⟩
  | 32 => ⟨S4096x2112, .f32⟩
  | 33 => ⟨S4096x2112, .f32⟩
  | 34 => ⟨S4096x2112, .f32⟩
  | 35 => ⟨S4096x2112, .f32⟩
  | 36 => ⟨S4096x2112, .f32⟩
  | 37 => ⟨S4096x264, .f32⟩
  | 38 => ⟨S_, .f32⟩
  | 39 => ⟨S4096x264, .f32⟩
  | 40 => ⟨S4096x264, .f32⟩
  | 41 => ⟨S_, .f32⟩
  | 42 => ⟨S4096x264, .f32⟩
  | 43 => ⟨S4096x264, .f32⟩
  | 44 => ⟨S264x2112, .f32⟩
  | 45 => ⟨S4096x2112, .f32⟩
  | 46 => ⟨S4096x2112, .f32⟩
  | 47 => ⟨S_, .f32⟩
  | 48 => ⟨S4096x2112, .f32⟩
  | 49 => ⟨S4096x2112, .f32⟩
  | 50 => ⟨S_, .f32⟩
  | 51 => ⟨S4096x2112, .f32⟩
  | 52 => ⟨S4096x2112, .f32⟩
  | 53 => ⟨S4096x2112, .f32⟩
  | 54 => ⟨S4096x264, .f32⟩
  | 55 => ⟨S_, .f32⟩
  | 56 => ⟨S4096x264, .f32⟩
  | 57 => ⟨S4096x264, .f32⟩
  | 58 => ⟨S_, .f32⟩
  | 59 => ⟨S4096x264, .f32⟩
  | 60 => ⟨S4096x264, .f32⟩
  | 61 => ⟨S4096x264, .f32⟩
  | 62 => ⟨S_, .f32⟩
  | 63 => ⟨S4096x264, .f32⟩
  | 64 => ⟨S4096x264, .f32⟩
  | 65 => ⟨S264x2112, .f32⟩
  | 66 => ⟨S4096x2112, .f32⟩
  | 67 => ⟨S4096x2112, .f32⟩
  | 68 => ⟨S_, .f32⟩
  | 69 => ⟨S4096x2112, .f32⟩
  | 70 => ⟨S4096x2112, .f32⟩
  | 71 => ⟨S_, .f32⟩
  | 72 => ⟨S4096x2112, .f32⟩
  | 73 => ⟨S4096x2112, .f32⟩
  | 74 => ⟨S4096x2112, .f32⟩
  | 75 => ⟨S4096x264, .f32⟩
  | 76 => ⟨S_, .f32⟩
  | 77 => ⟨S4096x264, .f32⟩
  | 78 => ⟨S4096x264, .f32⟩
  | 79 => ⟨S_, .f32⟩
  | 80 => ⟨S4096x264, .f32⟩
  | 81 => ⟨S4096x264, .f32⟩
  | 82 => ⟨S4096x264, .f32⟩
  | 83 => ⟨S_, .f32⟩
  | 84 => ⟨S4096x264, .f32⟩
  | 85 => ⟨S4096x264, .f32⟩
  | 86 => ⟨S264x2112, .f32⟩
  | 87 => ⟨S4096x2112, .f32⟩
  | 88 => ⟨S4096x2112, .f32⟩
  | 89 => ⟨S_, .f32⟩
  | 90 => ⟨S4096x2112, .f32⟩
  | 91 => ⟨S4096x2112, .f32⟩
  | 92 => ⟨S_, .f32⟩
  | 93 => ⟨S4096x2112, .f32⟩
  | 94 => ⟨S4096x2112, .f32⟩
  | 95 => ⟨S4096x2112, .f32⟩
  | 96 => ⟨S4096x264, .f32⟩
  | 97 => ⟨S_, .f32⟩
  | 98 => ⟨S4096x264, .f32⟩
  | 99 => ⟨S4096x264, .f32⟩
  | 100 => ⟨S_, .f32⟩
  | 101 => ⟨S4096x264, .f32⟩
  | 102 => ⟨S4096x264, .f32⟩
  | 103 => ⟨S4096x264, .f32⟩
  | 104 => ⟨S_, .f32⟩
  | 105 => ⟨S4096x264, .f32⟩
  | 106 => ⟨S4096x264, .f32⟩
  | 107 => ⟨S264x2112, .f32⟩
  | 108 => ⟨S4096x2112, .f32⟩
  | 109 => ⟨S4096x2112, .f32⟩
  | 110 => ⟨S_, .f32⟩
  | 111 => ⟨S4096x2112, .f32⟩
  | 112 => ⟨S4096x2112, .f32⟩
  | 113 => ⟨S_, .f32⟩
  | 114 => ⟨S4096x2112, .f32⟩
  | 115 => ⟨S4096x2112, .f32⟩
  | 116 => ⟨S4096x2112, .f32⟩
  | 117 => ⟨S4096x264, .f32⟩
  | 118 => ⟨S_, .f32⟩
  | 119 => ⟨S4096x264, .f32⟩
  | 120 => ⟨S4096x264, .f32⟩
  | 121 => ⟨S_, .f32⟩
  | 122 => ⟨S4096x264, .f32⟩
  | 123 => ⟨S4096x264, .f32⟩
  | 124 => ⟨S4096x264, .f32⟩
  | 125 => ⟨S_, .f32⟩
  | 126 => ⟨S4096x264, .f32⟩
  | 127 => ⟨S4096x264, .f32⟩
  | _ => ⟨S4096x8192, .f32⟩

abbrev hbmTy0_1 (i : Nat) : BufTy := match i % 128 with
  | 0 => ⟨S264x264, .f32⟩
  | 1 => ⟨S4096x264, .f32⟩
  | 2 => ⟨S1x264, .f32⟩
  | 3 => ⟨S4096x264, .f32⟩
  | 4 => ⟨S4096x264, .f32⟩
  | 5 => ⟨S_, .f32⟩
  | 6 => ⟨S4096x264, .f32⟩
  | 7 => ⟨S4096x264, .f32⟩
  | 8 => ⟨S264x88, .f32⟩
  | 9 => ⟨S4096x88, .f32⟩
  | 10 => ⟨S1x88, .f32⟩
  | 11 => ⟨S4096x88, .f32⟩
  | 12 => ⟨S4096x88, .f32⟩
  | 13 => ⟨S_, .f32⟩
  | 14 => ⟨S4096x88, .f32⟩
  | 15 => ⟨S4096x88, .f32⟩
  | 16 => ⟨S88x88, .f32⟩
  | 17 => ⟨S4096x88, .f32⟩
  | 18 => ⟨S1x88, .f32⟩
  | 19 => ⟨S4096x88, .f32⟩
  | 20 => ⟨S4096x88, .f32⟩
  | 21 => ⟨S4096x88, .f32⟩
  | 22 => ⟨S4096x88, .f32⟩
  | 23 => ⟨S_, .f32⟩
  | 24 => ⟨S4096x88, .f32⟩
  | 25 => ⟨S4096x88, .f32⟩
  | 26 => ⟨S_, .f32⟩
  | 27 => ⟨S4096x88, .f32⟩
  | 28 => ⟨S4096x88, .f32⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_c : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_call1_cst : Ref sig .tc := ⟨.hbm, 41, rfl⟩
abbrev main_call1_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call3_cst : Ref sig .tc := ⟨.hbm, 83, rfl⟩
abbrev main_call3_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_11 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call4_cst : Ref sig .tc := ⟨.hbm, 104, rfl⟩
abbrev main_call4_v0 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_13 : Ref sig .tc := ⟨.hbm, 110, rfl⟩
abbrev main_v71 : Ref sig .tc := ⟨.hbm, 111, rfl⟩
abbrev main_v72 : Ref sig .tc := ⟨.hbm, 112, rfl⟩
abbrev main_cst_14 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_15 : Ref sig .tc := ⟨.hbm, 118, rfl⟩
abbrev main_v77 : Ref sig .tc := ⟨.hbm, 119, rfl⟩
abbrev main_v78 : Ref sig .tc := ⟨.hbm, 120, rfl⟩
abbrev main_cst_16 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_call5_cst : Ref sig .tc := ⟨.hbm, 125, rfl⟩
abbrev main_call5_v0 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_call6_cst : Ref sig .tc := ⟨.hbm, 133, rfl⟩
abbrev main_call6_v0 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_call7_cst : Ref sig .tc := ⟨.hbm, 141, rfl⟩
abbrev main_call7_v0 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_17 : Ref sig .tc := ⟨.hbm, 151, rfl⟩
abbrev main_v102 : Ref sig .tc := ⟨.hbm, 152, rfl⟩
abbrev main_v103 : Ref sig .tc := ⟨.hbm, 153, rfl⟩
abbrev main_cst_18 : Ref sig .tc := ⟨.hbm, 154, rfl⟩
abbrev main_v104 : Ref sig .tc := ⟨.hbm, 155, rfl⟩
abbrev main_v105 : Ref sig .tc := ⟨.hbm, 156, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  natLt_1_32 : 1 < 32
  reducesTo_S4096x8192_S4096_d1 : S4096x8192.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  transposes_S2112x8192_S8192x2112_1_0 : S2112x8192.Transposes [1, 0] S8192x2112
  bcast_S4096x1_S4096x2112_0_1 : S4096x1.BroadcastsInDim S4096x2112 (![0, 1] : Fin 2 → Fin S4096x2112.rank)
  bcast_S_S4096x264 : S_.BroadcastsInDim S4096x264 (![] : Fin 0 → Fin S4096x264.rank)
  transposes_S2112x264_S264x2112_1_0 : S2112x264.Transposes [1, 0] S264x2112
  bcast_S_S4096x2112 : S_.BroadcastsInDim S4096x2112 (![] : Fin 0 → Fin S4096x2112.rank)
  transposes_S264x264_S264x264_1_0 : S264x264.Transposes [1, 0] S264x264
  bcast_S264_S1x264_1 : S264.BroadcastsInDim S1x264 (![1] : Fin 1 → Fin S1x264.rank)
  bcast_S1x264_S4096x264_0_1 : S1x264.BroadcastsInDim S4096x264 (![0, 1] : Fin 2 → Fin S4096x264.rank)
  transposes_S88x264_S264x88_1_0 : S88x264.Transposes [1, 0] S264x88
  bcast_S88_S1x88_1 : S88.BroadcastsInDim S1x88 (![1] : Fin 1 → Fin S1x88.rank)
  bcast_S1x88_S4096x88_0_1 : S1x88.BroadcastsInDim S4096x88 (![0, 1] : Fin 2 → Fin S4096x88.rank)
  bcast_S_S4096x88 : S_.BroadcastsInDim S4096x88 (![] : Fin 0 → Fin S4096x88.rank)
  transposes_S88x88_S88x88_1_0 : S88x88.Transposes [1, 0] S88x88
  dot_S4096x8192_S8192x2112_S4096x2112_1_0_0_1_n_n_wf : DotDims.WF S4096x8192 S8192x2112 S4096x2112 [1] [0] [0] [1] [] []
  dot_S4096x2112_S2112x264_S4096x264_1_0_0_1_n_n_wf : DotDims.WF S4096x2112 S2112x264 S4096x264 [1] [0] [0] [1] [] []
  dot_S4096x264_S264x2112_S4096x2112_1_0_0_1_n_n_wf : DotDims.WF S4096x264 S264x2112 S4096x2112 [1] [0] [0] [1] [] []
  dot_S4096x264_S264x264_S4096x264_1_0_0_1_n_n_wf : DotDims.WF S4096x264 S264x264 S4096x264 [1] [0] [0] [1] [] []
  dot_S4096x264_S264x88_S4096x88_1_0_0_1_n_n_wf : DotDims.WF S4096x264 S264x88 S4096x88 [1] [0] [0] [1] [] []
  dot_S4096x88_S88x88_S4096x88_1_0_0_1_n_n_wf : DotDims.WF S4096x88 S88x88 S4096x88 [1] [0] [0] [1] [] []

variable [Facts₀]

def dot_S4096x8192_S8192x2112_S4096x2112_1_0_0_1_n_n : DotDims S4096x8192 S8192x2112 S4096x2112 where
  lhsContracting := [1]
  rhsContracting := [0]
  lhsNonContracting := [0]
  rhsNonContracting := [1]
  lhsBatch := []
  rhsBatch := []
  wf := dot_S4096x8192_S8192x2112_S4096x2112_1_0_0_1_n_n_wf
def dot_S4096x2112_S2112x264_S4096x264_1_0_0_1_n_n : DotDims S4096x2112 S2112x264 S4096x264 where
  lhsContracting := [1]
  rhsContracting := [0]
  lhsNonContracting := [0]
  rhsNonContracting := [1]
  lhsBatch := []
  rhsBatch := []
  wf := dot_S4096x2112_S2112x264_S4096x264_1_0_0_1_n_n_wf
def dot_S4096x264_S264x2112_S4096x2112_1_0_0_1_n_n : DotDims S4096x264 S264x2112 S4096x2112 where
  lhsContracting := [1]
  rhsContracting := [0]
  lhsNonContracting := [0]
  rhsNonContracting := [1]
  lhsBatch := []
  rhsBatch := []
  wf := dot_S4096x264_S264x2112_S4096x2112_1_0_0_1_n_n_wf
def dot_S4096x264_S264x264_S4096x264_1_0_0_1_n_n : DotDims S4096x264 S264x264 S4096x264 where
  lhsContracting := [1]
  rhsContracting := [0]
  lhsNonContracting := [0]
  rhsNonContracting := [1]
  lhsBatch := []
  rhsBatch := []
  wf := dot_S4096x264_S264x264_S4096x264_1_0_0_1_n_n_wf
def dot_S4096x264_S264x88_S4096x88_1_0_0_1_n_n : DotDims S4096x264 S264x88 S4096x88 where
  lhsContracting := [1]
  rhsContracting := [0]
  lhsNonContracting := [0]
  rhsNonContracting := [1]
  lhsBatch := []
  rhsBatch := []
  wf := dot_S4096x264_S264x88_S4096x88_1_0_0_1_n_n_wf
def dot_S4096x88_S88x88_S4096x88_1_0_0_1_n_n : DotDims S4096x88 S88x88 S4096x88 where
  lhsContracting := [1]
  rhsContracting := [0]
  lhsNonContracting := [0]
  rhsNonContracting := [1]
  lhsBatch := []
  rhsBatch := []
  wf := dot_S4096x88_S88x88_S4096x88_1_0_0_1_n_n_wf

class Facts : Prop extends Facts₀ where

variable [Facts]
-- ==== Proof.KPieces.lean ====
/-
  What one run of the kernel body leaves in its buffers, as values.

  At the first step of a row block (case A) the three accumulators are set to zero and then advanced by one step; at the other
  steps (cases B and C) they are advanced from what the step before left. At the last step (case C) the output block is
  stored as well: the whole tail of the computation applied to the accumulators AFTER this step's update.
-/
import proofs.«178659_j38689065402872_2_alg».proof.Proof.Gen.KernelIdeal.Frame
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-- Case A, first product accumulator: zero, then one step. -/
theorem sout0_A_0_eq (c : Dev nD) (i : grid0.Coords) (arg2 : Memref sig .tc .vmem S1024x512 .f32) (harg2 : arg2.IsWhole) (arg3 : Memref sig .tc .vmem S2112x512 .bf16) (harg3 : arg3.IsWhole) (arg4 : Memref sig .tc .vmem S2112x512 .bf16) (harg4 : arg4.IsWhole) (arg5 : Memref sig .tc .vmem S2112x264 .f32) (harg5 : arg5.IsWhole) (arg6 : Memref sig .tc .vmem S264x2112 .f32) (harg6 : arg6.IsWhole) (arg7 : Memref sig .tc .vmem S264x264 .f32) (harg7 : arg7.IsWhole) (arg8 : Memref sig .tc .vmem S1x264 .f32) (harg8 : arg8.IsWhole) (arg9 : Memref sig .tc .vmem S128x264 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x2112 .f32) (harg14 : arg14.IsWhole) (arg15 : Memref sig .tc .vmem S1024x2112 .f32) (harg15 : arg15.IsWhole) (arg16 : Memref sig .tc .vmem S1024x1 .f32) (harg16 : arg16.IsWhole) (hc0 : cond0_0 i) (hc1 : ¬cond0_1 i)
    (x0 : Vec F S1024x512 .f32) (x1 : Vec F S2112x512 .bf16) (x2 : Vec F S2112x512 .bf16) (x3 : Vec F S2112x264 .f32) (x4 : Vec F S264x2112 .f32) (x5 : Vec F S264x264 .f32) (x6 : Vec F S1x264 .f32) (x7 : Vec F S128x264 .f32) (x8 : Vec F S1x128 .f32) (x9 : Vec F S128x128 .f32) (x10 : Vec F S1x128 .f32) :
    sout0_A_0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = k0_pay21 x0 x1 k0_pay16 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  first
    | rw [View.canon_unit_zero hz]
    | rw [View.canon_cons_unit_zero (S := S1024x2112) hz]
  simp only [View.readCov_unit_zero (S := S1024x2112) _ hz, View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x512) hz, View.ld_unit_zero (S := S2112x512) hz, View.ld_unit_zero (S := S2112x264) hz, View.ld_unit_zero (S := S264x2112) hz, View.ld_unit_zero (S := S264x264) hz, View.ld_unit_zero (S := S1x264) hz, View.ld_unit_zero (S := S128x264) hz, View.ld_unit_zero (S := S1x128) hz, View.ld_unit_zero (S := S128x128) hz, View.ld_unit_zero (S := S1024x128) hz, View.ld_unit_zero (S := S1024x2112) hz, View.ld_unit_zero (S := S1024x1) hz]

/-- Case A, second product accumulator: zero, then one step. -/
theorem sout0_A_1_eq (c : Dev nD) (i : grid0.Coords) (arg2 : Memref sig .tc .vmem S1024x512 .f32) (harg2 : arg2.IsWhole) (arg3 : Memref sig .tc .vmem S2112x512 .bf16) (harg3 : arg3.IsWhole) (arg4 : Memref sig .tc .vmem S2112x512 .bf16) (harg4 : arg4.IsWhole) (arg5 : Memref sig .tc .vmem S2112x264 .f32) (harg5 : arg5.IsWhole) (arg6 : Memref sig .tc .vmem S264x2112 .f32) (harg6 : arg6.IsWhole) (arg7 : Memref sig .tc .vmem S264x264 .f32) (harg7 : arg7.IsWhole) (arg8 : Memref sig .tc .vmem S1x264 .f32) (harg8 : arg8.IsWhole) (arg9 : Memref sig .tc .vmem S128x264 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x2112 .f32) (harg14 : arg14.IsWhole) (arg15 : Memref sig .tc .vmem S1024x2112 .f32) (harg15 : arg15.IsWhole) (arg16 : Memref sig .tc .vmem S1024x1 .f32) (harg16 : arg16.IsWhole) (hc0 : cond0_0 i) (hc1 : ¬cond0_1 i)
    (x0 : Vec F S1024x512 .f32) (x1 : Vec F S2112x512 .bf16) (x2 : Vec F S2112x512 .bf16) (x3 : Vec F S2112x264 .f32) (x4 : Vec F S264x2112 .f32) (x5 : Vec F S264x264 .f32) (x6 : Vec F S1x264 .f32) (x7 : Vec F S128x264 .f32) (x8 : Vec F S1x128 .f32) (x9 : Vec F S128x128 .f32) (x10 : Vec F S1x128 .f32) :
    sout0_A_1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = k0_pay1 (k0_pay22 x0 x2 k0_pay17) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  first
    | rw [View.canon_unit_zero hz]
    | rw [View.canon_cons_unit_zero (S := S1024x2112) hz]
  simp only [View.readCov_unit_zero (S := S1024x2112) _ hz, View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x512) hz, View.ld_unit_zero (S := S2112x512) hz, View.ld_unit_zero (S := S2112x264) hz, View.ld_unit_zero (S := S264x2112) hz, View.ld_unit_zero (S := S264x264) hz, View.ld_unit_zero (S := S1x264) hz, View.ld_unit_zero (S := S128x264) hz, View.ld_unit_zero (S := S1x128) hz, View.ld_unit_zero (S := S128x128) hz, View.ld_unit_zero (S := S1024x128) hz, View.ld_unit_zero (S := S1024x2112) hz, View.ld_unit_zero (S := S1024x1) hz]

/-- Case A, the counter: zero, then one step. -/
theorem sout0_A_2_eq (c : Dev nD) (i : grid0.Coords) (arg2 : Memref sig .tc .vmem S1024x512 .f32) (harg2 : arg2.IsWhole) (arg3 : Memref sig .tc .vmem S2112x512 .bf16) (harg3 : arg3.IsWhole) (arg4 : Memref sig .tc .vmem S2112x512 .bf16) (harg4 : arg4.IsWhole) (arg5 : Memref sig .tc .vmem S2112x264 .f32) (harg5 : arg5.IsWhole) (arg6 : Memref sig .tc .vmem S264x2112 .f32) (harg6 : arg6.IsWhole) (arg7 : Memref sig .tc .vmem S264x264 .f32) (harg7 : arg7.IsWhole) (arg8 : Memref sig .tc .vmem S1x264 .f32) (harg8 : arg8.IsWhole) (arg9 : Memref sig .tc .vmem S128x264 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x2112 .f32) (harg14 : arg14.IsWhole) (arg15 : Memref sig .tc .vmem S1024x2112 .f32) (harg15 : arg15.IsWhole) (arg16 : Memref sig .tc .vmem S1024x1 .f32) (harg16 : arg16.IsWhole) (hc0 : cond0_0 i) (hc1 : ¬cond0_1 i)
    (x0 : Vec F S1024x512 .f32) (x1 : Vec F S2112x512 .bf16) (x2 : Vec F S2112x512 .bf16) (x3 : Vec F S2112x264 .f32) (x4 : Vec F S264x2112 .f32) (x5 : Vec F S264x264 .f32) (x6 : Vec F S1x264 .f32) (x7 : Vec F S128x264 .f32) (x8 : Vec F S1x128 .f32) (x9 : Vec F S128x128 .f32) (x10 : Vec F S1x128 .f32) :
    sout0_A_2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = k0_pay19 x0 k0_pay18 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  first
    | rw [View.canon_unit_zero hz]
    | rw [View.canon_cons_unit_zero (S := S1024x1) hz]
  simp only [View.readCov_unit_zero (S := S1024x2112) _ hz, View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x512) hz, View.ld_unit_zero (S := S2112x512) hz, View.ld_unit_zero (S := S2112x264) hz, View.ld_unit_zero (S := S264x2112) hz, View.ld_unit_zero (S := S264x264) hz, View.ld_unit_zero (S := S1x264) hz, View.ld_unit_zero (S := S128x264) hz, View.ld_unit_zero (S := S1x128) hz, View.ld_unit_zero (S := S128x128) hz, View.ld_unit_zero (S := S1024x128) hz, View.ld_unit_zero (S := S1024x2112) hz, View.ld_unit_zero (S := S1024x1) hz]

/-- Case B, first product accumulator: one step from what the step before left. -/
theorem sout0_B_0_eq (c : Dev nD) (i : grid0.Coords) (arg2 : Memref sig .tc .vmem S1024x512 .f32) (harg2 : arg2.IsWhole) (arg3 : Memref sig .tc .vmem S2112x512 .bf16) (harg3 : arg3.IsWhole) (arg4 : Memref sig .tc .vmem S2112x512 .bf16) (harg4 : arg4.IsWhole) (arg5 : Memref sig .tc .vmem S2112x264 .f32) (harg5 : arg5.IsWhole) (arg6 : Memref sig .tc .vmem S264x2112 .f32) (harg6 : arg6.IsWhole) (arg7 : Memref sig .tc .vmem S264x264 .f32) (harg7 : arg7.IsWhole) (arg8 : Memref sig .tc .vmem S1x264 .f32) (harg8 : arg8.IsWhole) (arg9 : Memref sig .tc .vmem S128x264 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x2112 .f32) (harg14 : arg14.IsWhole) (arg15 : Memref sig .tc .vmem S1024x2112 .f32) (harg15 : arg15.IsWhole) (arg16 : Memref sig .tc .vmem S1024x1 .f32) (harg16 : arg16.IsWhole) (hc0 : ¬cond0_0 i) (hc1 : ¬cond0_1 i)
    (x0 : Vec F S1024x512 .f32) (x1 : Vec F S2112x512 .bf16) (x2 : Vec F S2112x512 .bf16) (x3 : Vec F S2112x264 .f32) (x4 : Vec F S264x2112 .f32) (x5 : Vec F S264x264 .f32) (x6 : Vec F S1x264 .f32) (x7 : Vec F S128x264 .f32) (x8 : Vec F S1x128 .f32) (x9 : Vec F S128x128 .f32) (x10 : Vec F S1x128 .f32) (xs0 : Vec F S1024x2112 .f32) (xs1 : Vec F S1024x2112 .f32) (xs2 : Vec F S1024x1 .f32) :
    sout0_B_0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay21 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_B
  dsimp only
  sl_unfold_words
  first
    | rw [View.canon_unit_zero hz]
    | rw [View.canon_cons_unit_zero (S := S1024x2112) hz]
  simp only [View.readCov_unit_zero (S := S1024x2112) _ hz, View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x512) hz, View.ld_unit_zero (S := S2112x512) hz, View.ld_unit_zero (S := S2112x264) hz, View.ld_unit_zero (S := S264x2112) hz, View.ld_unit_zero (S := S264x264) hz, View.ld_unit_zero (S := S1x264) hz, View.ld_unit_zero (S := S128x264) hz, View.ld_unit_zero (S := S1x128) hz, View.ld_unit_zero (S := S128x128) hz, View.ld_unit_zero (S := S1024x128) hz, View.ld_unit_zero (S := S1024x2112) hz, View.ld_unit_zero (S := S1024x1) hz]

/-- Case B, second product accumulator. -/
theorem sout0_B_1_eq (c : Dev nD) (i : grid0.Coords) (arg2 : Memref sig .tc .vmem S1024x512 .f32) (harg2 : arg2.IsWhole) (arg3 : Memref sig .tc .vmem S2112x512 .bf16) (harg3 : arg3.IsWhole) (arg4 : Memref sig .tc .vmem S2112x512 .bf16) (harg4 : arg4.IsWhole) (arg5 : Memref sig .tc .vmem S2112x264 .f32) (harg5 : arg5.IsWhole) (arg6 : Memref sig .tc .vmem S264x2112 .f32) (harg6 : arg6.IsWhole) (arg7 : Memref sig .tc .vmem S264x264 .f32) (harg7 : arg7.IsWhole) (arg8 : Memref sig .tc .vmem S1x264 .f32) (harg8 : arg8.IsWhole) (arg9 : Memref sig .tc .vmem S128x264 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x2112 .f32) (harg14 : arg14.IsWhole) (arg15 : Memref sig .tc .vmem S1024x2112 .f32) (harg15 : arg15.IsWhole) (arg16 : Memref sig .tc .vmem S1024x1 .f32) (harg16 : arg16.IsWhole) (hc0 : ¬cond0_0 i) (hc1 : ¬cond0_1 i)
    (x0 : Vec F S1024x512 .f32) (x1 : Vec F S2112x512 .bf16) (x2 : Vec F S2112x512 .bf16) (x3 : Vec F S2112x264 .f32) (x4 : Vec F S264x2112 .f32) (x5 : Vec F S264x264 .f32) (x6 : Vec F S1x264 .f32) (x7 : Vec F S128x264 .f32) (x8 : Vec F S1x128 .f32) (x9 : Vec F S128x128 .f32) (x10 : Vec F S1x128 .f32) (xs0 : Vec F S1024x2112 .f32) (xs1 : Vec F S1024x2112 .f32) (xs2 : Vec F S1024x1 .f32) :
    sout0_B_1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay1 (k0_pay22 x0 x2 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_B
  dsimp only
  sl_unfold_words
  first
    | rw [View.canon_unit_zero hz]
    | rw [View.canon_cons_unit_zero (S := S1024x2112) hz]
  simp only [View.readCov_unit_zero (S := S1024x2112) _ hz, View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x512) hz, View.ld_unit_zero (S := S2112x512) hz, View.ld_unit_zero (S := S2112x264) hz, View.ld_unit_zero (S := S264x2112) hz, View.ld_unit_zero (S := S264x264) hz, View.ld_unit_zero (S := S1x264) hz, View.ld_unit_zero (S := S128x264) hz, View.ld_unit_zero (S := S1x128) hz, View.ld_unit_zero (S := S128x128) hz, View.ld_unit_zero (S := S1024x128) hz, View.ld_unit_zero (S := S1024x2112) hz, View.ld_unit_zero (S := S1024x1) hz]

/-- Case B, the counter. -/
theorem sout0_B_2_eq (c : Dev nD) (i : grid0.Coords) (arg2 : Memref sig .tc .vmem S1024x512 .f32) (harg2 : arg2.IsWhole) (arg3 : Memref sig .tc .vmem S2112x512 .bf16) (harg3 : arg3.IsWhole) (arg4 : Memref sig .tc .vmem S2112x512 .bf16) (harg4 : arg4.IsWhole) (arg5 : Memref sig .tc .vmem S2112x264 .f32) (harg5 : arg5.IsWhole) (arg6 : Memref sig .tc .vmem S264x2112 .f32) (harg6 : arg6.IsWhole) (arg7 : Memref sig .tc .vmem S264x264 .f32) (harg7 : arg7.IsWhole) (arg8 : Memref sig .tc .vmem S1x264 .f32) (harg8 : arg8.IsWhole) (arg9 : Memref sig .tc .vmem S128x264 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x2112 .f32) (harg14 : arg14.IsWhole) (arg15 : Memref sig .tc .vmem S1024x2112 .f32) (harg15 : arg15.IsWhole) (arg16 : Memref sig .tc .vmem S1024x1 .f32) (harg16 : arg16.IsWhole) (hc0 : ¬cond0_0 i) (hc1 : ¬cond0_1 i)
    (x0 : Vec F S1024x512 .f32) (x1 : Vec F S2112x512 .bf16) (x2 : Vec F S2112x512 .bf16) (x3 : Vec F S2112x264 .f32) (x4 : Vec F S264x2112 .f32) (x5 : Vec F S264x264 .f32) (x6 : Vec F S1x264 .f32) (x7 : Vec F S128x264 .f32) (x8 : Vec F S1x128 .f32) (x9 : Vec F S128x128 .f32) (x10 : Vec F S1x128 .f32) (xs0 : Vec F S1024x2112 .f32) (xs1 : Vec F S1024x2112 .f32) (xs2 : Vec F S1024x1 .f32) :
    sout0_B_2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay19 x0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_B
  dsimp only
  sl_unfold_words
  first
    | rw [View.canon_unit_zero hz]
    | rw [View.canon_cons_unit_zero (S := S1024x1) hz]
  simp only [View.readCov_unit_zero (S := S1024x2112) _ hz, View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x512) hz, View.ld_unit_zero (S := S2112x512) hz, View.ld_unit_zero (S := S2112x264) hz, View.ld_unit_zero (S := S264x2112) hz, View.ld_unit_zero (S := S264x264) hz, View.ld_unit_zero (S := S1x264) hz, View.ld_unit_zero (S := S128x264) hz, View.ld_unit_zero (S := S1x128) hz, View.ld_unit_zero (S := S128x128) hz, View.ld_unit_zero (S := S1024x128) hz, View.ld_unit_zero (S := S1024x2112) hz, View.ld_unit_zero (S := S1024x1) hz]

/-- Case C, first product accumulator. -/
theorem sout0_C_0_eq (c : Dev nD) (i : grid0.Coords) (arg2 : Memref sig .tc .vmem S1024x512 .f32) (harg2 : arg2.IsWhole) (arg3 : Memref sig .tc .vmem S2112x512 .bf16) (harg3 : arg3.IsWhole) (arg4 : Memref sig .tc .vmem S2112x512 .bf16) (harg4 : arg4.IsWhole) (arg5 : Memref sig .tc .vmem S2112x264 .f32) (harg5 : arg5.IsWhole) (arg6 : Memref sig .tc .vmem S264x2112 .f32) (harg6 : arg6.IsWhole) (arg7 : Memref sig .tc .vmem S264x264 .f32) (harg7 : arg7.IsWhole) (arg8 : Memref sig .tc .vmem S1x264 .f32) (harg8 : arg8.IsWhole) (arg9 : Memref sig .tc .vmem S128x264 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x2112 .f32) (harg14 : arg14.IsWhole) (arg15 : Memref sig .tc .vmem S1024x2112 .f32) (harg15 : arg15.IsWhole) (arg16 : Memref sig .tc .vmem S1024x1 .f32) (harg16 : arg16.IsWhole) (hc0 : ¬cond0_0 i) (hc1 : cond0_1 i)
    (x0 : Vec F S1024x512 .f32) (x1 : Vec F S2112x512 .bf16) (x2 : Vec F S2112x512 .bf16) (x3 : Vec F S2112x264 .f32) (x4 : Vec F S264x2112 .f32) (x5 : Vec F S264x264 .f32) (x6 : Vec F S1x264 .f32) (x7 : Vec F S128x264 .f32) (x8 : Vec F S1x128 .f32) (x9 : Vec F S128x128 .f32) (x10 : Vec F S1x128 .f32) (xs0 : Vec F S1024x2112 .f32) (xs1 : Vec F S1024x2112 .f32) (xs2 : Vec F S1024x1 .f32) :
    sout0_C_0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay21 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  first
    | rw [View.canon_unit_zero hz]
    | rw [View.canon_cons_unit_zero (S := S1024x2112) hz]
  simp only [View.readCov_unit_zero (S := S1024x2112) _ hz, View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x512) hz, View.ld_unit_zero (S := S2112x512) hz, View.ld_unit_zero (S := S2112x264) hz, View.ld_unit_zero (S := S264x2112) hz, View.ld_unit_zero (S := S264x264) hz, View.ld_unit_zero (S := S1x264) hz, View.ld_unit_zero (S := S128x264) hz, View.ld_unit_zero (S := S1x128) hz, View.ld_unit_zero (S := S128x128) hz, View.ld_unit_zero (S := S1024x128) hz, View.ld_unit_zero (S := S1024x2112) hz, View.ld_unit_zero (S := S1024x1) hz]

/-- Case C, second product accumulator. -/
theorem sout0_C_1_eq (c : Dev nD) (i : grid0.Coords) (arg2 : Memref sig .tc .vmem S1024x512 .f32) (harg2 : arg2.IsWhole) (arg3 : Memref sig .tc .vmem S2112x512 .bf16) (harg3 : arg3.IsWhole) (arg4 : Memref sig .tc .vmem S2112x512 .bf16) (harg4 : arg4.IsWhole) (arg5 : Memref sig .tc .vmem S2112x264 .f32) (harg5 : arg5.IsWhole) (arg6 : Memref sig .tc .vmem S264x2112 .f32) (harg6 : arg6.IsWhole) (arg7 : Memref sig .tc .vmem S264x264 .f32) (harg7 : arg7.IsWhole) (arg8 : Memref sig .tc .vmem S1x264 .f32) (harg8 : arg8.IsWhole) (arg9 : Memref sig .tc .vmem S128x264 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x2112 .f32) (harg14 : arg14.IsWhole) (arg15 : Memref sig .tc .vmem S1024x2112 .f32) (harg15 : arg15.IsWhole) (arg16 : Memref sig .tc .vmem S1024x1 .f32) (harg16 : arg16.IsWhole) (hc0 : ¬cond0_0 i) (hc1 : cond0_1 i)
    (x0 : Vec F S1024x512 .f32) (x1 : Vec F S2112x512 .bf16) (x2 : Vec F S2112x512 .bf16) (x3 : Vec F S2112x264 .f32) (x4 : Vec F S264x2112 .f32) (x5 : Vec F S264x264 .f32) (x6 : Vec F S1x264 .f32) (x7 : Vec F S128x264 .f32) (x8 : Vec F S1x128 .f32) (x9 : Vec F S128x128 .f32) (x10 : Vec F S1x128 .f32) (xs0 : Vec F S1024x2112 .f32) (xs1 : Vec F S1024x2112 .f32) (xs2 : Vec F S1024x1 .f32) :
    sout0_C_1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay1 (k0_pay22 x0 x2 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  first
    | rw [View.canon_unit_zero hz]
    | rw [View.canon_cons_unit_zero (S := S1024x2112) hz]
  simp only [View.readCov_unit_zero (S := S1024x2112) _ hz, View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x512) hz, View.ld_unit_zero (S := S2112x512) hz, View.ld_unit_zero (S := S2112x264) hz, View.ld_unit_zero (S := S264x2112) hz, View.ld_unit_zero (S := S264x264) hz, View.ld_unit_zero (S := S1x264) hz, View.ld_unit_zero (S := S128x264) hz, View.ld_unit_zero (S := S1x128) hz, View.ld_unit_zero (S := S128x128) hz, View.ld_unit_zero (S := S1024x128) hz, View.ld_unit_zero (S := S1024x2112) hz, View.ld_unit_zero (S := S1024x1) hz]

/-- Case C, the counter. -/
theorem sout0_C_2_eq (c : Dev nD) (i : grid0.Coords) (arg2 : Memref sig .tc .vmem S1024x512 .f32) (harg2 : arg2.IsWhole) (arg3 : Memref sig .tc .vmem S2112x512 .bf16) (harg3 : arg3.IsWhole) (arg4 : Memref sig .tc .vmem S2112x512 .bf16) (harg4 : arg4.IsWhole) (arg5 : Memref sig .tc .vmem S2112x264 .f32) (harg5 : arg5.IsWhole) (arg6 : Memref sig .tc .vmem S264x2112 .f32) (harg6 : arg6.IsWhole) (arg7 : Memref sig .tc .vmem S264x264 .f32) (harg7 : arg7.IsWhole) (arg8 : Memref sig .tc .vmem S1x264 .f32) (harg8 : arg8.IsWhole) (arg9 : Memref sig .tc .vmem S128x264 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x2112 .f32) (harg14 : arg14.IsWhole) (arg15 : Memref sig .tc .vmem S1024x2112 .f32) (harg15 : arg15.IsWhole) (arg16 : Memref sig .tc .vmem S1024x1 .f32) (harg16 : arg16.IsWhole) (hc0 : ¬cond0_0 i) (hc1 : cond0_1 i)
    (x0 : Vec F S1024x512 .f32) (x1 : Vec F S2112x512 .bf16) (x2 : Vec F S2112x512 .bf16) (x3 : Vec F S2112x264 .f32) (x4 : Vec F S264x2112 .f32) (x5 : Vec F S264x264 .f32) (x6 : Vec F S1x264 .f32) (x7 : Vec F S128x264 .f32) (x8 : Vec F S1x128 .f32) (x9 : Vec F S128x128 .f32) (x10 : Vec F S1x128 .f32) (xs0 : Vec F S1024x2112 .f32) (xs1 : Vec F S1024x2112 .f32) (xs2 : Vec F S1024x1 .f32) :
    sout0_C_2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay19 x0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  first
    | rw [View.canon_unit_zero hz]
    | rw [View.canon_cons_unit_zero (S := S1024x1) hz]
  simp only [View.readCov_unit_zero (S := S1024x2112) _ hz, View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x512) hz, View.ld_unit_zero (S := S2112x512) hz, View.ld_unit_zero (S := S2112x264) hz, View.ld_unit_zero (S := S264x2112) hz, View.ld_unit_zero (S := S264x264) hz, View.ld_unit_zero (S := S1x264) hz, View.ld_unit_zero (S := S128x264) hz, View.ld_unit_zero (S := S1x128) hz, View.ld_unit_zero (S := S128x128) hz, View.ld_unit_zero (S := S1024x128) hz, View.ld_unit_zero (S := S1024x2112) hz, View.ld_unit_zero (S := S1024x1) hz]

/-- Case C, the output block: the tail of the computation on the accumulators after this step. -/
theorem out0_C_11_eq (c : Dev nD) (i : grid0.Coords) (arg2 : Memref sig .tc .vmem S1024x512 .f32) (harg2 : arg2.IsWhole) (arg3 : Memref sig .tc .vmem S2112x512 .bf16) (harg3 : arg3.IsWhole) (arg4 : Memref sig .tc .vmem S2112x512 .bf16) (harg4 : arg4.IsWhole) (arg5 : Memref sig .tc .vmem S2112x264 .f32) (harg5 : arg5.IsWhole) (arg6 : Memref sig .tc .vmem S264x2112 .f32) (harg6 : arg6.IsWhole) (arg7 : Memref sig .tc .vmem S264x264 .f32) (harg7 : arg7.IsWhole) (arg8 : Memref sig .tc .vmem S1x264 .f32) (harg8 : arg8.IsWhole) (arg9 : Memref sig .tc .vmem S128x264 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1024x2112 .f32) (harg14 : arg14.IsWhole) (arg15 : Memref sig .tc .vmem S1024x2112 .f32) (harg15 : arg15.IsWhole) (arg16 : Memref sig .tc .vmem S1024x1 .f32) (harg16 : arg16.IsWhole) (hc0 : ¬cond0_0 i) (hc1 : cond0_1 i)
    (x0 : Vec F S1024x512 .f32) (x1 : Vec F S2112x512 .bf16) (x2 : Vec F S2112x512 .bf16) (x3 : Vec F S2112x264 .f32) (x4 : Vec F S264x2112 .f32) (x5 : Vec F S264x264 .f32) (x6 : Vec F S1x264 .f32) (x7 : Vec F S128x264 .f32) (x8 : Vec F S1x128 .f32) (x9 : Vec F S128x128 .f32) (x10 : Vec F S1x128 .f32) (xs0 : Vec F S1024x2112 .f32) (xs1 : Vec F S1024x2112 .f32) (xs2 : Vec F S1024x1 .f32) :
    out0_C_11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2 = k0_pay2 (k0_pay13 (k0_pay3 (k0_pay19 x0 xs2) (k0_pay21 x0 x1 xs0) (k0_pay1 (k0_pay22 x0 x2 xs1))) x3 (k0_pay4 x4) (k0_pay7 (k0_pay19 x0 xs2) (k0_pay21 x0 x1 xs0) (k0_pay1 (k0_pay22 x0 x2 xs1)) x3 x4) (k0_pay8 (k0_pay19 x0 xs2) (k0_pay21 x0 x1 xs0) (k0_pay1 (k0_pay22 x0 x2 xs1)) x3 x4) (Scalar.ofBits .f32 0x00000000#32)) (k0_pay14 (k0_pay3 (k0_pay19 x0 xs2) (k0_pay21 x0 x1 xs0) (k0_pay1 (k0_pay22 x0 x2 xs1))) x3 (k0_pay4 x4) (k0_pay7 (k0_pay19 x0 xs2) (k0_pay21 x0 x1 xs0) (k0_pay1 (k0_pay22 x0 x2 xs1)) x3 x4) (k0_pay8 (k0_pay19 x0 xs2) (k0_pay21 x0 x1 xs0) (k0_pay1 (k0_pay22 x0 x2 xs1)) x3 x4) (Scalar.ofBits .f32 0x00000000#32)) k0_pay15 x5 x6 x7 x8 x9 x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2)]
  unfold kernelRun0_C
  dsimp only
  sl_unfold_words
  first
    | rw [View.canon_unit_zero hz]
    | rw [View.canon_cons_unit_zero (S := S1024x128) hz]
  simp only [View.readCov_unit_zero (S := S1024x2112) _ hz, View.readCov_unit_zero (S := S1024x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x512) hz, View.ld_unit_zero (S := S2112x512) hz, View.ld_unit_zero (S := S2112x264) hz, View.ld_unit_zero (S := S264x2112) hz, View.ld_unit_zero (S := S264x264) hz, View.ld_unit_zero (S := S1x264) hz, View.ld_unit_zero (S := S128x264) hz, View.ld_unit_zero (S := S1x128) hz, View.ld_unit_zero (S := S128x128) hz, View.ld_unit_zero (S := S1024x128) hz, View.ld_unit_zero (S := S1024x2112) hz, View.ld_unit_zero (S := S1024x1) hz]

end Cert.KernelIdeal.Gen

end
-- ==== Proof.KPoints.lean ====
/-
  The accumulators point by point.

  The grid is 4 row blocks × 16 steps, the step the inner axis: point `t` is step `t mod 16` of row block `t / 16`. At step 0
  the accumulators restart from zero; at every later step they continue from what the point before left; at step 15 the
  output block is computed from the accumulators as this step leaves them.
-/
import proofs.«178659_j38689065402872_2_alg».proof.Proof.KPieces

set_option maxRecDepth 16384

noncomputable section

namespace Cert.KernelIdeal.Gen

open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! The windows' blocks at a point, each under its literal vector type. -/
abbrev B0 (c : Dev nD) (t : Fin cfg0.N) : Vec F S1024x512 .f32 := iblk m c 0 t
abbrev B1 (c : Dev nD) (t : Fin cfg0.N) : Vec F S2112x512 .bf16 := iblk m c 1 t
abbrev B2 (c : Dev nD) (t : Fin cfg0.N) : Vec F S2112x512 .bf16 := iblk m c 2 t
abbrev B3 (c : Dev nD) (t : Fin cfg0.N) : Vec F S2112x264 .f32 := iblk m c 3 t
abbrev B4 (c : Dev nD) (t : Fin cfg0.N) : Vec F S264x2112 .f32 := iblk m c 4 t
abbrev B5 (c : Dev nD) (t : Fin cfg0.N) : Vec F S264x264 .f32 := iblk m c 5 t
abbrev B6 (c : Dev nD) (t : Fin cfg0.N) : Vec F S1x264 .f32 := iblk m c 6 t
abbrev B7 (c : Dev nD) (t : Fin cfg0.N) : Vec F S128x264 .f32 := iblk m c 7 t
abbrev B8 (c : Dev nD) (t : Fin cfg0.N) : Vec F S1x128 .f32 := iblk m c 8 t
abbrev B9 (c : Dev nD) (t : Fin cfg0.N) : Vec F S128x128 .f32 := iblk m c 9 t
abbrev B10 (c : Dev nD) (t : Fin cfg0.N) : Vec F S1x128 .f32 := iblk m c 10 t

/-- What the point before left in the three accumulators. -/
abbrev P0 (c : Dev nD) (t : Fin cfg0.N) : Vec F S1024x2112 .f32 := (outsAt0 m c (t.val - 1) (Nat.lt_of_le_of_lt (Nat.sub_le _ _) t.isLt)).2.1
abbrev P1 (c : Dev nD) (t : Fin cfg0.N) : Vec F S1024x2112 .f32 := (outsAt0 m c (t.val - 1) (Nat.lt_of_le_of_lt (Nat.sub_le _ _) t.isLt)).2.2.1
abbrev P2 (c : Dev nD) (t : Fin cfg0.N) : Vec F S1024x1 .f32 := (outsAt0 m c (t.val - 1) (Nat.lt_of_le_of_lt (Nat.sub_le _ _) t.isLt)).2.2.2

/-- Step 0 of a row block: zero, then one step. -/
theorem accA (c : Dev nD) (t : Fin cfg0.N) (h0 : t.val % 16 = 0) (h1 : ¬t.val % 16 = 15) :
    (outsAt0 m c t.val t.isLt).2.1 = k0_pay21 (B0 m c t) (B1 m c t) k0_pay16
    ∧ (outsAt0 m c t.val t.isLt).2.2.1 = k0_pay1 (k0_pay22 (B0 m c t) (B2 m c t) k0_pay17)
    ∧ (outsAt0 m c t.val t.isLt).2.2.2 = k0_pay19 (B0 m c t) k0_pay18 := by
  have hX := outsAt0_A m c t h0 h1
  have e0 := congrArg (fun p => p.2.1) hX
  dsimp only at e0
  have e1 := congrArg (fun p => p.2.2.1) hX
  dsimp only at e1
  have e2 := congrArg (fun p => p.2.2.2) hX
  dsimp only at e2
  exact ⟨e0.trans (sout0_A_0_eq (F := F) _ _ _ _ _ _ _ _ _ _ _ _ _ _ _ _ _ _ _ _ _ _ _ _ _ _ _ _ _ _ _ _ _ _ _ _ _ _ _ _ _ _ _ _ _),
    e1.trans (sout0_A_1_eq (F := F) _ _ _ _ _ _ _ _ _ _ _ _ _ _ _ _ _ _ _ _ _ _ _ _ _ _ _ _ _ _ _ _ _ _ _ _ _ _ _ _ _ _ _ _ _),
    e2.trans (sout0_A_2_eq (F := F) _ _ _ _ _ _ _ _ _ _ _ _ _ _ _ _ _ _ _ _ _ _ _ _ _ _ _ _ _ _ _ _ _ _ _ _ _ _ _ _ _ _ _ _ _)⟩

/-- Steps 1 to 14: one step from what the point before left. -/
theorem accB (c : Dev nD) (t : Fin cfg0.N) (h0 : ¬t.val % 16 = 0) (h1 : ¬t.val % 16 = 15) :
    (outsAt0 m c t.val t.isLt).2.1 = k0_pay21 (B0 m c t) (B1 m c t) (P0 m c t)
    ∧ (outsAt0 m c t.val t.isLt).2.2.1 = k0_pay1 (k0_pay22 (B0 m c t) (B2 m c t) (P1 m c t))
    ∧ (outsAt0 m c t.val t.isLt).2.2.2 = k0_pay19 (B0 m c t) (P2 m c t) := by
  have hX := outsAt0_B m c t h0 h1
  have e0 := congrArg (fun p => p.2.1) hX
  dsimp only at e0
  have e1 := congrArg (fun p => p.2.2.1) hX
  dsimp only at e1
  have e2 := congrArg (fun p => p.2.2.2) hX
  dsimp only at e2
  exact ⟨e0.trans (sout0_B_0_eq (F := F) _ _ _ _ _ _ _ _ _ _ _ _ _ _ _ _ _ _ _ _ _ _ _ _ _ _ _ _ _ _ _ _ _ _ _ _ _ _ _ _ _ _ _ _ _ _ _ _),
    e1.trans (sout0_B_1_eq (F := F) _ _ _ _ _ _ _ _ _ _ _ _ _ _ _ _ _ _ _ _ _ _ _ _ _ _ _ _ _ _ _ _ _ _ _ _ _ _ _ _ _ _ _ _ _ _ _ _),
    e2.trans (sout0_B_2_eq (F := F) _ _ _ _ _ _ _ _ _ _ _ _ _ _ _ _ _ _ _ _ _ _ _ _ _ _ _ _ _ _ _ _ _ _ _ _ _ _ _ _ _ _ _ _ _ _ _ _)⟩

/-- Step 15: one more step, and the output block from the accumulators after it. -/
theorem accC (c : Dev nD) (t : Fin cfg0.N) (h0 : ¬t.val % 16 = 0) (h1 : t.val % 16 = 15) :
    (outsAt0 m c t.val t.isLt).2.1 = k0_pay21 (B0 m c t) (B1 m c t) (P0 m c t)
    ∧ (outsAt0 m c t.val t.isLt).2.2.1 = k0_pay1 (k0_pay22 (B0 m c t) (B2 m c t) (P1 m c t))
    ∧ (outsAt0 m c t.val t.isLt).2.2.2 = k0_pay19 (B0 m c t) (P2 m c t)
    ∧ (outsAt0 m c t.val t.isLt).1 = k0_pay2 (k0_pay13 (k0_pay3 (k0_pay19 (B0 m c t) (P2 m c t)) (k0_pay21 (B0 m c t) (B1 m c t) (P0 m c t)) (k0_pay1 (k0_pay22 (B0 m c t) (B2 m c t) (P1 m c t)))) (B3 m c t) (k0_pay4 (B4 m c t)) (k0_pay7 (k0_pay19 (B0 m c t) (P2 m c t)) (k0_pay21 (B0 m c t) (B1 m c t) (P0 m c t)) (k0_pay1 (k0_pay22 (B0 m c t) (B2 m c t) (P1 m c t))) (B3 m c t) (B4 m c t)) (k0_pay8 (k0_pay19 (B0 m c t) (P2 m c t)) (k0_pay21 (B0 m c t) (B1 m c t) (P0 m c t)) (k0_pay1 (k0_pay22 (B0 m c t) (B2 m c t) (P1 m c t))) (B3 m c t) (B4 m c t)) (Scalar.ofBits (F := F) .f32 0x00000000#32)) (k0_pay14 (k0_pay3 (k0_pay19 (B0 m c t) (P2 m c t)) (k0_pay21 (B0 m c t) (B1 m c t) (P0 m c t)) (k0_pay1 (k0_pay22 (B0 m c t) (B2 m c t) (P1 m c t)))) (B3 m c t) (k0_pay4 (B4 m c t)) (k0_pay7 (k0_pay19 (B0 m c t) (P2 m c t)) (k0_pay21 (B0 m c t) (B1 m c t) (P0 m c t)) (k0_pay1 (k0_pay22 (B0 m c t) (B2 m c t) (P1 m c t))) (B3 m c t) (B4 m c t)) (k0_pay8 (k0_pay19 (B0 m c t) (P2 m c t)) (k0_pay21 (B0 m c t) (B1 m c t) (P0 m c t)) (k0_pay1 (k0_pay22 (B0 m c t) (B2 m c t) (P1 m c t))) (B3 m c t) (B4 m c t)) (Scalar.ofBits (F := F) .f32 0x00000000#32)) k0_pay15 (B5 m c t) (B6 m c t) (B7 m c t) (B8 m c t) (B9 m c t) (B10 m c t) := by
  have hX := outsAt0_C m c t h0 h1
  have e0 := congrArg (fun p => p.2.1) hX
  dsimp only at e0
  have e1 := congrArg (fun p => p.2.2.1) hX
  dsimp only at e1
  have e2 := congrArg (fun p => p.2.2.2) hX
  dsimp only at e2
  have e3 := congrArg (fun p => p.1) hX
  dsimp only at e3
  exact ⟨e0.trans (sout0_C_0_eq (F := F) _ _ _ _ _ _ _ _ _ _ _ _ _ _ _ _ _ _ _ _ _ _ _ _ _ _ _ _ _ _ _ _ _ _ _ _ _ _ _ _ _ _ _ _ _ _ _ _),
    e1.trans (sout0_C_1_eq (F := F) _ _ _ _ _ _ _ _ _ _ _ _ _ _ _ _ _ _ _ _ _ _ _ _ _ _ _ _ _ _ _ _ _ _ _ _ _ _ _ _ _ _ _ _ _ _ _ _),
    e2.trans (sout0_C_2_eq (F := F) _ _ _ _ _ _ _ _ _ _ _ _ _ _ _ _ _ _ _ _ _ _ _ _ _ _ _ _ _ _ _ _ _ _ _ _ _ _ _ _ _ _ _ _ _ _ _ _),
    e3.trans (out0_C_11_eq (F := F) _ _ _ _ _ _ _ _ _ _ _ _ _ _ _ _ _ _ _ _ _ _ _ _ _ _ _ _ _ _ _ _ _ _ _ _ _ _ _ _ _ _ _ _ _ _ _ _)⟩

end Cert.KernelIdeal.Gen

end
-- ==== Proof.KBlocks.lean ====
/-
  Which entries of its array a window's block holds.

  Point `t` of the 4 × 16 grid is step `t mod 16` of row block `t / 16`. The input's block at `t` is rows
  `1024 · (t / 16) …` and columns `512 · (t mod 16) …` of the input; a weight matrix's block is all 2112 rows and the same 512
  columns; every other operand's block is its whole array at every point; the result's block is rows `1024 · (t / 16) …` of
  the `[4096, 128]` result.
-/
import proofs.«178659_j38689065402872_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The index maps, decided over the grid -/

theorem idx0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)
theorem idx1 : ∀ t : Fin cfg0.N, win0_1.index t 0 = 0 ∧ win0_1.index t 1 = t.val % 16 :=
  (by decide +kernel : ∀ t : Fin grid0.N, win0_1.index t 0 = 0 ∧ win0_1.index t 1 = t.val % 16)
theorem idx2 : ∀ t : Fin cfg0.N, win0_2.index t 0 = 0 ∧ win0_2.index t 1 = t.val % 16 :=
  (by decide +kernel : ∀ t : Fin grid0.N, win0_2.index t 0 = 0 ∧ win0_2.index t 1 = t.val % 16)
theorem idx11 : ∀ t : Fin cfg0.N, win0_11.index t 0 = t.val / 16 ∧ win0_11.index t 1 = 0 :=
  (by decide +kernel : ∀ t : Fin grid0.N, win0_11.index t 0 = t.val / 16 ∧ win0_11.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)

/-! ## The blocks -/

/-- The input's block at point `t`, entry `(r, k)`. -/
theorem iblk0_apply (c : Dev nD) (t : Fin cfg0.N) (r : Fin 1024) (k : Fin 512)
    (hr : 1024 * (t.val / 16) + r.val < 4096) (hk : 512 * (t.val % 16) + k.val < 8192) :
    (iblk m c 0 t : Vec F S1024x512 .f32) (ix2 r k)
      = V m c main_arg0 (ix2 ⟨1024 * (t.val / 16) + r.val, hr⟩ ⟨512 * (t.val % 16) + k.val, hk⟩) := by
  unfold iblk
  rw [View.read_apply]
  show V m c main_arg0 _ = V m c main_arg0 _
  congr 1
  funext a
  apply Fin.ext
  match a with
  | ⟨0, _⟩ => show win0_0.index t 0 * 1024 + 1 * r.val = 1024 * (t.val / 16) + r.val; rw [(idx0 t).1]; omega
  | ⟨1, _⟩ => show win0_0.index t 1 * 512 + 1 * k.val = 512 * (t.val % 16) + k.val; rw [(idx0 t).2]; omega

/-- Weight matrix 1's block at point `t`, entry `(q, k)`: all rows, the step's 512 columns. -/
theorem iblk1_apply (c : Dev nD) (t : Fin cfg0.N) (q : Fin 2112) (k : Fin 512) (hk : 512 * (t.val % 16) + k.val < 8192) :
    (iblk m c 1 t : Vec F S2112x512 .bf16) (ix2 q k) = V m c main_v0 (ix2 q ⟨512 * (t.val % 16) + k.val, hk⟩) := by
  unfold iblk
  rw [View.read_apply]
  show V m c main_v0 _ = V m c main_v0 _
  congr 1
  funext a
  apply Fin.ext
  match a with
  | ⟨0, _⟩ => show win0_1.index t 0 * 2112 + 1 * q.val = q.val; rw [(idx1 t).1]; omega
  | ⟨1, _⟩ => show win0_1.index t 1 * 512 + 1 * k.val = 512 * (t.val % 16) + k.val; rw [(idx1 t).2]; omega

/-- Weight matrix 2's block at point `t`, entry `(q, k)`: all rows, the step's 512 columns. -/
theorem iblk2_apply (c : Dev nD) (t : Fin cfg0.N) (q : Fin 2112) (k : Fin 512) (hk : 512 * (t.val % 16) + k.val < 8192) :
    (iblk m c 2 t : Vec F S2112x512 .bf16) (ix2 q k) = V m c main_v1 (ix2 q ⟨512 * (t.val % 16) + k.val, hk⟩) := by
  unfold iblk
  rw [View.read_apply]
  show V m c main_v1 _ = V m c main_v1 _
  congr 1
  funext a
  apply Fin.ext
  match a with
  | ⟨0, _⟩ => show win0_2.index t 0 * 2112 + 1 * q.val = q.val; rw [(idx2 t).1]; omega
  | ⟨1, _⟩ => show win0_2.index t 1 * 512 + 1 * k.val = 512 * (t.val % 16) + k.val; rw [(idx2 t).2]; omega

/-- Operand 3's block is its whole array at every point. -/
theorem iblk3_eq (c : Dev nD) (t : Fin cfg0.N) : (iblk m c 3 t : Vec F S2112x264 .f32) = V m c main_arg4 := by
  funext j
  unfold iblk
  rw [View.read_apply]
  show V m c main_arg4 _ = V m c main_arg4 j
  congr 1
  funext a
  apply Fin.ext
  match a with
  | ⟨0, _⟩ => show win0_3.index t 0 * 2112 + 1 * (j 0).val = (j 0).val; rw [(idx3 t).1]; omega
  | ⟨1, _⟩ => show win0_3.index t 1 * 264 + 1 * (j 1).val = (j 1).val; rw [(idx3 t).2]; omega

/-- Operand 4's block is its whole array at every point. -/
theorem iblk4_eq (c : Dev nD) (t : Fin cfg0.N) : (iblk m c 4 t : Vec F S264x2112 .f32) = V m c main_v2 := by
  funext j
  unfold iblk
  rw [View.read_apply]
  show V m c main_v2 _ = V m c main_v2 j
  congr 1
  funext a
  apply Fin.ext
  match a with
  | ⟨0, _⟩ => show win0_4.index t 0 * 264 + 1 * (j 0).val = (j 0).val; rw [(idx4 t).1]; omega
  | ⟨1, _⟩ => show win0_4.index t 1 * 2112 + 1 * (j 1).val = (j 1).val; rw [(idx4 t).2]; omega

/-- Operand 5's block is its whole array at every point. -/
theorem iblk5_eq (c : Dev nD) (t : Fin cfg0.N) : (iblk m c 5 t : Vec F S264x264 .f32) = V m c main_arg5 := by
  funext j
  unfold iblk
  rw [View.read_apply]
  show V m c main_arg5 _ = V m c main_arg5 j
  congr 1
  funext a
  apply Fin.ext
  match a with
  | ⟨0, _⟩ => show win0_5.index t 0 * 264 + 1 * (j 0).val = (j 0).val; rw [(idx5 t).1]; omega
  | ⟨1, _⟩ => show win0_5.index t 1 * 264 + 1 * (j 1).val = (j 1).val; rw [(idx5 t).2]; omega

/-- Operand 6's block is its whole array at every point. -/
theorem iblk6_eq (c : Dev nD) (t : Fin cfg0.N) : (iblk m c 6 t : Vec F S1x264 .f32) = V m c main_v9 := by
  funext j
  unfold iblk
  rw [View.read_apply]
  show V m c main_v9 _ = V m c main_v9 j
  congr 1
  funext a
  apply Fin.ext
  match a with
  | ⟨0, _⟩ => show win0_6.index t 0 * 1 + 1 * (j 0).val = (j 0).val; rw [(idx6 t).1]; omega
  | ⟨1, _⟩ => show win0_6.index t 1 * 264 + 1 * (j 1).val = (j 1).val; rw [(idx6 t).2]; omega

/-- Operand 7's block is its whole array at every point. -/
theorem iblk7_eq (c : Dev nD) (t : Fin cfg0.N) : (iblk m c 7 t : Vec F S128x264 .f32) = V m c main_v3 := by
  funext j
  unfold iblk
  rw [View.read_apply]
  show V m c main_v3 _ = V m c main_v3 j
  congr 1
  funext a
  apply Fin.ext
  match a with
  | ⟨0, _⟩ => show win0_7.index t 0 * 128 + 1 * (j 0).val = (j 0).val; rw [(idx7 t).1]; omega
  | ⟨1, _⟩ => show win0_7.index t 1 * 264 + 1 * (j 1).val = (j 1).val; rw [(idx7 t).2]; omega

/-- Operand 8's block is its whole array at every point. -/
theorem iblk8_eq (c : Dev nD) (t : Fin cfg0.N) : (iblk m c 8 t : Vec F S1x128 .f32) = V m c main_v5 := by
  funext j
  unfold iblk
  rw [View.read_apply]
  show V m c main_v5 _ = V m c main_v5 j
  congr 1
  funext a
  apply Fin.ext
  match a with
  | ⟨0, _⟩ => show win0_8.index t 0 * 1 + 1 * (j 0).val = (j 0).val; rw [(idx8 t).1]; omega
  | ⟨1, _⟩ => show win0_8.index t 1 * 128 + 1 * (j 1).val = (j 1).val; rw [(idx8 t).2]; omega

/-- Operand 9's block is its whole array at every point. -/
theorem iblk9_eq (c : Dev nD) (t : Fin cfg0.N) : (iblk m c 9 t : Vec F S128x128 .f32) = V m c main_v6 := by
  funext j
  unfold iblk
  rw [View.read_apply]
  show V m c main_v6 _ = V m c main_v6 j
  congr 1
  funext a
  apply Fin.ext
  match a with
  | ⟨0, _⟩ => show win0_9.index t 0 * 128 + 1 * (j 0).val = (j 0).val; rw [(idx9 t).1]; omega
  | ⟨1, _⟩ => show win0_9.index t 1 * 128 + 1 * (j 1).val = (j 1).val; rw [(idx9 t).2]; omega

/-- Operand 10's block is its whole array at every point. -/
theorem iblk10_eq (c : Dev nD) (t : Fin cfg0.N) : (iblk m c 10 t : Vec F S1x128 .f32) = V m c main_v8 := by
  funext j
  unfold iblk
  rw [View.read_apply]
  show V m c main_v8 _ = V m c main_v8 j
  congr 1
  funext a
  apply Fin.ext
  match a with
  | ⟨0, _⟩ => show win0_10.index t 0 * 1 + 1 * (j 0).val = (j 0).val; rw [(idx10 t).1]; omega
  | ⟨1, _⟩ => show win0_10.index t 1 * 128 + 1 * (j 1).val = (j 1).val; rw [(idx10 t).2]; omega

end Cert.KernelIdeal.Blocks
end
-- ==== Proof.Spec.lean ====
/-
  The function both programs compute, one batch row at a time, on the extended reals.

  For a batch row with entries `a k` (8192 of them): `xc c = ∑ k, a k · Wc c k` and `xs c = ∑ k, a k · Ws c k` are its
  products with the rows of the two weight matrices, `cnt` is the number of its nonzero entries, and with
  `scale = 8192 / (cnt + 1)` the feature row is `f c = (xc c · scale)² + (xs c · scale)²`. Five rounds of a thresholded
  iteration against the template `T` follow (`m₁ = relu(-10 · (-f) T)`, then four times
  `ξ' = 1.6 · (m Tᵀ - f) + 0.2 · ξ`, `m' = relu(-8 · ξ' T + 0.2 · m)`), then three dense layers, the last through the logistic
  function. Every float literal is kept as its 32-bit word; the same word stands on both sides and is never evaluated,
  except `0` and `1`.
-/
import Idealize.ShloMosaic.PureOps.Ideal
import Idealize.ShloMosaic.Lib.ValueIdx

noncomputable section

namespace Cert.Spec

open Idealize.ShloMosaic
open scoped BigOperators

/-- A float literal, by its 32-bit word. -/
abbrev lit (b : BitVec 32) : EReal := Ideal.ofBits .f32 b

/-- `1` if `x ≠ 0` and `0` otherwise, the way both programs make it: the comparison's bit, widened to 32 bits and read as a
    signed integer. -/
def ind (x : EReal) : EReal := ((((Ideal.cmp .one x (lit 0x00000000#32)).setWidth 32).toInt : ℝ) : EReal)

/-- `8192 / (cnt + 1)`. -/
def scale (cnt : EReal) : EReal := Ideal.div (lit 0x46000000#32) (cnt + lit 0x3F800000#32)

/-- The feature row from the two product rows and the count. -/
def feat (xc xs : Fin 2112 → EReal) (cnt : EReal) : Fin 2112 → EReal := fun c =>
  (xc c * scale cnt) * (xc c * scale cnt) + (xs c * scale cnt) * (xs c * scale cnt)

section Rounds
variable (T : Fin 2112 → Fin 264 → EReal) (f : Fin 2112 → EReal)

/-- The first threshold: `relu(-10 · ((-f) T))`. -/
def m1 : Fin 264 → EReal := fun n => max (lit 0xC1200000#32 * ∑ c, (-(f c)) * T c n) (lit 0x00000000#32)

/-- One update of `ξ`: `1.6 · (m Tᵀ - f) + 0.2 · ξ`. -/
def xiStep (m : Fin 264 → EReal) (xi : Fin 2112 → EReal) : Fin 2112 → EReal := fun c =>
  lit 0x3FCCCCCD#32 * ((∑ n, m n * T c n) - f c) + lit 0x3E4CCCCD#32 * xi c

/-- One update of `m`: `relu(-8 · (ξ T) + 0.2 · m)`. -/
def mStep (xi : Fin 2112 → EReal) (m : Fin 264 → EReal) : Fin 264 → EReal := fun n =>
  max (lit 0xC1000000#32 * (∑ c, xi c * T c n) + lit 0x3E4CCCCD#32 * m n) (lit 0x00000000#32)

def xi0 : Fin 2112 → EReal := fun c => -(f c)
def xi1 : Fin 2112 → EReal := xiStep T f (m1 T f) (xi0 f)
def m2 : Fin 264 → EReal := mStep T (xi1 T f) (m1 T f)
def xi2 : Fin 2112 → EReal := xiStep T f (m2 T f) (xi1 T f)
def m3 : Fin 264 → EReal := mStep T (xi2 T f) (m2 T f)
def xi3 : Fin 2112 → EReal := xiStep T f (m3 T f) (xi2 T f)
def m4 : Fin 264 → EReal := mStep T (xi3 T f) (m3 T f)
def xi4 : Fin 2112 → EReal := xiStep T f (m4 T f) (xi3 T f)
def m5 : Fin 264 → EReal := mStep T (xi4 T f) (m4 T f)

end Rounds

/-- A dense layer with a relu: `relu(x Wᵀ + b)`. -/
def dense {K N : ℕ} (W : Fin N → Fin K → EReal) (b : Fin N → EReal) (x : Fin K → EReal) : Fin N → EReal := fun j =>
  max ((∑ n, x n * W j n) + b j) (lit 0x00000000#32)

/-- The last layer: `logistic(x Wᵀ + b)`. -/
def last {K N : ℕ} (W : Fin N → Fin K → EReal) (b : Fin N → EReal) (x : Fin K → EReal) : Fin N → EReal := fun j =>
  Ideal.logistic ((∑ n, x n * W j n) + b j)

/-- The weights after the two big products. -/
structure Weights where
  T : Fin 2112 → Fin 264 → EReal
  W1 : Fin 264 → Fin 264 → EReal
  b1 : Fin 264 → EReal
  W2 : Fin 88 → Fin 264 → EReal
  b2 : Fin 88 → EReal
  Wout : Fin 88 → Fin 88 → EReal
  bout : Fin 88 → EReal

/-- One batch row's result from its two product rows and its count. -/
def tailRow (w : Weights) (xc xs : Fin 2112 → EReal) (cnt : EReal) : Fin 88 → EReal :=
  last w.Wout w.bout (dense w.W2 w.b2 (dense w.W1 w.b1 (m5 w.T (feat xc xs cnt))))

/-- The number of nonzero entries of a row, as the sum of the indicators. -/
def count (a : Fin 8192 → EReal) : EReal := ∑ k, ind (a k)

/-- One batch row's result from the row itself. -/
def resultRow (w : Weights) (Wc Ws : Fin 2112 → Fin 8192 → EReal) (a : Fin 8192 → EReal) : Fin 88 → EReal :=
  tailRow w (fun c => ∑ k, a k * Wc c k) (fun c => ∑ k, a k * Ws c k) (count a)

/-! ## From the argument arrays -/

open Idealize.ShloMosaic.ValueIdx

/-- The weights read off the argument arrays: the template, and the three layers' matrices and biases. -/
def weightsOf (x4 : (⟨2, ![2112, 264]⟩ : Shape).Idx → EReal) (x5 : (⟨2, ![264, 264]⟩ : Shape).Idx → EReal)
    (x6 : (⟨1, ![264]⟩ : Shape).Idx → EReal) (x7 : (⟨2, ![88, 264]⟩ : Shape).Idx → EReal)
    (x8 : (⟨1, ![88]⟩ : Shape).Idx → EReal) (x9 : (⟨2, ![88, 88]⟩ : Shape).Idx → EReal)
    (x10 : (⟨1, ![88]⟩ : Shape).Idx → EReal) : Weights where
  T c n := x4 (ix2 c n)
  W1 j n := x5 (ix2 j n)
  b1 j := x6 (ix1 j)
  W2 j n := x7 (ix2 j n)
  b2 j := x8 (ix1 j)
  Wout j n := x9 (ix2 j n)
  bout j := x10 (ix1 j)

/-- The result array `[4096, 88]` as one function of the argument arrays: row `R` is `resultRow` of row `R` of the input. -/
def G (x0 : (⟨2, ![4096, 8192]⟩ : Shape).Idx → EReal) (x2 x3 : (⟨2, ![2112, 8192]⟩ : Shape).Idx → EReal)
    (x4 : (⟨2, ![2112, 264]⟩ : Shape).Idx → EReal) (x5 : (⟨2, ![264, 264]⟩ : Shape).Idx → EReal)
    (x6 : (⟨1, ![264]⟩ : Shape).Idx → EReal) (x7 : (⟨2, ![88, 264]⟩ : Shape).Idx → EReal)
    (x8 : (⟨1, ![88]⟩ : Shape).Idx → EReal) (x9 : (⟨2, ![88, 88]⟩ : Shape).Idx → EReal)
    (x10 : (⟨1, ![88]⟩ : Shape).Idx → EReal) : (⟨2, ![4096, 88]⟩ : Shape).Idx → EReal := fun i =>
  resultRow (weightsOf x4 x5 x6 x7 x8 x9 x10) (fun c k => x2 (ix2 c k)) (fun c k => x3 (ix2 c k))
    (fun k => x0 (ix2 (i 0) k)) (i 1)

theorem G_apply (x0 : (⟨2, ![4096, 8192]⟩ : Shape).Idx → EReal) (x2 x3 : (⟨2, ![2112, 8192]⟩ : Shape).Idx → EReal)
    (x4 : (⟨2, ![2112, 264]⟩ : Shape).Idx → EReal) (x5 : (⟨2, ![264, 264]⟩ : Shape).Idx → EReal)
    (x6 : (⟨1, ![264]⟩ : Shape).Idx → EReal) (x7 : (⟨2, ![88, 264]⟩ : Shape).Idx → EReal)
    (x8 : (⟨1, ![88]⟩ : Shape).Idx → EReal) (x9 : (⟨2, ![88, 88]⟩ : Shape).Idx → EReal)
    (x10 : (⟨1, ![88]⟩ : Shape).Idx → EReal) (R : Fin 4096) (j : Fin 88) :
    G x0 x2 x3 x4 x5 x6 x7 x8 x9 x10 (ix2 R j)
      = resultRow (weightsOf x4 x5 x6 x7 x8 x9 x10) (fun c k => x2 (ix2 c k)) (fun c k => x3 (ix2 c k))
          (fun k => x0 (ix2 R k)) j := rfl

end Cert.Spec

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«178659_j38689065402872_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KAccum.lean ====
/-
  One grid step of the three accumulators, read at an index.

  At every grid point the kernel adds to its two product accumulators the product of the current `[1024, 512]` block of the
  input with the current `[2112, 512]` block of a weight matrix, rows against rows, and to its counter column the number of
  nonzero entries in each row of the input block. (The cast of the input block to a narrower float format is the identity on
  the extended reals.)
-/
import proofs.«178659_j38689065402872_2_alg».proof.Proof.Gen.KernelIdeal.Skeleton
import proofs.«178659_j38689065402872_2_alg».proof.Proof.Spec
import proofs.«178659_j38689065402872_2_alg».proof.Proof.LibRowsDot
import proofs.«178659_j38689065402872_2_alg».proof.Proof.LibRowSum
import proofs.«178659_j38689065402872_2_alg».proof.Proof.LibColumn
import Idealize.ShloMosaic.Lib.Pipeline.Value

noncomputable section

namespace Cert.KernelIdeal.Acc

open Idealize.ShloMosaic Idealize.ShloMosaic.TcCoe Idealize.ShloMosaic.ValueIdx Cert.KernelIdeal Cert.KernelIdeal.Gen
open scoped BigOperators

/-- The block product at `(r, c)`: row `r` of the input block against row `c` of the weight block. -/
theorem blockDot_apply (x0 : FVec Ideal S1024x512 .f32) (x1 : FVec Ideal S2112x512 .bf16) (r : Fin 1024) (c : Fin 2112) :
    (matmul (F := Ideal) dot_S1024x512_S2112x512_S1024x2112_1_1_0_0_n_n none (truncf FTy.bf16 x0 bitsLt_bf16_f32) x1
        (constant (F := Ideal) S1024x2112 FTy.f32 0x00000000#32) : FVec Ideal S1024x2112 .f32) (ix2 r c)
      = ∑ k : Fin 512, x0 (ix2 r k) * x1 (ix2 c k) :=
  Cert.Lib.matmul_rows_zero_apply (a := 1024) (K := 512) (b := 2112)
    dot_S1024x512_S2112x512_S1024x2112_1_1_0_0_n_n.wf none (truncf FTy.bf16 x0 bitsLt_bf16_f32) x1 r c

/-- The first product accumulator after a step: what it held plus the block product. -/
theorem pay21_apply (x0 : Vec Ideal S1024x512 .f32) (x1 : Vec Ideal S2112x512 .bf16) (v20 : Vec Ideal S1024x2112 .f32)
    (r : Fin 1024) (c : Fin 2112) :
    k0_pay21 (F := Ideal) x0 x1 v20 (ix2 r c) = v20 (ix2 r c) + ∑ k : Fin 512, x0 (ix2 r k) * x1 (ix2 c k) := by
  unfold k0_pay21 k0_pay20
  rw [shapeCast_self, shapeCast_self, addf_apply]
  exact congrArg (v20 (ix2 r c) + ·) (blockDot_apply x0 x1 r c)

/-- The second product accumulator after a step, likewise. -/
theorem pay22_apply (x0 : Vec Ideal S1024x512 .f32) (x2 : Vec Ideal S2112x512 .bf16) (v26 : Vec Ideal S1024x2112 .f32)
    (r : Fin 1024) (c : Fin 2112) :
    k0_pay1 (F := Ideal) (k0_pay22 x0 x2 v26) (ix2 r c) = v26 (ix2 r c) + ∑ k : Fin 512, x0 (ix2 r k) * x2 (ix2 c k) := by
  unfold k0_pay1 k0_pay22 k0_pay20
  rw [shapeCast_self, shapeCast_self, addf_apply]
  exact congrArg (v26 (ix2 r c) + ·) (blockDot_apply x0 x2 r c)

/-- The counter column after a step: what it held plus the number of nonzero entries of the block's row. -/
theorem pay19_apply (x0 : Vec Ideal S1024x512 .f32) (v4 : Vec Ideal S1024x1 .f32) (r : Fin 1024) (u : Fin 1) :
    k0_pay19 (F := Ideal) x0 v4 (ix2 r u) = v4 (ix2 r u) + ∑ k : Fin 512, Cert.Spec.ind (x0 (ix2 r k)) := by
  unfold k0_pay19
  rw [shapeCast_self, addf_apply, Cert.Lib.shapeCast_a_a1_apply]
  refine congrArg (v4 (ix2 r u) + ·) ?_
  refine (Cert.Lib.multiReduction_add_rows (R := 1024) (K := 512) _ _ _ _ _ r).trans ?_
  rfl

/-- The three accumulators start a row block at zero. -/
theorem pay16_apply (i : S1024x2112.Idx) : k0_pay16 (F := Ideal) i = 0 := by
  unfold k0_pay16; rw [shapeCast_self]; exact Ideal.ofBits_zero_f32
theorem pay17_apply (i : S1024x2112.Idx) : k0_pay17 (F := Ideal) i = 0 := by
  unfold k0_pay17; rw [shapeCast_self]; exact Ideal.ofBits_zero_f32
theorem pay18_apply (i : S1024x1.Idx) : k0_pay18 (F := Ideal) i = 0 := by
  unfold k0_pay18; rw [shapeCast_self]; exact Ideal.ofBits_zero_f32

end Cert.KernelIdeal.Acc

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.KTail.lean ====
/-
  The tail of the computation on a block of 1024 batch rows, one row at a time.

  Everything after the accumulation acts on each batch row by itself: a product `X · W` has, in row `r`, the product of row
  `r` of `X` with `W`; the other operations are elementwise, or repeat one row vector down the block. So row `r` of each
  intermediate array is a function of row `r` of the arrays before it, and these functions are the specification's.
-/
import proofs.«178659_j38689065402872_2_alg».proof.Proof.Gen.KernelIdeal.Skeleton
import proofs.«178659_j38689065402872_2_alg».proof.Proof.Spec
import proofs.«178659_j38689065402872_2_alg».proof.Proof.LibRowsDot
import proofs.«178659_j38689065402872_2_alg».proof.Proof.LibMatDot
import proofs.«178659_j38689065402872_2_alg».proof.Proof.LibColumn
import Idealize.ShloMosaic.Lib.Pipeline.Value
import Idealize.ShloMosaic.Lib.ValueLayout

noncomputable section

namespace Cert.KernelIdeal.Tail

open Idealize.ShloMosaic Idealize.ShloMosaic.TcCoe Idealize.ShloMosaic.ValueIdx Cert.KernelIdeal Cert.KernelIdeal.Gen
open scoped BigOperators

/-- Row `r` of a two-axis array. -/
def row {R N : ℕ} {φ : FTy} (A : FVec Ideal ⟨2, ![R, N]⟩ φ) (r : Fin R) : Fin N → EReal := fun n => A (ix2 r n)
/-- A two-axis array as a function of its two coordinates, -/
def mat {R N : ℕ} {φ : FTy} (A : FVec Ideal ⟨2, ![R, N]⟩ φ) : Fin R → Fin N → EReal := fun r n => A (ix2 r n)
/-- and with the coordinates exchanged. -/
def matT {R N : ℕ} {φ : FTy} (A : FVec Ideal ⟨2, ![R, N]⟩ φ) : Fin N → Fin R → EReal := fun n r => A (ix2 r n)

/-! ## The products -/

/-- A block of `ξ` rows times the template: row against column. -/
theorem dot_xiT (L : FVec Ideal S1024x2112 .f32) (W : FVec Ideal S2112x264 .f32) (r : Fin 1024) (n : Fin 264) :
    (matmul (F := Ideal) dot_S1024x2112_S2112x264_S1024x264_1_0_0_1_n_n none L W (constant (F := Ideal) S1024x264 FTy.f32 0x00000000#32) : FVec Ideal S1024x264 .f32) (ix2 r n)
      = ∑ k : Fin 2112, L (ix2 r k) * W (ix2 k n) :=
  Cert.Lib.matmul_plain_zero_apply (a := 1024) (K := 2112) (b := 264) dot_S1024x2112_S2112x264_S1024x264_1_0_0_1_n_n.wf none L W r n

/-- A block of `m` rows times the transposed template. -/
theorem dot_mTt (L : FVec Ideal S1024x264 .f32) (W : FVec Ideal S264x2112 .f32) (r : Fin 1024) (n : Fin 2112) :
    (matmul (F := Ideal) dot_S1024x264_S264x2112_S1024x2112_1_0_0_1_n_n none L W (constant (F := Ideal) S1024x2112 FTy.f32 0x00000000#32) : FVec Ideal S1024x2112 .f32) (ix2 r n)
      = ∑ k : Fin 264, L (ix2 r k) * W (ix2 k n) :=
  Cert.Lib.matmul_plain_zero_apply (a := 1024) (K := 264) (b := 2112) dot_S1024x264_S264x2112_S1024x2112_1_0_0_1_n_n.wf none L W r n

/-- The first layer's product: rows against the rows of the weight matrix. -/
theorem dot_W1 (L : FVec Ideal S1024x264 .f32) (W : FVec Ideal S264x264 .f32) (r : Fin 1024) (n : Fin 264) :
    (matmul (F := Ideal) dot_S1024x264_S264x264_S1024x264_1_1_0_0_n_n none L W (constant (F := Ideal) S1024x264 FTy.f32 0x00000000#32) : FVec Ideal S1024x264 .f32) (ix2 r n)
      = ∑ k : Fin 264, L (ix2 r k) * W (ix2 n k) :=
  Cert.Lib.matmul_rows_zero_apply (a := 1024) (K := 264) (b := 264) dot_S1024x264_S264x264_S1024x264_1_1_0_0_n_n.wf none L W r n

/-- The second layer's product. -/
theorem dot_W2 (L : FVec Ideal S1024x264 .f32) (W : FVec Ideal S128x264 .f32) (r : Fin 1024) (n : Fin 128) :
    (matmul (F := Ideal) dot_S1024x264_S128x264_S1024x128_1_1_0_0_n_n none L W (constant (F := Ideal) S1024x128 FTy.f32 0x00000000#32) : FVec Ideal S1024x128 .f32) (ix2 r n)
      = ∑ k : Fin 264, L (ix2 r k) * W (ix2 n k) :=
  Cert.Lib.matmul_rows_zero_apply (a := 1024) (K := 264) (b := 128) dot_S1024x264_S128x264_S1024x128_1_1_0_0_n_n.wf none L W r n

/-- The last layer's product. -/
theorem dot_Wo (L : FVec Ideal S1024x128 .f32) (W : FVec Ideal S128x128 .f32) (r : Fin 1024) (n : Fin 128) :
    (matmul (F := Ideal) dot_S1024x128_S128x128_S1024x128_1_1_0_0_n_n none L W (constant (F := Ideal) S1024x128 FTy.f32 0x00000000#32) : FVec Ideal S1024x128 .f32) (ix2 r n)
      = ∑ k : Fin 128, L (ix2 r k) * W (ix2 n k) :=
  Cert.Lib.matmul_rows_zero_apply (a := 1024) (K := 128) (b := 128) dot_S1024x128_S128x128_S1024x128_1_1_0_0_n_n.wf none L W r n

/-! ## The levels, as arrays read at an index -/

/-- One update of `ξ` on a block: `1.6 · (M · Tt - Fe) + 0.2 · Xi`, read at `(r, c)`. -/
theorem xiArr (M : FVec Ideal S1024x264 .f32) (Tt : FVec Ideal S264x2112 .f32) (Fe Xi : FVec Ideal S1024x2112 .f32)
    (r : Fin 1024) (c : Fin 2112) :
    (addf (mulf (broadcast S1024x2112 (Scalar.ofBits (F := Ideal) .f32 0x3FCCCCCD#32))
        (subf (matmul (F := Ideal) dot_S1024x264_S264x2112_S1024x2112_1_0_0_1_n_n none M Tt
          (constant (F := Ideal) S1024x2112 FTy.f32 0x00000000#32)) Fe))
      (mulf (broadcast S1024x2112 (Scalar.ofBits (F := Ideal) .f32 0x3E4CCCCD#32)) Xi) : FVec Ideal S1024x2112 .f32) (ix2 r c)
      = Cert.Spec.xiStep (matT Tt) (row Fe r) (row M r) (row Xi r) c := by
  rw [addf_apply, mulf_apply, mulf_apply, subf_apply, dot_mTt]
  rfl

/-- One update of `m` on a block: `relu(-8 · (Xi · T) + 0.2 · M)`, read at `(r, n)`; `z` is the zero the relu compares with. -/
theorem mArr (Xi : FVec Ideal S1024x2112 .f32) (T : FVec Ideal S2112x264 .f32) (M : FVec Ideal S1024x264 .f32)
    (r : Fin 1024) (n : Fin 264) :
    (maximumf (addf (mulf (broadcast S1024x264 (Scalar.ofBits (F := Ideal) .f32 0xC1000000#32))
          (matmul (F := Ideal) dot_S1024x2112_S2112x264_S1024x264_1_0_0_1_n_n none Xi T
            (constant (F := Ideal) S1024x264 FTy.f32 0x00000000#32)))
        (mulf (broadcast S1024x264 (Scalar.ofBits (F := Ideal) .f32 0x3E4CCCCD#32)) M))
      (broadcast S1024x264 (Scalar.ofBits (F := Ideal) .f32 0x00000000#32)) : FVec Ideal S1024x264 .f32) (ix2 r n)
      = Cert.Spec.mStep (mat T) (row Xi r) (row M r) n := by
  rw [maximumf_apply, addf_apply, mulf_apply, mulf_apply, dot_xiT]
  rfl

/-- The first threshold on a block: `relu(-10 · (Xi · T))` with `Xi = 0 - Fe`, read at `(r, n)`. -/
theorem m1Arr (Fe : FVec Ideal S1024x2112 .f32) (T : FVec Ideal S2112x264 .f32) (r : Fin 1024) (n : Fin 264) :
    (maximumf (mulf (broadcast S1024x264 (Scalar.ofBits (F := Ideal) .f32 0xC1200000#32))
          (matmul (F := Ideal) dot_S1024x2112_S2112x264_S1024x264_1_0_0_1_n_n none
            (subf (broadcast S1024x2112 (Scalar.ofBits (F := Ideal) .f32 0x00000000#32)) Fe) T
            (constant (F := Ideal) S1024x264 FTy.f32 0x00000000#32)))
      (broadcast S1024x264 (Scalar.ofBits (F := Ideal) .f32 0x00000000#32)) : FVec Ideal S1024x264 .f32) (ix2 r n)
      = Cert.Spec.m1 (mat T) (row Fe r) n := by
  rw [maximumf_apply, mulf_apply, dot_xiT]
  unfold Cert.Spec.m1
  refine congrArg (fun s => max (_ * s) _) (Finset.sum_congr rfl fun c _ => ?_)
  rw [subf_apply]
  show (Ideal.ofBits .f32 0x00000000#32 - Fe (ix2 r c)) * _ = _
  rw [Ideal.ofBits_zero_f32, zero_sub]
  rfl

/-- `0 - Fe` on a block is `-Fe`. -/
theorem xi0Arr (Fe : FVec Ideal S1024x2112 .f32) (r : Fin 1024) (c : Fin 2112) :
    (subf (broadcast S1024x2112 (Scalar.ofBits (F := Ideal) .f32 0x00000000#32)) Fe : FVec Ideal S1024x2112 .f32) (ix2 r c)
      = Cert.Spec.xi0 (row Fe r) c := by
  rw [subf_apply]
  show Ideal.ofBits .f32 0x00000000#32 - Fe (ix2 r c) = -(Fe (ix2 r c))
  rw [Ideal.ofBits_zero_f32, zero_sub]

/-- The feature block: `(Xc · s)² + (Xs · s)²` with `s = 8192 / (count + 1)` repeated along each row, read at `(r, c)`. -/
theorem featArr (Cn : FVec Ideal S1024x1 .f32) (Xc Xs : FVec Ideal S1024x2112 .f32) (r : Fin 1024) (c : Fin 2112) :
    k0_pay3 (F := Ideal) Cn Xc Xs (ix2 r c) = Cert.Spec.feat (row Xc r) (row Xs r) (Cn (ix2 r (0 : Fin 1))) c := by
  have hb : ∀ v : FVec Ideal S1024x1 .f32,
      broadcastTo S1024x2112 v broadcasts_S1024x1_S1024x2112 (ix2 r c) = v (ix2 r (0 : Fin 1)) :=
    fun v => Cert.Lib.broadcastTo_a1_ab_apply v _ r c
  unfold k0_pay3
  simp only [addf_apply, mulf_apply, hb]
  rfl

/-- A dense layer with a relu on a block, the bias one row repeated down the block; read at `(r, j)`. -/
theorem dense1Arr (X : FVec Ideal S1024x264 .f32) (W : FVec Ideal S264x264 .f32) (b : FVec Ideal S1x264 .f32)
    (r : Fin 1024) (j : Fin 264) :
    (maximumf (addf (matmul (F := Ideal) dot_S1024x264_S264x264_S1024x264_1_1_0_0_n_n none X W
          (constant (F := Ideal) S1024x264 FTy.f32 0x00000000#32))
        (broadcastTo S1024x264 (shapeCast S1x264 b shapeCasts_S1x264_S1x264) broadcasts_S1x264_S1024x264))
      (broadcast S1024x264 (Scalar.ofBits (F := Ideal) .f32 0x00000000#32)) : FVec Ideal S1024x264 .f32) (ix2 r j)
      = Cert.Spec.dense (mat W) (fun j => b (ix2 (0 : Fin 1) j)) (row X r) j := by
  rw [maximumf_apply, addf_apply, dot_W1, shapeCast_self, broadcastTo_1b_ab_apply]
  rfl

theorem dense2Arr (X : FVec Ideal S1024x264 .f32) (W : FVec Ideal S128x264 .f32) (b : FVec Ideal S1x128 .f32)
    (r : Fin 1024) (j : Fin 128) :
    (maximumf (addf (matmul (F := Ideal) dot_S1024x264_S128x264_S1024x128_1_1_0_0_n_n none X
          (shapeCast S128x264 W shapeCasts_S128x264_S128x264) (constant (F := Ideal) S1024x128 FTy.f32 0x00000000#32))
        (broadcastTo S1024x128 (shapeCast S1x128 b shapeCasts_S1x128_S1x128) broadcasts_S1x128_S1024x128))
      (broadcast S1024x128 (Scalar.ofBits (F := Ideal) .f32 0x00000000#32)) : FVec Ideal S1024x128 .f32) (ix2 r j)
      = Cert.Spec.dense (mat W) (fun j => b (ix2 (0 : Fin 1) j)) (row X r) j := by
  rw [maximumf_apply, addf_apply, shapeCast_self, dot_W2, shapeCast_self, broadcastTo_1b_ab_apply]
  rfl

/-- The last layer on a block: the logistic function of the product plus the bias row; read at `(r, j)`. -/
theorem lastArr (X : FVec Ideal S1024x128 .f32) (W : FVec Ideal S128x128 .f32) (b : FVec Ideal S1x128 .f32)
    (r : Fin 1024) (j : Fin 128) :
    (logistic (addf (matmul (F := Ideal) dot_S1024x128_S128x128_S1024x128_1_1_0_0_n_n none X
          (shapeCast S128x128 W shapeCasts_S128x128_S128x128) (constant (F := Ideal) S1024x128 FTy.f32 0x00000000#32))
        (broadcastTo S1024x128 (shapeCast S1x128 b shapeCasts_S1x128_S1x128) broadcasts_S1x128_S1024x128))
      : FVec Ideal S1024x128 .f32) (ix2 r j)
      = Cert.Spec.last (mat W) (fun j => b (ix2 (0 : Fin 1) j)) (row X r) j := by
  show Ideal.logistic ((addf _ _ : FVec Ideal S1024x128 .f32) (ix2 r j)) = _
  rw [addf_apply, shapeCast_self, dot_Wo, shapeCast_self, broadcastTo_1b_ab_apply]
  rfl

/-! ## The payloads, row by row -/

section Part1
variable (v35 : FVec Ideal S1024x1 .f32) (v40 v43 : FVec Ideal S1024x2112 .f32) (v49 : FVec Ideal S2112x264 .f32)
  (v50 : FVec Ideal S264x2112 .f32) (r : Fin 1024)

theorem pay3_row : row (k0_pay3 (F := Ideal) v35 v40 v43) r = Cert.Spec.feat (row v40 r) (row v43 r) (v35 (ix2 r (0 : Fin 1))) :=
  funext fun c => featArr v35 v40 v43 r c

theorem pay5_row : row (k0_pay5 (F := Ideal) v35 v40 v43) r = Cert.Spec.xi0 (row (k0_pay3 (F := Ideal) v35 v40 v43) r) :=
  funext fun c => by unfold k0_pay5; exact xi0Arr (k0_pay3 v35 v40 v43) r c

theorem pay6_row : row (k0_pay6 (F := Ideal) v35 v40 v43 v49) r = Cert.Spec.m1 (mat v49) (row (k0_pay3 (F := Ideal) v35 v40 v43) r) :=
  funext fun n => by unfold k0_pay6 k0_pay5; exact m1Arr (k0_pay3 v35 v40 v43) v49 r n

theorem pay7_row : row (k0_pay7 (F := Ideal) v35 v40 v43 v49 v50) r
    = Cert.Spec.xiStep (matT (k0_pay4 (F := Ideal) v50)) (row (k0_pay3 (F := Ideal) v35 v40 v43) r)
        (row (k0_pay6 (F := Ideal) v35 v40 v43 v49) r) (row (k0_pay5 (F := Ideal) v35 v40 v43) r) :=
  funext fun c => by unfold k0_pay7; exact xiArr (k0_pay6 v35 v40 v43 v49) (k0_pay4 v50) (k0_pay3 v35 v40 v43) (k0_pay5 v35 v40 v43) r c

theorem pay9of8_row : row (k0_pay9 (F := Ideal) (k0_pay8 v35 v40 v43 v49 v50) (Scalar.ofBits (F := Ideal) .f32 0x00000000#32)) r
    = Cert.Spec.mStep (mat v49) (row (k0_pay7 (F := Ideal) v35 v40 v43 v49 v50) r) (row (k0_pay6 (F := Ideal) v35 v40 v43 v49) r) :=
  funext fun n => by unfold k0_pay9 k0_pay8; exact mArr (k0_pay7 v35 v40 v43 v49 v50) v49 (k0_pay6 v35 v40 v43 v49) r n

end Part1

section Part2
variable (v48 : FVec Ideal S1024x2112 .f32) (v49 : FVec Ideal S2112x264 .f32) (v51 : FVec Ideal S264x2112 .f32) (v65 : FVec Ideal S1024x2112 .f32) (v71 : FVec Ideal S1024x264 .f32) (z : Ideal .f32) (r : Fin 1024)

theorem pay10_row : row (k0_pay10 (F := Ideal) v48 v51 v65 v71 z) r
    = Cert.Spec.xiStep (matT v51) (row v48 r) (row (k0_pay9 (F := Ideal) v71 z) r) (row v65 r) :=
  funext fun c => by unfold k0_pay10; exact xiArr (k0_pay9 v71 z) v51 v48 v65 r c

theorem pay11_row : row (k0_pay11 (F := Ideal) v48 v49 v51 v65 v71 z) r
    = Cert.Spec.mStep (mat v49) (row (k0_pay10 (F := Ideal) v48 v51 v65 v71 z) r) (row (k0_pay9 (F := Ideal) v71 z) r) :=
  funext fun n => by unfold k0_pay11; exact mArr (k0_pay10 v48 v51 v65 v71 z) v49 (k0_pay9 v71 z) r n

theorem pay12_row : row (k0_pay12 (F := Ideal) v48 v49 v51 v65 v71 z) r
    = Cert.Spec.xiStep (matT v51) (row v48 r) (row (k0_pay11 (F := Ideal) v48 v49 v51 v65 v71 z) r)
        (row (k0_pay10 (F := Ideal) v48 v51 v65 v71 z) r) :=
  funext fun c => by unfold k0_pay12; exact xiArr (k0_pay11 v48 v49 v51 v65 v71 z) v51 v48 (k0_pay10 v48 v51 v65 v71 z) r c

theorem pay13_row : row (k0_pay13 (F := Ideal) v48 v49 v51 v65 v71 z) r
    = Cert.Spec.mStep (mat v49) (row (k0_pay12 (F := Ideal) v48 v49 v51 v65 v71 z) r)
        (row (k0_pay11 (F := Ideal) v48 v49 v51 v65 v71 z) r) :=
  funext fun n => by unfold k0_pay13; exact mArr (k0_pay12 v48 v49 v51 v65 v71 z) v49 (k0_pay11 v48 v49 v51 v65 v71 z) r n

/-- The output block's row: the fifth threshold (from the fourth `ξ`-update), then the three layers. -/
theorem out_row (x5 : FVec Ideal S264x264 .f32) (x6 : FVec Ideal S1x264 .f32) (x7 : FVec Ideal S128x264 .f32)
    (x8 : FVec Ideal S1x128 .f32) (x9 : FVec Ideal S128x128 .f32) (x10 : FVec Ideal S1x128 .f32) :
    row (k0_pay2 (F := Ideal) (k0_pay13 v48 v49 v51 v65 v71 z) (k0_pay14 v48 v49 v51 v65 v71 z) k0_pay15 x5 x6 x7 x8 x9 x10) r
      = Cert.Spec.last (mat x9) (fun j => x10 (ix2 (0 : Fin 1) j))
          (Cert.Spec.dense (mat x7) (fun j => x8 (ix2 (0 : Fin 1) j))
            (Cert.Spec.dense (mat x5) (fun j => x6 (ix2 (0 : Fin 1) j))
              (Cert.Spec.mStep (mat v49)
                (Cert.Spec.xiStep (matT v51) (row v48 r) (row (k0_pay13 (F := Ideal) v48 v49 v51 v65 v71 z) r)
                  (row (k0_pay12 (F := Ideal) v48 v49 v51 v65 v71 z) r))
                (row (k0_pay13 (F := Ideal) v48 v49 v51 v65 v71 z) r)))) := by
  funext j
  unfold k0_pay2 k0_pay14 k0_pay15
  refine (lastArr _ x9 x10 r j).trans ?_
  refine congrArg (fun x => Cert.Spec.last _ _ x j) (funext fun n2 => ?_)
  refine (dense2Arr _ x7 x8 r n2).trans ?_
  refine congrArg (fun x => Cert.Spec.dense _ _ x n2) (funext fun n1 => ?_)
  refine (dense1Arr _ x5 x6 r n1).trans ?_
  refine congrArg (fun x => Cert.Spec.dense _ _ x n1) (funext fun n => ?_)
  refine (mArr _ v49 (k0_pay13 v48 v49 v51 v65 v71 z) r n).trans ?_
  refine congrArg (fun x => Cert.Spec.mStep _ x _ n) (funext fun c => ?_)
  exact xiArr (k0_pay13 v48 v49 v51 v65 v71 z) v51 v48 (k0_pay12 v48 v49 v51 v65 v71 z) r c

end Part2

end Cert.KernelIdeal.Tail

end
-- ==== Proof.KTail2.lean ====
/-
  The output block's row is the specification's tail of the block's accumulator rows.

  Composing the row-by-row readings: with `f` the feature row of block row `r`, the kernel's chain of thresholds and
  `ξ`-updates is the specification's `m5`, provided the second template operand is the transpose of the first; the three
  layers follow, over the padded weight arrays as the kernel holds them.
-/
import proofs.«178659_j38689065402872_2_alg».proof.Proof.KTail

noncomputable section

namespace Cert.KernelIdeal.Tail

open Idealize.ShloMosaic Idealize.ShloMosaic.TcCoe Idealize.ShloMosaic.ValueIdx Cert.KernelIdeal Cert.KernelIdeal.Gen
open scoped BigOperators

/-- A one-row array as a function of its column. -/
def brow {N : ℕ} (b : FVec Ideal ⟨2, ![1, N]⟩ .f32) : Fin N → EReal := fun j => b (ix2 (0 : Fin 1) j)

theorem outBlock_row (S2 : FVec Ideal S1024x1 .f32) (S0 S1 : FVec Ideal S1024x2112 .f32) (x3 : FVec Ideal S2112x264 .f32)
    (x4 : FVec Ideal S264x2112 .f32) (x5 : FVec Ideal S264x264 .f32) (x6 : FVec Ideal S1x264 .f32)
    (x7 : FVec Ideal S128x264 .f32) (x8 : FVec Ideal S1x128 .f32) (x9 : FVec Ideal S128x128 .f32) (x10 : FVec Ideal S1x128 .f32)
    (hT : ∀ (n : Fin 264) (c : Fin 2112), x4 (ix2 n c) = x3 (ix2 c n)) (r : Fin 1024) :
    row (k0_pay2 (F := Ideal) (k0_pay13 (k0_pay3 S2 S0 S1) x3 (k0_pay4 x4) (k0_pay7 S2 S0 S1 x3 x4) (k0_pay8 S2 S0 S1 x3 x4) (Scalar.ofBits (F := Ideal) .f32 0x00000000#32)) (k0_pay14 (k0_pay3 S2 S0 S1) x3 (k0_pay4 x4) (k0_pay7 S2 S0 S1 x3 x4) (k0_pay8 S2 S0 S1 x3 x4) (Scalar.ofBits (F := Ideal) .f32 0x00000000#32)) k0_pay15 x5 x6 x7 x8 x9 x10) r
      = Cert.Spec.last (mat x9) (brow x10) (Cert.Spec.dense (mat x7) (brow x8) (Cert.Spec.dense (mat x5) (brow x6)
          (Cert.Spec.m5 (mat x3) (Cert.Spec.feat (row S0 r) (row S1 r) (S2 (ix2 r (0 : Fin 1))))))) := by
  have hTt : matT (k0_pay4 (F := Ideal) x4) = mat x3 := by
    funext c n
    unfold k0_pay4
    rw [shapeCast_self]
    exact hT n c
  rw [out_row, pay13_row, pay12_row, pay11_row, pay10_row, pay9of8_row, pay7_row, pay6_row, pay5_row, pay3_row, hTt]
  rfl

end Cert.KernelIdeal.Tail

end
-- ==== Proof.KSums.lean ====
/-
  A grid step's share of the sums, and the kernel's result as one function.

  Step `s` of a row block contributes, to the product of input row `R` with weight row `q`, the sum over the 512 columns
  `512 · s + k`; to the count of row `R`, the number of nonzero entries among those columns. The kernel's `[4096, 128]`
  result holds, in row `R`, the tail of the computation applied to the sums over all 16 steps, the three layers taken
  over the padded weight arrays.
-/
import proofs.«178659_j38689065402872_2_alg».proof.Proof.Gen.KernelIdeal.Frame
import proofs.«178659_j38689065402872_2_alg».proof.Proof.KTail2

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Tail
open scoped BigOperators

variable (m : (ℓ : Loc nD τ sig) → Buf (Elt Ideal) ℓ)

/-- The input by natural-number coordinates (zero outside the array: never read). -/
def a0N (c : Dev nD) (R k : ℕ) : EReal :=
  if h : R < 4096 ∧ k < 8192 then V m c main_arg0 (ix2 ⟨R, h.1⟩ ⟨k, h.2⟩) else 0
/-- The two weight matrices as the kernel finds them, by a row and a natural-number column. -/
def w1N (c : Dev nD) (q : Fin 2112) (k : ℕ) : EReal := if h : k < 8192 then V m c main_v0 (ix2 q ⟨k, h⟩) else 0
def w2N (c : Dev nD) (q : Fin 2112) (k : ℕ) : EReal := if h : k < 8192 then V m c main_v1 (ix2 q ⟨k, h⟩) else 0

/-- Step `s`'s block products and count for input row `R`. -/
def dot1 (c : Dev nD) (R : ℕ) (q : Fin 2112) (s : ℕ) : EReal := ∑ k : Fin 512, a0N m c R (512 * s + k.val) * w1N m c q (512 * s + k.val)
def dot2 (c : Dev nD) (R : ℕ) (q : Fin 2112) (s : ℕ) : EReal := ∑ k : Fin 512, a0N m c R (512 * s + k.val) * w2N m c q (512 * s + k.val)
def cnt (c : Dev nD) (R : ℕ) (s : ℕ) : EReal := ∑ k : Fin 512, Cert.Spec.ind (a0N m c R (512 * s + k.val))

/-- The sums over all 16 steps: the two product rows and the count of input row `R`. -/
def accRow1 (c : Dev nD) (R : ℕ) : Fin 2112 → EReal := fun q => ∑ s ∈ Finset.range 16, dot1 m c R q s
def accRow2 (c : Dev nD) (R : ℕ) : Fin 2112 → EReal := fun q => ∑ s ∈ Finset.range 16, dot2 m c R q s
def cntRow (c : Dev nD) (R : ℕ) : EReal := ∑ s ∈ Finset.range 16, cnt m c R s

/-- The kernel's result array. -/
def Kout (c : Dev nD) : S4096x128.Idx → EReal := fun i =>
  Cert.Spec.last (mat (φ := .f32) (V m c main_v6 : FVec Ideal S128x128 .f32)) (brow (V m c main_v8 : FVec Ideal S1x128 .f32))
    (Cert.Spec.dense (mat (φ := .f32) (V m c main_v3 : FVec Ideal S128x264 .f32)) (brow (V m c main_v5 : FVec Ideal S1x128 .f32))
      (Cert.Spec.dense (mat (φ := .f32) (V m c main_arg5 : FVec Ideal S264x264 .f32)) (brow (V m c main_v9 : FVec Ideal S1x264 .f32))
        (Cert.Spec.m5 (mat (φ := .f32) (V m c main_arg4 : FVec Ideal S2112x264 .f32))
          (Cert.Spec.feat (accRow1 m c (i 0).val) (accRow2 m c (i 0).val) (cntRow m c (i 0).val))))) (i 1)

end Cert.KernelIdeal.Inv

end
-- ==== Proof.KInv.lean ====
/-
  The accumulators are partial sums.

  After step `s` of row block `i` (grid point `16 · i + s`) the first product accumulator holds, at `(r, q)`, the sum over the
  steps `0 … s` of the step's block product for input row `1024 · i + r` and weight row `q`; the second likewise; the counter
  holds the sum over those steps of the number of nonzero entries among the step's 512 columns of that input row. By
  induction on the grid point; a step's block product is `∑ k < 512` over columns `512 · s + k`.
-/
import proofs.«178659_j38689065402872_2_alg».proof.Proof.KPoints
import proofs.«178659_j38689065402872_2_alg».proof.Proof.KBlocks
import proofs.«178659_j38689065402872_2_alg».proof.Proof.KAccum
import proofs.«178659_j38689065402872_2_alg».proof.Proof.KSums

set_option maxRecDepth 16384

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Blocks Cert.KernelIdeal.Acc
open scoped BigOperators

variable (m : (ℓ : Loc nD τ sig) → Buf (Elt Ideal) ℓ)

section Blocks
variable (c : Dev nD) (t : Fin cfg0.N)

theorem B0_at (r : Fin 1024) (k : Fin 512) : B0 m c t (ix2 r k) = a0N m c (1024 * (t.val / 16) + r.val) (512 * (t.val % 16) + k.val) := by
  have hN : t.val < 64 := lt_of_lt_of_eq t.isLt N_0
  have hr : 1024 * (t.val / 16) + r.val < 4096 := by have := r.isLt; omega
  have hk : 512 * (t.val % 16) + k.val < 8192 := by have := k.isLt; omega
  unfold a0N
  rw [dif_pos ⟨hr, hk⟩]
  exact iblk0_apply m c t r k hr hk

theorem B1_at (q : Fin 2112) (k : Fin 512) : B1 m c t (ix2 q k) = w1N m c q (512 * (t.val % 16) + k.val) := by
  have hk : 512 * (t.val % 16) + k.val < 8192 := by have := k.isLt; omega
  unfold w1N
  rw [dif_pos hk]
  exact iblk1_apply m c t q k hk

theorem B2_at (q : Fin 2112) (k : Fin 512) : B2 m c t (ix2 q k) = w2N m c q (512 * (t.val % 16) + k.val) := by
  have hk : 512 * (t.val % 16) + k.val < 8192 := by have := k.isLt; omega
  unfold w2N
  rw [dif_pos hk]
  exact iblk2_apply m c t q k hk

/-- One step of the first accumulator at `(r, q)`. -/
theorem step1 (P : Vec Ideal S1024x2112 .f32) (r : Fin 1024) (q : Fin 2112) :
    k0_pay21 (F := Ideal) (B0 m c t) (B1 m c t) P (ix2 r q) = P (ix2 r q) + dot1 m c (1024 * (t.val / 16) + r.val) q (t.val % 16) := by
  rw [pay21_apply]
  refine congrArg (P (ix2 r q) + ·) (Finset.sum_congr rfl fun k _ => ?_)
  rw [B0_at, B1_at]

theorem step2 (P : Vec Ideal S1024x2112 .f32) (r : Fin 1024) (q : Fin 2112) :
    k0_pay1 (F := Ideal) (k0_pay22 (B0 m c t) (B2 m c t) P) (ix2 r q) = P (ix2 r q) + dot2 m c (1024 * (t.val / 16) + r.val) q (t.val % 16) := by
  rw [pay22_apply]
  refine congrArg (P (ix2 r q) + ·) (Finset.sum_congr rfl fun k _ => ?_)
  rw [B0_at, B2_at]

theorem stepc (P : Vec Ideal S1024x1 .f32) (r : Fin 1024) (u : Fin 1) :
    k0_pay19 (F := Ideal) (B0 m c t) P (ix2 r u) = P (ix2 r u) + cnt m c (1024 * (t.val / 16) + r.val) (t.val % 16) := by
  rw [pay19_apply]
  refine congrArg (P (ix2 r u) + ·) (Finset.sum_congr rfl fun k _ => ?_)
  rw [B0_at]

end Blocks

/-- What the accumulators hold after grid point `n`. -/
def Holds (c : Dev nD) (n : ℕ) (h : n < cfg0.N) : Prop :=
  (∀ (r : Fin 1024) (q : Fin 2112), (outsAt0 m c n h).2.1 (ix2 r q) = ∑ s ∈ Finset.range (n % 16 + 1), dot1 m c (1024 * (n / 16) + r.val) q s)
  ∧ (∀ (r : Fin 1024) (q : Fin 2112), (outsAt0 m c n h).2.2.1 (ix2 r q) = ∑ s ∈ Finset.range (n % 16 + 1), dot2 m c (1024 * (n / 16) + r.val) q s)
  ∧ (∀ (r : Fin 1024) (u : Fin 1), (outsAt0 m c n h).2.2.2 (ix2 r u) = ∑ s ∈ Finset.range (n % 16 + 1), cnt m c (1024 * (n / 16) + r.val) s)

/-- Step 0 of a row block: the accumulators hold the first step's share. -/
theorem holds_start (c : Dev nD) (t : Fin cfg0.N) (h0 : t.val % 16 = 0) : Holds m c t.val t.isLt := by
  have h1 : ¬t.val % 16 = 15 := by omega
  obtain ⟨e0, e1, e2⟩ := accA m c t h0 h1
  refine ⟨fun r q => ?_, fun r q => ?_, fun r u => ?_⟩
  · rw [e0, step1, pay16_apply, zero_add, h0]
    show _ = ∑ s ∈ Finset.range 1, _
    rw [Finset.sum_range_one]
  · rw [e1, step2, pay17_apply, zero_add, h0]
    show _ = ∑ s ∈ Finset.range 1, _
    rw [Finset.sum_range_one]
  · rw [e2, stepc, pay18_apply, zero_add, h0]
    show _ = ∑ s ∈ Finset.range 1, _
    rw [Finset.sum_range_one]

/-- A later step: one more share on top of what the point before left. -/
theorem holds_next (c : Dev nD) (t : Fin cfg0.N) (h0 : ¬t.val % 16 = 0)
    (ih : Holds m c (t.val - 1) (Nat.lt_of_le_of_lt (Nat.sub_le _ _) t.isLt)) : Holds m c t.val t.isLt := by
  have hN : t.val < 64 := lt_of_lt_of_eq t.isLt N_0
  obtain ⟨p0, p1, p2⟩ := ih
  have hd : (t.val - 1) / 16 = t.val / 16 := by omega
  have hm : (t.val - 1) % 16 + 1 = t.val % 16 := by omega
  have e : (outsAt0 m c t.val t.isLt).2.1 = k0_pay21 (B0 m c t) (B1 m c t) (P0 m c t)
      ∧ (outsAt0 m c t.val t.isLt).2.2.1 = k0_pay1 (k0_pay22 (B0 m c t) (B2 m c t) (P1 m c t))
      ∧ (outsAt0 m c t.val t.isLt).2.2.2 = k0_pay19 (B0 m c t) (P2 m c t) := by
    by_cases h1 : t.val % 16 = 15
    · obtain ⟨e0, e1, e2, _⟩ := accC m c t h0 h1
      exact ⟨e0, e1, e2⟩
    · exact accB m c t h0 h1
  obtain ⟨e0, e1, e2⟩ := e
  refine ⟨fun r q => ?_, fun r q => ?_, fun r u => ?_⟩
  · rw [e0, step1, Finset.sum_range_succ]
    refine congrArg (· + _) ?_
    have hp := p0 r q
    rw [hd, hm] at hp
    exact hp
  · rw [e1, step2, Finset.sum_range_succ]
    refine congrArg (· + _) ?_
    have hp := p1 r q
    rw [hd, hm] at hp
    exact hp
  · rw [e2, stepc, Finset.sum_range_succ]
    refine congrArg (· + _) ?_
    have hp := p2 r u
    rw [hd, hm] at hp
    exact hp

/-- By induction on the grid point. -/
theorem holds (c : Dev nD) : ∀ (n : ℕ) (h : n < cfg0.N), Holds m c n h := by
  intro n
  induction n with
  | zero => intro h; exact holds_start m c ⟨0, h⟩ rfl
  | succ n ih =>
    intro h
    by_cases h0 : (n + 1) % 16 = 0
    · exact holds_start m c ⟨n + 1, h⟩ h0
    · exact holds_next m c ⟨n + 1, h⟩ h0 (ih _)

end Cert.KernelIdeal.Inv

end
-- ==== Proof.KHost.lean ====
/-
  The windows' arrays as the kernel finds them.

  Before the kernel runs, the host makes: the two weight matrices in a narrower float format (the identity on the extended
  reals), the template transposed, the second and third layers' weights and biases padded with zeros from 88 to 128, and
  the three biases as one-row arrays.
-/
import proofs.«178659_j38689065402872_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.Host

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The first weight matrix as the region finds it: the argument through a change of float format. -/
theorem V_v0 (c : Dev nD) : (V m c main_v0 : Vec F S2112x8192 .bf16) = truncf .bf16 (m ((c : Thread nD τ).loc main_arg2)) bitsLt_bf16_f32 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-- The second weight matrix, likewise. -/
theorem V_v1 (c : Dev nD) : (V m c main_v1 : Vec F S2112x8192 .bf16) = truncf .bf16 (m ((c : Thread nD τ).loc main_arg3)) bitsLt_bf16_f32 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-- The second template operand: the template transposed. -/
theorem V_v2 (c : Dev nD) : (V m c main_v2 : Vec F S264x2112 .f32)
    = transpose S264x2112 [1, 0] (m ((c : Thread nD τ).loc main_arg4)) transposes_S2112x264_S264x2112_1_0 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-- The second layer's weights, padded with 40 zero rows. -/
theorem V_v3 (c : Dev nD) : (V m c main_v3 : Vec F S128x264 .f32)
    = pad S128x264 ![0, 0] ![40, 0] ![0, 0] (m ((c : Thread nD τ).loc main_arg7)) (sitofp (F := F) .f32 (constantI S_ 32 0#32)) pads_S88x264_S128x264_0400_000 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-- The second layer's bias, padded with 40 zeros, as one row. -/
theorem V_v5 (c : Dev nD) : (V m c main_v5 : Vec F S1x128 .f32)
    = shapeCast S1x128 (pad S128 ![0] ![40] ![0] (m ((c : Thread nD τ).loc main_arg8)) (sitofp (F := F) .f32 (constantI S_ 32 0#32)) pads_S88_S128_0400 h_S_) shapeCasts_S128_S1x128 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-- The last layer's weights, padded with 40 zero rows and 40 zero columns. -/
theorem V_v6 (c : Dev nD) : (V m c main_v6 : Vec F S128x128 .f32)
    = pad S128x128 ![0, 0] ![40, 40] ![0, 0] (m ((c : Thread nD τ).loc main_arg9)) (sitofp (F := F) .f32 (constantI S_ 32 0#32)) pads_S88x88_S128x128_0400_0400 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-- The last layer's bias, padded, as one row. -/
theorem V_v8 (c : Dev nD) : (V m c main_v8 : Vec F S1x128 .f32)
    = shapeCast S1x128 (pad S128 ![0] ![40] ![0] (m ((c : Thread nD τ).loc main_arg10)) (sitofp (F := F) .f32 (constantI S_ 32 0#32)) pads_S88_S128_0400 h_S_) shapeCasts_S128_S1x128 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-- The first layer's bias as one row. -/
theorem V_v9 (c : Dev nD) : (V m c main_v9 : Vec F S1x264 .f32) = shapeCast S1x264 (m ((c : Thread nD τ).loc main_arg6)) shapeCasts_S264_S1x264 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

end Cert.KernelIdeal.Host
end
-- ==== Proof.LibPadZero.lean ====
/-
  A zero-origin pad read at an index. A `stablehlo.pad` with no low padding and no interior padding keeps the operand in
  the leading corner of the result and fills the rest with the padding value: at an index inside the operand's extents on
  every axis it is the operand's entry, and at an index at or beyond the operand's extent on some axis it is the padding
  value. Stated for rank 2 and rank 1, at any extents and any high padding; the result's extents are tied to the operand's
  by the shape fact the operation carries.
-/
import Idealize.ShloMosaic.Lib.KernelVsHost

namespace Cert.Lib

open Idealize.ShloMosaic Idealize.ShloMosaic.ValueIdx

variable {α : Type}

/-- The scalar shape has one index: the first index of a rank-zero array is that index. -/
theorem first_scalar (hu : 0 < (⟨0, ![]⟩ : Shape).numel) : Shape.Idx.first hu = ix0 :=
  funext fun a => a.elim0

section Rank2
variable {a b A B h0 h1 : Nat}

/-- Rank 2, inside: at `(p, q)` with `p < a` and `q < b` the padded array is the operand's entry `(p, q)`. -/
theorem pad2_zero_apply_inside (x : (⟨2, ![a, b]⟩ : Shape).Idx → α) {u : Shape} (v : u.Idx → α)
    (hp : (⟨2, ![a, b]⟩ : Shape).Pads (![0, 0] : Fin 2 → Nat) ![h0, h1] ![0, 0] ⟨2, ![A, B]⟩) (hu : 0 < u.numel)
    (p : Fin A) (q : Fin B) (hpa : p.val < a) (hqb : q.val < b) :
    pad ⟨2, ![A, B]⟩ ![0, 0] ![h0, h1] ![0, 0] x v hp hu (ix2 p q) = x (ix2 ⟨p.val, hpa⟩ ⟨q.val, hqb⟩) :=
  pad_apply_of_inside _ _ _ x v hp hu _ (ix2 (⟨p.val, hpa⟩ : Fin a) (⟨q.val, hqb⟩ : Fin b)) (by
    intro c
    match c with
    | ⟨0, _⟩ => show p.val = 0 + p.val * (0 + 1); omega
    | ⟨1, _⟩ => show q.val = 0 + q.val * (0 + 1); omega)

/-- Rank 2, outside: at `(p, q)` with `p ≥ a` or `q ≥ b` the padded array is the padding value. -/
theorem pad2_zero_apply_outside (x : (⟨2, ![a, b]⟩ : Shape).Idx → α) {u : Shape} (v : u.Idx → α)
    (hp : (⟨2, ![a, b]⟩ : Shape).Pads (![0, 0] : Fin 2 → Nat) ![h0, h1] ![0, 0] ⟨2, ![A, B]⟩) (hu : 0 < u.numel)
    (p : Fin A) (q : Fin B) (ho : a ≤ p.val ∨ b ≤ q.val) :
    pad ⟨2, ![A, B]⟩ ![0, 0] ![h0, h1] ![0, 0] x v hp hu (ix2 p q) = v (Shape.Idx.first hu) := by
  rcases ho with ho | ho
  · exact pad_apply_of_not_inside _ _ _ x v hp hu _ (0 : Fin 2) (by
      intro hin
      have e : (p.val - 0) / (0 + 1) < a := hin.2.2
      omega)
  · exact pad_apply_of_not_inside _ _ _ x v hp hu _ (1 : Fin 2) (by
      intro hin
      have e : (q.val - 0) / (0 + 1) < b := hin.2.2
      omega)

/-- Rank 2, both cases in one: the operand's entry inside its extents, the padding value elsewhere. -/
theorem pad2_zero_apply (x : (⟨2, ![a, b]⟩ : Shape).Idx → α) {u : Shape} (v : u.Idx → α)
    (hp : (⟨2, ![a, b]⟩ : Shape).Pads (![0, 0] : Fin 2 → Nat) ![h0, h1] ![0, 0] ⟨2, ![A, B]⟩) (hu : 0 < u.numel)
    (p : Fin A) (q : Fin B) :
    pad ⟨2, ![A, B]⟩ ![0, 0] ![h0, h1] ![0, 0] x v hp hu (ix2 p q)
      = if h : p.val < a ∧ q.val < b then x (ix2 ⟨p.val, h.1⟩ ⟨q.val, h.2⟩) else v (Shape.Idx.first hu) := by
  by_cases h : p.val < a ∧ q.val < b
  · rw [dif_pos h]; exact pad2_zero_apply_inside x v hp hu p q h.1 h.2
  · rw [dif_neg h]; exact pad2_zero_apply_outside x v hp hu p q (by omega)

/-- Rank 2, outside, with a scalar padding array: the padding value is the scalar's one entry. -/
theorem pad2_zero_apply_outside_scalar (x : (⟨2, ![a, b]⟩ : Shape).Idx → α) (v : (⟨0, ![]⟩ : Shape).Idx → α)
    (hp : (⟨2, ![a, b]⟩ : Shape).Pads (![0, 0] : Fin 2 → Nat) ![h0, h1] ![0, 0] ⟨2, ![A, B]⟩)
    (hu : 0 < (⟨0, ![]⟩ : Shape).numel) (p : Fin A) (q : Fin B) (ho : a ≤ p.val ∨ b ≤ q.val) :
    pad ⟨2, ![A, B]⟩ ![0, 0] ![h0, h1] ![0, 0] x v hp hu (ix2 p q) = v ix0 := by
  rw [pad2_zero_apply_outside x v hp hu p q ho, first_scalar]

end Rank2

section Rank1
variable {a A h0 : Nat}

/-- Rank 1, inside: at `p < a` the padded vector is the operand's entry `p`. -/
theorem pad1_zero_apply_inside (x : (⟨1, ![a]⟩ : Shape).Idx → α) {u : Shape} (v : u.Idx → α)
    (hp : (⟨1, ![a]⟩ : Shape).Pads (![0] : Fin 1 → Nat) ![h0] ![0] ⟨1, ![A]⟩) (hu : 0 < u.numel)
    (p : Fin A) (hpa : p.val < a) :
    pad ⟨1, ![A]⟩ ![0] ![h0] ![0] x v hp hu (ix1 p) = x (ix1 ⟨p.val, hpa⟩) :=
  pad_apply_of_inside _ _ _ x v hp hu _ (ix1 (⟨p.val, hpa⟩ : Fin a)) (by
    intro c
    match c with
    | ⟨0, _⟩ => show p.val = 0 + p.val * (0 + 1); omega)

/-- Rank 1, outside: at `p ≥ a` the padded vector is the padding value. -/
theorem pad1_zero_apply_outside (x : (⟨1, ![a]⟩ : Shape).Idx → α) {u : Shape} (v : u.Idx → α)
    (hp : (⟨1, ![a]⟩ : Shape).Pads (![0] : Fin 1 → Nat) ![h0] ![0] ⟨1, ![A]⟩) (hu : 0 < u.numel)
    (p : Fin A) (ho : a ≤ p.val) :
    pad ⟨1, ![A]⟩ ![0] ![h0] ![0] x v hp hu (ix1 p) = v (Shape.Idx.first hu) :=
  pad_apply_of_not_inside _ _ _ x v hp hu _ (0 : Fin 1) (by
    intro hin
    have e : (p.val - 0) / (0 + 1) < a := hin.2.2
    omega)

/-- Rank 1, both cases in one: the operand's entry inside its extent, the padding value elsewhere. -/
theorem pad1_zero_apply (x : (⟨1, ![a]⟩ : Shape).Idx → α) {u : Shape} (v : u.Idx → α)
    (hp : (⟨1, ![a]⟩ : Shape).Pads (![0] : Fin 1 → Nat) ![h0] ![0] ⟨1, ![A]⟩) (hu : 0 < u.numel) (p : Fin A) :
    pad ⟨1, ![A]⟩ ![0] ![h0] ![0] x v hp hu (ix1 p)
      = if h : p.val < a then x (ix1 ⟨p.val, h⟩) else v (Shape.Idx.first hu) := by
  by_cases h : p.val < a
  · rw [dif_pos h]; exact pad1_zero_apply_inside x v hp hu p h
  · rw [dif_neg h]; exact pad1_zero_apply_outside x v hp hu p (by omega)

/-- Rank 1, outside, with a scalar padding array: the padding value is the scalar's one entry. -/
theorem pad1_zero_apply_outside_scalar (x : (⟨1, ![a]⟩ : Shape).Idx → α) (v : (⟨0, ![]⟩ : Shape).Idx → α)
    (hp : (⟨1, ![a]⟩ : Shape).Pads (![0] : Fin 1 → Nat) ![h0] ![0] ⟨1, ![A]⟩)
    (hu : 0 < (⟨0, ![]⟩ : Shape).numel) (p : Fin A) (ho : a ≤ p.val) :
    pad ⟨1, ![A]⟩ ![0] ![h0] ![0] x v hp hu (ix1 p) = v ix0 := by
  rw [pad1_zero_apply_outside x v hp hu p ho, first_scalar]

end Rank1

end Cert.Lib
-- ==== Proof.KHostAt.lean ====
/-
  The windows' arrays as the kernel finds them, read at an index, on the extended reals.

  The two weight matrices pass through a change of float format, which is the identity here; the template is read with its
  coordinates exchanged; a bias vector made one row is read at its column; and an array padded with zeros from 88 to 128
  is the operand inside the first 88 rows and columns, and beyond them the padding value, which is the integer zero
  converted to a float, that is `0`.
-/
import proofs.«178659_j38689065402872_2_alg».proof.Proof.KHost
import proofs.«178659_j38689065402872_2_alg».proof.Proof.LibPadZero
import Idealize.ShloMosaic.Lib.ValueLayout
import Idealize.ShloMosaic.Lib.ValueIdx

noncomputable section

namespace Cert.KernelIdeal.HostAt

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-- The first weight matrix: the argument itself (the format change is the identity). -/
theorem V_v0_at (q : Fin 2112) (k : Fin 8192) :
    (V m c main_v0 : Vec Ideal S2112x8192 .bf16) (ix2 q k) = m ((c : Thread nD τ).loc main_arg2) (ix2 q k) := by
  rw [Host.V_v0]; rfl

/-- The second weight matrix, likewise. -/
theorem V_v1_at (q : Fin 2112) (k : Fin 8192) :
    (V m c main_v1 : Vec Ideal S2112x8192 .bf16) (ix2 q k) = m ((c : Thread nD τ).loc main_arg3) (ix2 q k) := by
  rw [Host.V_v1]; rfl

/-- The transposed template at `(n, q)` is the template at `(q, n)`. -/
theorem V_v2_at (n : Fin 264) (q : Fin 2112) :
    (V m c main_v2 : Vec Ideal S264x2112 .f32) (ix2 n q) = m ((c : Thread nD τ).loc main_arg4) (ix2 q n) := by
  rw [Host.V_v2]; exact transpose_ix2_apply _ _ n q

/-- The first layer's bias as one row, at column `j`. -/
theorem V_v9_at (u : Fin 1) (j : Fin 264) :
    (V m c main_v9 : Vec Ideal S1x264 .f32) (ix2 u j) = m ((c : Thread nD τ).loc main_arg6) (ix1 j) := by
  rw [Host.V_v9]; exact shapeCast_a_1a_apply _ _ u j

/-- The second layer's padded weights, inside the first 88 rows. -/
theorem V_v3_in (j : Fin 88) (n : Fin 264) :
    (V m c main_v3 : Vec Ideal S128x264 .f32) (ix2 ⟨j.val, by have := j.isLt; omega⟩ n) = m ((c : Thread nD τ).loc main_arg7) (ix2 j n) := by
  rw [Host.V_v3]
  exact Cert.Lib.pad2_zero_apply_inside _ _ _ _ (⟨j.val, by have := j.isLt; omega⟩ : Fin 128) n j.isLt n.isLt

/-- The second layer's padded bias as one row, inside the first 88 columns. -/
theorem V_v5_in (u : Fin 1) (j : Fin 88) :
    (V m c main_v5 : Vec Ideal S1x128 .f32) (ix2 u ⟨j.val, by have := j.isLt; omega⟩) = m ((c : Thread nD τ).loc main_arg8) (ix1 j) := by
  rw [Host.V_v5]
  exact (shapeCast_a_1a_apply _ _ u (⟨j.val, by have := j.isLt; omega⟩ : Fin 128)).trans
    (Cert.Lib.pad1_zero_apply_inside _ _ _ _ (⟨j.val, by have := j.isLt; omega⟩ : Fin 128) j.isLt)

/-- The last layer's padded weights, inside the first 88 rows and columns. -/
theorem V_v6_in (j n : Fin 88) :
    (V m c main_v6 : Vec Ideal S128x128 .f32) (ix2 ⟨j.val, by have := j.isLt; omega⟩ ⟨n.val, by have := n.isLt; omega⟩) = m ((c : Thread nD τ).loc main_arg9) (ix2 j n) := by
  rw [Host.V_v6]
  exact Cert.Lib.pad2_zero_apply_inside _ _ _ _ (⟨j.val, by have := j.isLt; omega⟩ : Fin 128) (⟨n.val, by have := n.isLt; omega⟩ : Fin 128)
    j.isLt n.isLt

/-- The last layer's padded weights, in the 40 padding columns: the integer zero as a float is `0`. -/
theorem V_v6_out (j : Fin 88) (n : Fin 40) :
    (V m c main_v6 : Vec Ideal S128x128 .f32) (ix2 ⟨j.val, by have := j.isLt; omega⟩ ⟨88 + n.val, by have := n.isLt; omega⟩) = (0 : EReal) := by
  rw [Host.V_v6]
  refine (Cert.Lib.pad2_zero_apply_outside_scalar _ _ _ _ (⟨j.val, by have := j.isLt; omega⟩ : Fin 128)
    (⟨88 + n.val, by have := n.isLt; omega⟩ : Fin 128) (Or.inr (Nat.le_add_right 88 n.val))).trans ?_
  show (((0#32 : BitVec 32).toInt : ℝ) : EReal) = 0
  rw [BitVec.toInt_zero, Int.cast_zero, EReal.coe_zero]

/-- The last layer's padded bias as one row, inside the first 88 columns. -/
theorem V_v8_in (u : Fin 1) (j : Fin 88) :
    (V m c main_v8 : Vec Ideal S1x128 .f32) (ix2 u ⟨j.val, by have := j.isLt; omega⟩) = m ((c : Thread nD τ).loc main_arg10) (ix1 j) := by
  rw [Host.V_v8]
  exact (shapeCast_a_1a_apply _ _ u (⟨j.val, by have := j.isLt; omega⟩ : Fin 128)).trans
    (Cert.Lib.pad1_zero_apply_inside _ _ _ _ (⟨j.val, by have := j.isLt; omega⟩ : Fin 128) j.isLt)

end Cert.KernelIdeal.HostAt

end
-- ==== Proof.KFinal.lean ====
/-
  The kernel's result array.

  The output window is written back only after step 15 of each row block, and its block then holds rows
  `1024 · (t / 16) …` of the result: the tail of the computation on the accumulators after the sixteenth step, which are
  the full sums. The four write-backs cover the `[4096, 128]` array; the host then keeps its first 88 columns.
-/
import proofs.«178659_j38689065402872_2_alg».proof.Proof.KInv
import proofs.«178659_j38689065402872_2_alg».proof.Proof.KHostAt

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Inv Cert.KernelIdeal.Tail
open scoped BigOperators

variable (m : (ℓ : Loc nD τ sig) → Buf (Elt Ideal) ℓ) (ρ : Dev nD → PrngReg)

/-- The second template operand is the transpose of the first. -/
theorem hT (c : Dev nD) (t : Fin cfg0.N) (n : Fin 264) (q : Fin 2112) : B4 m c t (ix2 n q) = B3 m c t (ix2 q n) := by
  show (iblk m c 4 t : Vec Ideal S264x2112 .f32) (ix2 n q) = (iblk m c 3 t : Vec Ideal S2112x264 .f32) (ix2 q n)
  rw [iblk4_eq, iblk3_eq, Cert.KernelIdeal.HostAt.V_v2_at, V_main_arg4]

/-- The output block after step 15, entry `(r, j)`: the result's entry in row `1024 · (t / 16) + r`. -/
theorem out_at (c : Dev nD) (t : Fin cfg0.N) (h1 : t.val % 16 = 15) (r : Fin 1024) (j : Fin 128)
    (hR : 1024 * (t.val / 16) + r.val < 4096) :
    (outsAt0 m c t.val t.isLt).1 (ix2 r j) = Kout m c (ix2 ⟨1024 * (t.val / 16) + r.val, hR⟩ j) := by
  have h0 : ¬t.val % 16 = 0 := by omega
  obtain ⟨e0, e1, e2, e3⟩ := accC m c t h0 h1
  obtain ⟨s0, s1, s2⟩ := holds m c t.val t.isLt
  rw [e3]
  refine (congrFun (outBlock_row (k0_pay19 (B0 m c t) (P2 m c t)) (k0_pay21 (B0 m c t) (B1 m c t) (P0 m c t))
    (k0_pay1 (k0_pay22 (B0 m c t) (B2 m c t) (P1 m c t))) (B3 m c t) (B4 m c t) (B5 m c t) (B6 m c t) (B7 m c t) (B8 m c t)
    (B9 m c t) (B10 m c t) (hT m c t) r) j).trans ?_
  have r0 : row (k0_pay21 (F := Ideal) (B0 m c t) (B1 m c t) (P0 m c t)) r = accRow1 m c (1024 * (t.val / 16) + r.val) := by
    funext q
    show k0_pay21 (F := Ideal) (B0 m c t) (B1 m c t) (P0 m c t) (ix2 r q) = _
    rw [← e0, s0 r q, h1]; rfl
  have r1 : row (k0_pay1 (F := Ideal) (k0_pay22 (B0 m c t) (B2 m c t) (P1 m c t))) r = accRow2 m c (1024 * (t.val / 16) + r.val) := by
    funext q
    show k0_pay1 (F := Ideal) (k0_pay22 (B0 m c t) (B2 m c t) (P1 m c t)) (ix2 r q) = _
    rw [← e1, s1 r q, h1]; rfl
  have r2 : k0_pay19 (F := Ideal) (B0 m c t) (P2 m c t) (ix2 r (0 : Fin 1)) = cntRow m c (1024 * (t.val / 16) + r.val) := by
    rw [← e2, s2 r 0, h1]; rfl
  rw [r0, r1, r2]
  have b3 : (B3 m c t : FVec Ideal S2112x264 .f32) = V m c main_arg4 := iblk3_eq m c t
  have b5 : (B5 m c t : FVec Ideal S264x264 .f32) = V m c main_arg5 := iblk5_eq m c t
  have b6 : (B6 m c t : FVec Ideal S1x264 .f32) = V m c main_v9 := iblk6_eq m c t
  have b7 : (B7 m c t : FVec Ideal S128x264 .f32) = V m c main_v3 := iblk7_eq m c t
  have b8 : (B8 m c t : FVec Ideal S1x128 .f32) = V m c main_v5 := iblk8_eq m c t
  have b9 : (B9 m c t : FVec Ideal S128x128 .f32) = V m c main_v6 := iblk9_eq m c t
  have b10 : (B10 m c t : FVec Ideal S1x128 .f32) = V m c main_v8 := iblk10_eq m c t
  rw [b3, b5, b6, b7, b8, b9, b10]
  rfl

/-- What a write-back writes: the block of the result at the point. -/
theorem flushed_eq (c : Dev nD) (t : Fin cfg0.N) (hf : (cfg0.win 11).flush t = true) :
    (dats m 0 c).flushed 11 t = ((cfg0.win 11).blk t).view.read (Elt Ideal) (Kout m c) := by
  have h1 : t.val % 16 = 15 := (flush0_11 t).mp hf
  have hN : t.val < 64 := lt_of_lt_of_eq t.isLt N_0
  show (cfg0.win 11).cut (grid0.coords t) ((dats m 0 c).after 11 t) = _
  rw [after0_11]
  funext y
  have hy0 : (y 0).val < 1024 := (y 0).isLt
  have hR : 1024 * (t.val / 16) + (y 0).val < 4096 := by omega
  show (outsAt0 m c t.val t.isLt).1 y = Kout m c (((cfg0.win 11).blk t).view.emb y)
  have he : ((cfg0.win 11).blk t).view.emb y = ix2 ⟨1024 * (t.val / 16) + (y 0).val, hR⟩ (y 1) := by
    funext a
    apply Fin.ext
    match a with
    | ⟨0, _⟩ => show win0_11.index t 0 * 1024 + 1 * (y 0).val = 1024 * (t.val / 16) + (y 0).val; rw [(idx11 t).1]; omega
    | ⟨1, _⟩ => show win0_11.index t 1 * 128 + 1 * (y 1).val = (y 1).val; rw [(idx11 t).2]; omega
  rw [he]
  exact (congrArg (outsAt0 m c t.val t.isLt).1 (eq_ix2 y)).trans (out_at m c t h1 (y 0) (y 1) hR)

/-- An index of the result is in point `t`'s block iff each coordinate is in the block's range. -/
theorem mem_blk (t : Fin cfg0.N) (i : S4096x128.Idx) :
    i ∈ ((cfg0.win 11).blk t).view.set ↔ ∀ a : Fin 2, win0_11.index t a * S1024x128.size a ≤ (i a).val
      ∧ (i a).val < win0_11.index t a * S1024x128.size a + S1024x128.size a := by
  show i ∈ ((View.whole main_v10).slice (win0_11.rect t)).set ↔ _
  rw [View.set_slice_whole, Rect.mem_set_unit]
  exact Iff.rfl

/-- The result array after the run. -/
theorem final (c : Dev nD) : (dats m 0 c).arrAt 11 cfg0.N = Kout m c :=
  (dats m 0 c).arrAt_eq_of_cover 11 (Kout m c) (flushed_eq m c) fun i => by
    have hi0 : (i 0).val < 4096 := (i 0).isLt
    have hi1 : (i 1).val < 128 := (i 1).isLt
    have hN : cfg0.N = 64 := N_0
    refine ⟨⟨16 * ((i 0).val / 1024) + 15, by rw [hN]; omega⟩, (flush0_11 _).mpr (by show (16 * ((i 0).val / 1024) + 15) % 16 = 15; omega), ?_⟩
    rw [mem_blk]
    intro a
    match a with
    | ⟨0, _⟩ =>
      show win0_11.index _ 0 * 1024 ≤ (i 0).val ∧ (i 0).val < win0_11.index _ 0 * 1024 + 1024
      rw [(idx11 _).1]; show (16 * ((i 0).val / 1024) + 15) / 16 * 1024 ≤ _ ∧ _ < (16 * ((i 0).val / 1024) + 15) / 16 * 1024 + 1024; omega
    | ⟨1, _⟩ =>
      show win0_11.index _ 1 * 128 ≤ (i 1).val ∧ (i 1).val < win0_11.index _ 1 * 128 + 128
      rw [(idx11 _).2]; omega

end Cert.KernelIdeal.Final

end
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.PadTail.lean ====
/-
  Zero padding of the last two dense layers.

  The kernel runs the second layer with 128 output units and the third with 128 inputs and 128 outputs, the weight matrices
  and biases padded with zeros from 88. For an output `j < 88` of the third layer the 40 extra inputs are multiplied by zero
  weights — `x · 0 = 0` for every extended real `x`, infinite ones included — so they drop out of the sum, and on the first 88
  inputs the padded second layer is the unpadded one.
-/
import proofs.«178659_j38689065402872_2_alg».proof.Proof.Spec
import proofs.«178659_j38689065402872_2_alg».proof.Proof.LibConcatCols

noncomputable section

namespace Cert.PadTail

open Cert.Spec
open scoped BigOperators

/-- A sum over 128 terms whose last 40 vanish is the sum of the first 88. -/
theorem sum_128_88 (f : Fin 128 → EReal) (h0 : ∀ n : Fin 40, f ⟨88 + n.val, by have := n.isLt; omega⟩ = 0) :
    ∑ n, f n = ∑ n : Fin 88, f ⟨n.val, by have := n.isLt; omega⟩ := by
  rw [Cert.Lib.sum_fin_add (a := 88) (b := 40) (by norm_num) f]
  rw [Finset.sum_eq_zero (fun n _ => h0 n), add_zero]

variable {K : ℕ}

/-- The padded second layer, on its first 88 outputs, is the unpadded one. -/
theorem dense_pad (W2p : Fin 128 → Fin K → EReal) (b2p : Fin 128 → EReal) (W2 : Fin 88 → Fin K → EReal) (b2 : Fin 88 → EReal)
    (hW : ∀ (j : Fin 88) (n : Fin K), W2p ⟨j.val, by have := j.isLt; omega⟩ n = W2 j n)
    (hb : ∀ j : Fin 88, b2p ⟨j.val, by have := j.isLt; omega⟩ = b2 j) (x : Fin K → EReal) (j : Fin 88) :
    dense W2p b2p x ⟨j.val, by have := j.isLt; omega⟩ = dense W2 b2 x j := by
  unfold dense
  rw [hb j]
  simp only [hW j]

/-- The padded last layer after the padded second layer, on the first 88 outputs, is the unpadded pair. -/
theorem last_pad (Wop : Fin 128 → Fin 128 → EReal) (bop : Fin 128 → EReal) (Wo : Fin 88 → Fin 88 → EReal) (bo : Fin 88 → EReal)
    (hW : ∀ (j n : Fin 88), Wop ⟨j.val, by have := j.isLt; omega⟩ ⟨n.val, by have := n.isLt; omega⟩ = Wo j n)
    (hW0 : ∀ (j : Fin 88) (n : Fin 40), Wop ⟨j.val, by have := j.isLt; omega⟩ ⟨88 + n.val, by have := n.isLt; omega⟩ = 0)
    (hb : ∀ j : Fin 88, bop ⟨j.val, by have := j.isLt; omega⟩ = bo j)
    (yp : Fin 128 → EReal) (y : Fin 88 → EReal) (hy : ∀ n : Fin 88, yp ⟨n.val, by have := n.isLt; omega⟩ = y n) (j : Fin 88) :
    last Wop bop yp ⟨j.val, by have := j.isLt; omega⟩ = last Wo bo y j := by
  unfold last
  rw [hb j, sum_128_88 _ (fun n => by rw [hW0 j n, mul_zero])]
  simp only [hW j, hy]

end Cert.PadTail

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.BlockedSum.lean ====
/-
  A sum over 8192 columns taken as 16 consecutive runs of 512.

  For a function `f` on the naturals with values in a commutative additive monoid, the sum of `f k` over `k < 8192`
  is the sum over the runs `s < 16` of the sums of `f (512 · s + k)` over `k < 512`: column `k` of run `s` is column
  `512 · s + k` of the whole. Only commutativity and associativity of `+` are used, so on the extended reals no
  finiteness is needed.
-/
import Mathlib.Algebra.BigOperators.Fin
import proofs.«178659_j38689065402872_2_alg».proof.Proof.LibBlockSum

namespace Cert.BlockedSum

open Finset

/-- The 16 runs of 512 columns make up the 8192 columns. -/
theorem sum_16_512 {M : Type*} [AddCommMonoid M] (f : ℕ → M) :
    ∑ s ∈ Finset.range 16, ∑ k : Fin 512, f (512 * s + k.val) = ∑ k : Fin 8192, f k.val := by
  rw [Finset.sum_range]
  have h : ∑ k : Fin (16 * 512), f k.val
      = ∑ d : Fin 16, ∑ j : Fin 512, f (finProdFinEquiv (d, j) : Fin (16 * 512)).val :=
    Cert.Lib.sum_blocks 16 512 (fun k : Fin (16 * 512) => f k.val)
  refine Eq.trans ?_ (h.symm.trans rfl)
  refine Finset.sum_congr rfl fun d _ => Finset.sum_congr rfl fun j _ => ?_
  rw [Cert.Lib.blockIdx_val, Nat.add_comm]

end Cert.BlockedSum
-- ==== Proof.KBridge.lean ====
/-
  The kernel's result is the specification's.

  Three things separate the kernel's result function from the specification. The sums over the 8192 columns are taken as
  16 consecutive runs of 512, which add up to the whole; the arrays the kernel finds are the arguments themselves, or the
  arguments in another format (the identity here), transposed, or as one row; and the last two layers run over arrays
  padded with zeros from 88 to 128, where the extra inputs meet zero weights and the first 88 outputs are the unpadded ones.
-/
import proofs.«178659_j38689065402872_2_alg».proof.Proof.KSums
import proofs.«178659_j38689065402872_2_alg».proof.Proof.KHostAt
import proofs.«178659_j38689065402872_2_alg».proof.Proof.PadTail
import proofs.«178659_j38689065402872_2_alg».proof.Proof.BlockedSum
import proofs.«178659_j38689065402872_2_alg».proof.Proof.Spec

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Tail
open scoped BigOperators

variable (m : (ℓ : Loc nD τ sig) → Buf (Elt Ideal) ℓ) (c : Dev nD)

/-! The argument arrays, typed by their shapes. -/
abbrev A0 : FVec Ideal S4096x8192 .f32 := m ((c : Thread nD τ).loc main_arg0)
abbrev A2 : FVec Ideal S2112x8192 .f32 := m ((c : Thread nD τ).loc main_arg2)
abbrev A3 : FVec Ideal S2112x8192 .f32 := m ((c : Thread nD τ).loc main_arg3)
abbrev A4 : FVec Ideal S2112x264 .f32 := m ((c : Thread nD τ).loc main_arg4)
abbrev A5 : FVec Ideal S264x264 .f32 := m ((c : Thread nD τ).loc main_arg5)
abbrev A6 : FVec Ideal S264 .f32 := m ((c : Thread nD τ).loc main_arg6)
abbrev A7 : FVec Ideal S88x264 .f32 := m ((c : Thread nD τ).loc main_arg7)
abbrev A8 : FVec Ideal S88 .f32 := m ((c : Thread nD τ).loc main_arg8)
abbrev A9 : FVec Ideal S88x88 .f32 := m ((c : Thread nD τ).loc main_arg9)
abbrev A10 : FVec Ideal S88 .f32 := m ((c : Thread nD τ).loc main_arg10)

/-! ## The sums -/

/-- The input by natural-number coordinates, inside the array. -/
theorem a0N_at (R : Fin 4096) (k : Fin 8192) : Inv.a0N m c R.val k.val = A0 m c (ix2 R k) := by
  unfold Inv.a0N
  rw [dif_pos ⟨R.isLt, k.isLt⟩, V_main_arg0]

/-- The first weight matrix by a natural-number column, inside the array. -/
theorem w1N_at (q : Fin 2112) (k : Fin 8192) : Inv.w1N m c q k.val = A2 m c (ix2 q k) := by
  unfold Inv.w1N
  rw [dif_pos k.isLt]
  exact HostAt.V_v0_at m c q k

theorem w2N_at (q : Fin 2112) (k : Fin 8192) : Inv.w2N m c q k.val = A3 m c (ix2 q k) := by
  unfold Inv.w2N
  rw [dif_pos k.isLt]
  exact HostAt.V_v1_at m c q k

/-- The 16 runs of the first product add up to the product of row `R` with the weight rows. -/
theorem accRow1_eq (R : Fin 4096) :
    Inv.accRow1 m c R.val = fun q => ∑ k : Fin 8192, A0 m c (ix2 R k) * A2 m c (ix2 q k) := by
  funext q
  refine (Cert.BlockedSum.sum_16_512 (fun k => Inv.a0N m c R.val k * Inv.w1N m c q k)).trans ?_
  refine Finset.sum_congr rfl fun k _ => ?_
  show Inv.a0N m c R.val k.val * Inv.w1N m c q k.val = _
  rw [a0N_at, w1N_at]

theorem accRow2_eq (R : Fin 4096) :
    Inv.accRow2 m c R.val = fun q => ∑ k : Fin 8192, A0 m c (ix2 R k) * A3 m c (ix2 q k) := by
  funext q
  refine (Cert.BlockedSum.sum_16_512 (fun k => Inv.a0N m c R.val k * Inv.w2N m c q k)).trans ?_
  refine Finset.sum_congr rfl fun k _ => ?_
  show Inv.a0N m c R.val k.val * Inv.w2N m c q k.val = _
  rw [a0N_at, w2N_at]

/-- The 16 runs of the count add up to the count of row `R`. -/
theorem cntRow_eq (R : Fin 4096) : Inv.cntRow m c R.val = Spec.count (fun k => A0 m c (ix2 R k)) := by
  refine (Cert.BlockedSum.sum_16_512 (fun k => Spec.ind (Inv.a0N m c R.val k))).trans ?_
  unfold Spec.count
  refine Finset.sum_congr rfl fun k _ => ?_
  show Spec.ind (Inv.a0N m c R.val k.val) = Spec.ind (A0 m c (ix2 R k))
  rw [a0N_at]

/-! ## The template and the first layer -/

theorem mat4_eq : (mat (φ := .f32) (V m c main_arg4 : FVec Ideal S2112x264 .f32)) = fun q n => A4 m c (ix2 q n) := by
  funext q n
  show (V m c main_arg4 : FVec Ideal S2112x264 .f32) (ix2 q n) = _
  rw [V_main_arg4]

theorem mat5_eq : (mat (φ := .f32) (V m c main_arg5 : FVec Ideal S264x264 .f32)) = fun j n => A5 m c (ix2 j n) := by
  funext j n
  show (V m c main_arg5 : FVec Ideal S264x264 .f32) (ix2 j n) = _
  rw [V_main_arg5]

theorem brow9_eq : (brow (V m c main_v9 : FVec Ideal S1x264 .f32)) = fun j => A6 m c (ix1 j) :=
  funext fun j => HostAt.V_v9_at m c 0 j

/-- The first layer's row of batch row `R`, as the kernel forms it. -/
def inner (R : Fin 4096) : Fin 264 → EReal :=
  Spec.dense (mat (φ := .f32) (V m c main_arg5 : FVec Ideal S264x264 .f32)) (brow (V m c main_v9 : FVec Ideal S1x264 .f32))
    (Spec.m5 (mat (φ := .f32) (V m c main_arg4 : FVec Ideal S2112x264 .f32))
      (Spec.feat (Inv.accRow1 m c R.val) (Inv.accRow2 m c R.val) (Inv.cntRow m c R.val)))

/-- It is the specification's. -/
theorem inner_eq (R : Fin 4096) :
    inner m c R = Spec.dense (fun j n => A5 m c (ix2 j n)) (fun j => A6 m c (ix1 j))
      (Spec.m5 (fun q n => A4 m c (ix2 q n))
        (Spec.feat (fun q => ∑ k : Fin 8192, A0 m c (ix2 R k) * A2 m c (ix2 q k))
          (fun q => ∑ k : Fin 8192, A0 m c (ix2 R k) * A3 m c (ix2 q k)) (Spec.count (fun k => A0 m c (ix2 R k))))) := by
  unfold inner
  rw [accRow1_eq, accRow2_eq, cntRow_eq, mat4_eq, mat5_eq, brow9_eq]

/-! ## The whole -/

/-- The kernel's result at `(R, j)`, `j < 88`, is the specification's. -/
theorem Kout_eq_G (m : (ℓ : Loc nD τ sig) → Buf (Elt Ideal) ℓ) (c : Dev nD) (R : Fin 4096) (j : Fin 88) :
    Cert.KernelIdeal.Inv.Kout m c (ix2 R ⟨j.val, by have := j.isLt; omega⟩)
      = Cert.Spec.G (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (ix2 R j) := by
  rw [Spec.G_apply]
  show Spec.last (mat (φ := .f32) (V m c main_v6 : FVec Ideal S128x128 .f32)) (brow (V m c main_v8 : FVec Ideal S1x128 .f32))
      (Spec.dense (mat (φ := .f32) (V m c main_v3 : FVec Ideal S128x264 .f32)) (brow (V m c main_v5 : FVec Ideal S1x128 .f32)) (inner m c R)) ⟨j.val, by have := j.isLt; omega⟩ = _
  refine (Cert.PadTail.last_pad (mat (φ := .f32) (V m c main_v6 : FVec Ideal S128x128 .f32)) (brow (V m c main_v8 : FVec Ideal S1x128 .f32))
    (fun j n => A9 m c (ix2 j n)) (fun j => A10 m c (ix1 j))
    (fun j n => HostAt.V_v6_in m c j n) (fun j n => HostAt.V_v6_out m c j n) (fun j => HostAt.V_v8_in m c 0 j)
    (Spec.dense (mat (φ := .f32) (V m c main_v3 : FVec Ideal S128x264 .f32)) (brow (V m c main_v5 : FVec Ideal S1x128 .f32)) (inner m c R))
    (Spec.dense (fun j n => A7 m c (ix2 j n)) (fun j => A8 m c (ix1 j)) (inner m c R))
    (fun n => Cert.PadTail.dense_pad (mat (φ := .f32) (V m c main_v3 : FVec Ideal S128x264 .f32)) (brow (V m c main_v5 : FVec Ideal S1x128 .f32))
      (fun j n => A7 m c (ix2 j n)) (fun j => A8 m c (ix1 j))
      (fun j n => HostAt.V_v3_in m c j n) (fun j => HostAt.V_v5_in m c 0 j) (inner m c R) n) j).trans ?_
  rw [inner_eq]
  rfl

end Cert.KernelIdeal.Bridge

end
-- ==== Proof.KRun.lean ====
/-
  The kernel's run, read: its result is the specification's function of the arguments.

  After the kernel the host keeps columns `0 … 87` of the `[4096, 128]` result; on those columns the result is the
  specification's `G` of the argument arrays (the padded columns of the last two layers drop out, and 16 steps of 512
  columns are all 8192 columns).
-/
import proofs.«178659_j38689065402872_2_alg».proof.Proof.KFinal
import proofs.«178659_j38689065402872_2_alg».proof.Proof.KBridge

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Inv

variable (m : (ℓ : Loc nD τ sig) → Buf (Elt Ideal) ℓ) (ρ : Dev nD → PrngReg)

/-- After the kernel the host's one operation cuts the result to its first 88 columns. -/
theorem tail_eq (c : Dev nD) :
    Pipeline.afterTail₀ cfgs (dats m) 0 (V0 m) [hostOps1] c main_v11
      = extractStridedSlice S4096x88 ![0, 0] (Kout m c) slices_S4096x128_S4096x88_0_0 := by
  unfold Pipeline.afterTail₀
  show StableHlo.after hostOps1 _ (Proc.devRef .tc main_v11) = _
  after_results
  exact congrArg (fun A => extractStridedSlice S4096x88 ![0, 0] A slices_S4096x128_S4096x88_0_0)
    ((Pipeline.withArrays_arr spec0 launch0.win.arr_inj c (V0 m c) (fun w => (dats m 0 c).arrAt w cfg0.N) 11).trans (final m c))

/-- On the kept columns the kernel's result is the specification. -/
theorem slice_Kout (c : Dev nD) :
    extractStridedSlice S4096x88 ![0, 0] (Kout m c) slices_S4096x128_S4096x88_0_0 = Cert.Spec.G (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨R, j, rfl⟩ : ∃ (R : Fin 4096) (j : Fin 88), i = ix2 R j := ⟨i 0, i 1, eq_ix2 i⟩
  refine (slice2_axis1_apply 0 (Kout m c) slices_S4096x128_S4096x88_0_0 R j ⟨j.val, by have := j.isLt; omega⟩
    (Nat.zero_add _).symm).trans ?_
  exact Cert.KernelIdeal.Bridge.Kout_eq_G m c R j

/-- Every weakly fair execution of the idealized kernel's program ends with the result at the specification's function of
    the arguments, and the arguments unchanged. -/
theorem krun : θ_run defs (onTc (τ := τ) (main (F := Ideal))) ⟨m, fun _ => 0, ρ⟩ (fun r => ∀ c : Dev nD,
      r.2.mem ((c.tc : Thread nD τ).loc main_v11) = Cert.Spec.G (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(((h c).2 main_v11 (Pipeline.mem_restRefs_of main_v11 (by decide) (by decide))).trans (tail_eq m c)).trans (slice_Kout m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.Final

end
-- ==== Proof.CountBits.lean ====
/-
  Counting with 32-bit words. A row of 8192 words, each 0 or 1, summed in 32-bit arithmetic, never wraps:
  the sum read as a signed integer is the number of ones, and so is the sum plus one.
-/
import Mathlib

namespace Cert.CountBits

open scoped BigOperators

variable {n : ℕ}

/-- A one-bit word widened with zeros to 32 bits keeps its value. -/
theorem toNat_setWidth_bit (x : BitVec 1) : (x.setWidth 32).toNat = x.toNat := by
  rw [BitVec.toNat_setWidth]
  exact Nat.mod_eq_of_lt (lt_of_lt_of_le x.isLt (by norm_num))

/-- A one-bit word is 0 or 1. -/
theorem toNat_bit_le_one (x : BitVec 1) : x.toNat ≤ 1 := by
  have := x.isLt
  omega

/-- The widened bit read as a signed integer is the bit: 0 and 1 are far below 2^31. -/
theorem toInt_setWidth_bit (x : BitVec 1) : (x.setWidth 32).toInt = (x.toNat : ℤ) := by
  have h := toNat_bit_le_one x
  rw [BitVec.toInt_eq_toNat_cond, toNat_setWidth_bit]
  split
  · rfl
  · omega

/-- The number of ones among `n` bits is at most `n`. -/
theorem sum_toNat_le (b : Fin n → BitVec 1) : ∑ k, (b k).toNat ≤ n := by
  calc ∑ k, (b k).toNat ≤ ∑ _k : Fin n, 1 := Finset.sum_le_sum (fun k _ => toNat_bit_le_one (b k))
    _ = n := by simp

/-- The 32-bit sum of the widened bits over a set of positions is the word of the number of ones among them
    (whatever the order of the terms: the operation is addition, commutative and associative). -/
theorem fold_eq_ofNat (op : BitVec 32 → BitVec 32 → BitVec 32) [Std.Commutative op] [Std.Associative op]
    (hop : ∀ x y, op x y = x + y) (b : Fin n → BitVec 1) (s : Finset (Fin n)) :
    s.fold op 0#32 (fun k => (b k).setWidth 32) = BitVec.ofNat 32 (∑ k ∈ s, (b k).toNat) := by
  classical
  induction s using Finset.induction_on with
  | empty => simp
  | insert a s ha ih =>
    rw [Finset.fold_insert ha, ih, Finset.sum_insert ha, hop]
    apply BitVec.eq_of_toNat_eq
    simp [BitVec.toNat_add, toNat_setWidth_bit]

/-- No wrap-around: for fewer than `2^31 - 1` bits, the 32-bit sum of the widened bits, plus one, read as a signed
    integer, is the sum of the bits (each read as a signed integer) plus one. -/
theorem fold_add_one_toInt (hn : n + 1 < 2 ^ 31) (op : BitVec 32 → BitVec 32 → BitVec 32) [Std.Commutative op]
    [Std.Associative op] (hop : ∀ x y, op x y = x + y) (b : Fin n → BitVec 1) :
    (op ((Finset.univ : Finset (Fin n)).fold op 0#32 (fun k => (b k).setWidth 32)) 1#32).toInt
      = (∑ k, ((b k).setWidth 32).toInt) + 1 := by
  rw [fold_eq_ofNat op hop, hop]
  simp_rw [toInt_setWidth_bit]
  rw [← Nat.cast_sum]
  have hm := sum_toNat_le b
  generalize ∑ k, (b k).toNat = m at hm ⊢
  rw [BitVec.toInt_eq_toNat_cond, BitVec.toNat_add, BitVec.toNat_ofNat]
  have e : (m % 2 ^ 32 + (1#32 : BitVec 32).toNat) % 2 ^ 32 = m + 1 := by
    simp only [BitVec.toNat_ofNat]
    omega
  rw [e]
  split
  · push_cast; rfl
  · omega

end Cert.CountBits
-- ==== Proof.RefCount.lean ====
/-
  The reference's count of a batch row. The reference compares each of the row's 8192 entries with zero, widens the
  comparison's bit to a 32-bit word, sums the words in 32-bit arithmetic, adds the word one and converts the result to a
  float. The words are 0 or 1 and there are 8192 of them, so the 32-bit sum never wraps: read as a signed integer it is the
  number of nonzero entries, and the float is the sum of the indicators plus one.
-/
import proofs.«178659_j38689065402872_2_alg».proof.Proof.Spec
import proofs.«178659_j38689065402872_2_alg».proof.Proof.RefReadP
import proofs.«178659_j38689065402872_2_alg».proof.Proof.CountBits
import Idealize.ShloMosaic.PureOps.Reduce
import Idealize.ShloMosaic.PureOps.Ideal.Laws
import Idealize.ShloMosaic.Lib.ValueIdx

noncomputable section

namespace Cert.RefCount

open Idealize.ShloMosaic Idealize.ShloMosaic.ValueIdx Cert.ReferenceIdeal Cert.ReferenceIdeal.Gen Cert.ReferenceIdeal.ReadP
open scoped BigOperators

/-- The [4096, 8192] shape with its second axis removed is the [4096] shape. -/
theorem reduces_cols : S4096x8192.Reduces [1] S4096 := by decide

/-- Row `R` with the column `k` put back on the removed axis is the entry `(R, k)`. -/
theorem lift_ix1 (R : Fin 4096) (k : Fin 8192) : reduces_cols.lift (ix1 R) k = ix2 R k := by
  funext c
  match c with
  | ⟨0, _⟩ => rfl
  | ⟨1, _⟩ => rfl

/-- The inclusion of the reals in the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The word `0x3F800000` is the float one. -/
theorem lit_one : Cert.Spec.lit 0x3F800000#32 = 1 := by
  simp [Ideal.ofBits, Ideal.ieee, -EReal.coe_mul]; norm_num

/-- The reference's count of a row, plus one, as a float: the 32-bit sum of the comparison bits does not wrap, so it is
    the sum of the indicators plus one. -/
theorem ref_count (x0 : (⟨S4096x8192, .f32⟩ : BufTy).Contents (Elt Ideal)) (R : Fin 4096) :
    val_main_v3 (F := Ideal) x0 (ix1 R)
      = Cert.Spec.count (fun k => x0 (ix2 R k)) + Cert.Spec.lit 0x3F800000#32 := by
  rw [val_main_v3_apply, val_main_v2_apply, val_main_v1_apply, val_main_c_apply]
  unfold val_main_v0
  rw [Host.reduce_eq_fold_single IntOp.addi _ _ reducesTo_S4096x8192_S4096_d1 reduces_cols h_S_ (ix1 R)]
  rw [val_main_call0_c_apply]
  have hf : (val_main_call0_v2 (F := Ideal) x0 ∘ reduces_cols.lift (ix1 R))
      = fun k : Fin 8192 => (Ideal.cmp .one (x0 (ix2 R k)) (Cert.Spec.lit 0x00000000#32)).setWidth 32 := by
    funext k
    simp only [Function.comp, val_main_call0_v2_apply, val_main_call0_v1_apply, val_main_call0_v0_apply,
      val_main_call0_cst_apply]
    rw [lift_ix1 R k]
    rfl
  rw [hf]
  have hc := Cert.CountBits.fold_add_one_toInt (n := 8192) (by norm_num) IntOp.addi (fun _ _ => rfl)
    (fun k : Fin 8192 => Ideal.cmp .one (x0 (ix2 R k)) (Cert.Spec.lit 0x00000000#32))
  refine Eq.trans (congrArg (fun z : ℤ => ((z : ℝ) : EReal)) hc) ?_
  rw [lit_one]
  unfold Cert.Spec.count Cert.Spec.ind
  rw [Int.cast_add, Int.cast_sum, Int.cast_one, EReal.coe_add, coe_sum, EReal.coe_one]

end Cert.RefCount

end
-- ==== Proof.RefIsSpec1.lean ====
/-
  The reference read one batch row at a time, part 1: the feature row and the first threshold.

  For a batch row `R`, every stage of the reference up to the first relu is read at `(R, c)` or `(R, n)` and identified
  with the specification's row functions: the two products with the weight rows (`prodRow`), the scale `8192 / (cnt + 1)`
  (the count plus one as a float is a hypothesis here: it is the one stage that is a fold of integers), the feature
  row `feat`, its negation `xi0`, and `m1 = relu(-10 · (xi0 T))`. A product of matrices is read as the sum over the
  contracted coordinate; a transposed operand is read with its two coordinates exchanged; a scalar repeated over a
  shape reads the scalar.
-/
import proofs.«178659_j38689065402872_2_alg».proof.Proof.Spec
import proofs.«178659_j38689065402872_2_alg».proof.Proof.RefReadP
import Idealize.ShloMosaic.PureOps.Ideal
import Idealize.ShloMosaic.Lib.ValueIdx

noncomputable section

namespace Cert.RefIsSpec

open Idealize.ShloMosaic Idealize.ShloMosaic.ValueIdx Cert.ReferenceIdeal Cert.ReferenceIdeal.ReadP
open scoped BigOperators

section
variable (x0 : (⟨S4096x8192, .f32⟩ : BufTy).Contents (Elt Ideal)) (x2 x3 : (⟨S2112x8192, .f32⟩ : BufTy).Contents (Elt Ideal))
  (x4 : (⟨S2112x264, .f32⟩ : BufTy).Contents (Elt Ideal))

/-- Row `R` of the input against the rows of a weight matrix: `c ↦ ∑ k, x0[R, k] · w[c, k]`. -/
def prodRow (w : (⟨S2112x8192, .f32⟩ : BufTy).Contents (Elt Ideal)) (R : Fin 4096) : Fin 2112 → EReal :=
  fun c => ∑ k : Fin 8192, x0 (ix2 R k) * w (ix2 c k)

/-- The number of nonzero entries of row `R`. -/
def cntRow (R : Fin 4096) : EReal := Spec.count (fun k => x0 (ix2 R k))

/-- The feature row of batch row `R`. -/
def featRow (R : Fin 4096) : Fin 2112 → EReal :=
  Spec.feat (prodRow x0 x2 R) (prodRow x0 x3 R) (cntRow x0 R)

/-- The template as a function of its two coordinates. -/
def tmpl : Fin 2112 → Fin 264 → EReal := fun c n => x4 (ix2 c n)

/-- The product of the input with the transposed first weight matrix, at `(R, c)`. -/
theorem v8_at (R : Fin 4096) (c : Fin 2112) :
    val_main_v8 (F := Ideal) x0 x2 (ix2 R c) = prodRow x0 x2 R c := by
  rw [val_main_v8_apply]
  refine Finset.sum_congr rfl fun k _ => ?_
  have e1 : lidx_main_v8 (ix2 R c) k = ix2 R k := funext fun a => Fin.ext (by match a with | ⟨0, _⟩ => rfl | ⟨1, _⟩ => rfl)
  have e2 : idx_main_v7 (ridx_main_v8 (ix2 R c) k) = ix2 c k := funext fun a => Fin.ext (by match a with | ⟨0, _⟩ => rfl | ⟨1, _⟩ => rfl)
  rw [val_main_v7_apply, e1, e2]

/-- The product of the input with the transposed second weight matrix, at `(R, c)`. -/
theorem v12_at (R : Fin 4096) (c : Fin 2112) :
    val_main_v12 (F := Ideal) x0 x3 (ix2 R c) = prodRow x0 x3 R c := by
  rw [val_main_v12_apply]
  refine Finset.sum_congr rfl fun k _ => ?_
  have e1 : lidx_main_v12 (ix2 R c) k = ix2 R k := funext fun a => Fin.ext (by match a with | ⟨0, _⟩ => rfl | ⟨1, _⟩ => rfl)
  have e2 : idx_main_v11 (ridx_main_v12 (ix2 R c) k) = ix2 c k := funext fun a => Fin.ext (by match a with | ⟨0, _⟩ => rfl | ⟨1, _⟩ => rfl)
  rw [val_main_v11_apply, e1, e2]

variable (hcnt : ∀ R : Fin 4096, val_main_v3 (F := Ideal) x0 (ix1 R)
    = Spec.count (fun k => x0 (ix2 R k)) + Spec.lit 0x3F800000#32)
include hcnt

/-- The scale column at row `R`: `8192 / (cnt + 1)`. -/
theorem v6_at (R : Fin 4096) :
    val_main_v6 (F := Ideal) x0 (ix2 R (0 : Fin 1)) = Spec.scale (cntRow x0 R) := by
  have e : idx_main_v4 (ix2 R (0 : Fin 1)) = ix1 R := funext fun a => Fin.ext (by match a with | ⟨0, _⟩ => rfl)
  rw [val_main_v6_apply, val_main_v5_apply, val_main_cst_apply, val_main_v4_apply, e, hcnt R]
  rfl

/-- The scale column repeated along the rows, at `(R, c)`. -/
theorem v9_at (R : Fin 4096) (c : Fin 2112) :
    val_main_v9 (F := Ideal) x0 (ix2 R c) = Spec.scale (cntRow x0 R) := by
  have e : idx_main_v9 (ix2 R c) = ix2 R (0 : Fin 1) := funext fun a => Fin.ext (by match a with | ⟨0, _⟩ => rfl | ⟨1, _⟩ => rfl)
  rw [val_main_v9_apply, e, v6_at x0 hcnt R]

theorem v13_at (R : Fin 4096) (c : Fin 2112) :
    val_main_v13 (F := Ideal) x0 (ix2 R c) = Spec.scale (cntRow x0 R) := by
  have e : idx_main_v13 (ix2 R c) = ix2 R (0 : Fin 1) := funext fun a => Fin.ext (by match a with | ⟨0, _⟩ => rfl | ⟨1, _⟩ => rfl)
  rw [val_main_v13_apply, e, v6_at x0 hcnt R]

/-- The feature array at `(R, c)` is the feature row of `R`. -/
theorem v17_at (R : Fin 4096) (c : Fin 2112) :
    val_main_v17 (F := Ideal) x0 x2 x3 (ix2 R c) = featRow x0 x2 x3 R c := by
  rw [val_main_v17_apply, val_main_v15_apply, val_main_v16_apply, val_main_v10_apply, val_main_v14_apply,
    v8_at, v12_at, v9_at x0 hcnt, v13_at x0 hcnt]
  rfl

/-- Its negation is the first `ξ`. -/
theorem v18_at (R : Fin 4096) (c : Fin 2112) :
    val_main_v18 (F := Ideal) x0 x2 x3 (ix2 R c) = Spec.xi0 (featRow x0 x2 x3 R) c := by
  rw [val_main_v18_apply, v17_at x0 x2 x3 hcnt]
  rfl

/-- The first threshold: `relu(-10 · (ξ₀ T))` at `(R, n)`. -/
theorem v22_at (R : Fin 4096) (n : Fin 264) :
    val_main_v22 (F := Ideal) x0 x2 x3 x4 (ix2 R n) = Spec.m1 (tmpl x4) (featRow x0 x2 x3 R) n := by
  have hs : ∑ k : Fin 2112, val_main_v18 (F := Ideal) x0 x2 x3 (lidx_main_v19 (ix2 R n) k) * x4 (ridx_main_v19 (ix2 R n) k)
      = ∑ c : Fin 2112, (-(featRow x0 x2 x3 R c)) * tmpl x4 c n := by
    refine Finset.sum_congr rfl fun k _ => ?_
    have e1 : lidx_main_v19 (ix2 R n) k = ix2 R k := funext fun a => Fin.ext (by match a with | ⟨0, _⟩ => rfl | ⟨1, _⟩ => rfl)
    have e2 : ridx_main_v19 (ix2 R n) k = ix2 k n := funext fun a => Fin.ext (by match a with | ⟨0, _⟩ => rfl | ⟨1, _⟩ => rfl)
    rw [e1, e2, v18_at x0 x2 x3 hcnt]
    rfl
  rw [val_main_v22_apply, val_main_v21_apply, val_main_v20_apply, val_main_cst_0_apply, val_main_call1_v0_apply,
    val_main_call1_cst_apply, val_main_v19_apply, hs]
  rfl

end

end Cert.RefIsSpec

end
-- ==== Proof.RefIsSpec2.lean ====
/-
  The reference read one batch row at a time, part 2: the four rounds.

  Each round reads two products of matrices as sums over the contracted coordinate (the first against the transposed
  template, so the template is read with its coordinates exchanged) and is, literal for literal, the specification's
  `xiStep` followed by `mStep`.
-/
import proofs.«178659_j38689065402872_2_alg».proof.Proof.RefIsSpec1

noncomputable section

namespace Cert.RefIsSpec

open Idealize.ShloMosaic Idealize.ShloMosaic.ValueIdx Cert.ReferenceIdeal Cert.ReferenceIdeal.ReadP
open scoped BigOperators

section
variable (x0 : (⟨S4096x8192, .f32⟩ : BufTy).Contents (Elt Ideal)) (x2 x3 : (⟨S2112x8192, .f32⟩ : BufTy).Contents (Elt Ideal))
  (x4 : (⟨S2112x264, .f32⟩ : BufTy).Contents (Elt Ideal))
  (hcnt : ∀ R : Fin 4096, val_main_v3 (F := Ideal) x0 (ix1 R)
    = Spec.count (fun k => x0 (ix2 R k)) + Spec.lit 0x3F800000#32)
include hcnt

/-- Round 1: `ξ1 = 1.6 · (m1 Tᵀ - f) + 0.2 · ξ0` at `(R, c)`. -/
theorem v30_at (R : Fin 4096) (c : Fin 2112) :
    val_main_v30 (F := Ideal) x0 x2 x3 x4 (ix2 R c) = Spec.xi1 (tmpl x4) (featRow x0 x2 x3 R) c := by
  have hs : ∑ k : Fin 264, val_main_v22 (F := Ideal) x0 x2 x3 x4 (lidx_main_v24 (ix2 R c) k)
        * val_main_v23 (F := Ideal) x4 (ridx_main_v24 (ix2 R c) k)
      = ∑ n : Fin 264, Spec.m1 (tmpl x4) (featRow x0 x2 x3 R) n * tmpl x4 c n := by
    refine Finset.sum_congr rfl fun k _ => ?_
    have e1 : lidx_main_v24 (ix2 R c) k = ix2 R k := funext fun a => Fin.ext (by match a with | ⟨0, _⟩ => rfl | ⟨1, _⟩ => rfl)
    have e2 : idx_main_v23 (ridx_main_v24 (ix2 R c) k) = ix2 c k := funext fun a => Fin.ext (by match a with | ⟨0, _⟩ => rfl | ⟨1, _⟩ => rfl)
    rw [val_main_v23_apply, e1, e2, v22_at x0 x2 x3 x4 hcnt]
    rfl
  rw [val_main_v30_apply, val_main_v27_apply, val_main_v29_apply, val_main_v26_apply,
    val_main_cst_1_apply, val_main_v28_apply, val_main_cst_2_apply, val_main_v25_apply,
    val_main_v24_apply, hs, v17_at x0 x2 x3 hcnt, v18_at x0 x2 x3 hcnt]
  rfl

/-- Round 1: `m2 = relu(-8 · (ξ1 T) + 0.2 · m1)` at `(R, n)`. -/
theorem v37_at (R : Fin 4096) (n : Fin 264) :
    val_main_v37 (F := Ideal) x0 x2 x3 x4 (ix2 R n) = Spec.m2 (tmpl x4) (featRow x0 x2 x3 R) n := by
  have hs : ∑ k : Fin 2112, val_main_v30 (F := Ideal) x0 x2 x3 x4 (lidx_main_v31 (ix2 R n) k)
        * x4 (ridx_main_v31 (ix2 R n) k)
      = ∑ c : Fin 2112, Spec.xi1 (tmpl x4) (featRow x0 x2 x3 R) c * tmpl x4 c n := by
    refine Finset.sum_congr rfl fun k _ => ?_
    have e1 : lidx_main_v31 (ix2 R n) k = ix2 R k := funext fun a => Fin.ext (by match a with | ⟨0, _⟩ => rfl | ⟨1, _⟩ => rfl)
    have e2 : ridx_main_v31 (ix2 R n) k = ix2 k n := funext fun a => Fin.ext (by match a with | ⟨0, _⟩ => rfl | ⟨1, _⟩ => rfl)
    rw [e1, e2, v30_at x0 x2 x3 x4 hcnt]
    rfl
  rw [val_main_v37_apply, val_main_v36_apply, val_main_v33_apply, val_main_v35_apply,
    val_main_v32_apply, val_main_cst_3_apply, val_main_v34_apply, val_main_cst_4_apply,
    val_main_call2_v0_apply, val_main_call2_cst_apply, val_main_v31_apply, hs, v22_at x0 x2 x3 x4 hcnt]
  rfl

/-- Round 2: `ξ2 = 1.6 · (m2 Tᵀ - f) + 0.2 · ξ1` at `(R, c)`. -/
theorem v45_at (R : Fin 4096) (c : Fin 2112) :
    val_main_v45 (F := Ideal) x0 x2 x3 x4 (ix2 R c) = Spec.xi2 (tmpl x4) (featRow x0 x2 x3 R) c := by
  have hs : ∑ k : Fin 264, val_main_v37 (F := Ideal) x0 x2 x3 x4 (lidx_main_v39 (ix2 R c) k)
        * val_main_v38 (F := Ideal) x4 (ridx_main_v39 (ix2 R c) k)
      = ∑ n : Fin 264, Spec.m2 (tmpl x4) (featRow x0 x2 x3 R) n * tmpl x4 c n := by
    refine Finset.sum_congr rfl fun k _ => ?_
    have e1 : lidx_main_v39 (ix2 R c) k = ix2 R k := funext fun a => Fin.ext (by match a with | ⟨0, _⟩ => rfl | ⟨1, _⟩ => rfl)
    have e2 : idx_main_v38 (ridx_main_v39 (ix2 R c) k) = ix2 c k := funext fun a => Fin.ext (by match a with | ⟨0, _⟩ => rfl | ⟨1, _⟩ => rfl)
    rw [val_main_v38_apply, e1, e2, v37_at x0 x2 x3 x4 hcnt]
    rfl
  rw [val_main_v45_apply, val_main_v42_apply, val_main_v44_apply, val_main_v41_apply,
    val_main_cst_5_apply, val_main_v43_apply, val_main_cst_6_apply, val_main_v40_apply,
    val_main_v39_apply, hs, v17_at x0 x2 x3 hcnt, v30_at x0 x2 x3 x4 hcnt]
  rfl

/-- Round 2: `m3 = relu(-8 · (ξ2 T) + 0.2 · m2)` at `(R, n)`. -/
theorem v52_at (R : Fin 4096) (n : Fin 264) :
    val_main_v52 (F := Ideal) x0 x2 x3 x4 (ix2 R n) = Spec.m3 (tmpl x4) (featRow x0 x2 x3 R) n := by
  have hs : ∑ k : Fin 2112, val_main_v45 (F := Ideal) x0 x2 x3 x4 (lidx_main_v46 (ix2 R n) k)
        * x4 (ridx_main_v46 (ix2 R n) k)
      = ∑ c : Fin 2112, Spec.xi2 (tmpl x4) (featRow x0 x2 x3 R) c * tmpl x4 c n := by
    refine Finset.sum_congr rfl fun k _ => ?_
    have e1 : lidx_main_v46 (ix2 R n) k = ix2 R k := funext fun a => Fin.ext (by match a with | ⟨0, _⟩ => rfl | ⟨1, _⟩ => rfl)
    have e2 : ridx_main_v46 (ix2 R n) k = ix2 k n := funext fun a => Fin.ext (by match a with | ⟨0, _⟩ => rfl | ⟨1, _⟩ => rfl)
    rw [e1, e2, v45_at x0 x2 x3 x4 hcnt]
    rfl
  rw [val_main_v52_apply, val_main_v51_apply, val_main_v48_apply, val_main_v50_apply,
    val_main_v47_apply, val_main_cst_7_apply, val_main_v49_apply, val_main_cst_8_apply,
    val_main_call3_v0_apply, val_main_call3_cst_apply, val_main_v46_apply, hs, v37_at x0 x2 x3 x4 hcnt]
  rfl

/-- Round 3: `ξ3 = 1.6 · (m3 Tᵀ - f) + 0.2 · ξ2` at `(R, c)`. -/
theorem v60_at (R : Fin 4096) (c : Fin 2112) :
    val_main_v60 (F := Ideal) x0 x2 x3 x4 (ix2 R c) = Spec.xi3 (tmpl x4) (featRow x0 x2 x3 R) c := by
  have hs : ∑ k : Fin 264, val_main_v52 (F := Ideal) x0 x2 x3 x4 (lidx_main_v54 (ix2 R c) k)
        * val_main_v53 (F := Ideal) x4 (ridx_main_v54 (ix2 R c) k)
      = ∑ n : Fin 264, Spec.m3 (tmpl x4) (featRow x0 x2 x3 R) n * tmpl x4 c n := by
    refine Finset.sum_congr rfl fun k _ => ?_
    have e1 : lidx_main_v54 (ix2 R c) k = ix2 R k := funext fun a => Fin.ext (by match a with | ⟨0, _⟩ => rfl | ⟨1, _⟩ => rfl)
    have e2 : idx_main_v53 (ridx_main_v54 (ix2 R c) k) = ix2 c k := funext fun a => Fin.ext (by match a with | ⟨0, _⟩ => rfl | ⟨1, _⟩ => rfl)
    rw [val_main_v53_apply, e1, e2, v52_at x0 x2 x3 x4 hcnt]
    rfl
  rw [val_main_v60_apply, val_main_v57_apply, val_main_v59_apply, val_main_v56_apply,
    val_main_cst_9_apply, val_main_v58_apply, val_main_cst_10_apply, val_main_v55_apply,
    val_main_v54_apply, hs, v17_at x0 x2 x3 hcnt, v45_at x0 x2 x3 x4 hcnt]
  rfl

/-- Round 3: `m4 = relu(-8 · (ξ3 T) + 0.2 · m3)` at `(R, n)`. -/
theorem v67_at (R : Fin 4096) (n : Fin 264) :
    val_main_v67 (F := Ideal) x0 x2 x3 x4 (ix2 R n) = Spec.m4 (tmpl x4) (featRow x0 x2 x3 R) n := by
  have hs : ∑ k : Fin 2112, val_main_v60 (F := Ideal) x0 x2 x3 x4 (lidx_main_v61 (ix2 R n) k)
        * x4 (ridx_main_v61 (ix2 R n) k)
      = ∑ c : Fin 2112, Spec.xi3 (tmpl x4) (featRow x0 x2 x3 R) c * tmpl x4 c n := by
    refine Finset.sum_congr rfl fun k _ => ?_
    have e1 : lidx_main_v61 (ix2 R n) k = ix2 R k := funext fun a => Fin.ext (by match a with | ⟨0, _⟩ => rfl | ⟨1, _⟩ => rfl)
    have e2 : ridx_main_v61 (ix2 R n) k = ix2 k n := funext fun a => Fin.ext (by match a with | ⟨0, _⟩ => rfl | ⟨1, _⟩ => rfl)
    rw [e1, e2, v60_at x0 x2 x3 x4 hcnt]
    rfl
  rw [val_main_v67_apply, val_main_v66_apply, val_main_v63_apply, val_main_v65_apply,
    val_main_v62_apply, val_main_cst_11_apply, val_main_v64_apply, val_main_cst_12_apply,
    val_main_call4_v0_apply, val_main_call4_cst_apply, val_main_v61_apply, hs, v52_at x0 x2 x3 x4 hcnt]
  rfl

/-- Round 4: `ξ4 = 1.6 · (m4 Tᵀ - f) + 0.2 · ξ3` at `(R, c)`. -/
theorem v75_at (R : Fin 4096) (c : Fin 2112) :
    val_main_v75 (F := Ideal) x0 x2 x3 x4 (ix2 R c) = Spec.xi4 (tmpl x4) (featRow x0 x2 x3 R) c := by
  have hs : ∑ k : Fin 264, val_main_v67 (F := Ideal) x0 x2 x3 x4 (lidx_main_v69 (ix2 R c) k)
        * val_main_v68 (F := Ideal) x4 (ridx_main_v69 (ix2 R c) k)
      = ∑ n : Fin 264, Spec.m4 (tmpl x4) (featRow x0 x2 x3 R) n * tmpl x4 c n := by
    refine Finset.sum_congr rfl fun k _ => ?_
    have e1 : lidx_main_v69 (ix2 R c) k = ix2 R k := funext fun a => Fin.ext (by match a with | ⟨0, _⟩ => rfl | ⟨1, _⟩ => rfl)
    have e2 : idx_main_v68 (ridx_main_v69 (ix2 R c) k) = ix2 c k := funext fun a => Fin.ext (by match a with | ⟨0, _⟩ => rfl | ⟨1, _⟩ => rfl)
    rw [val_main_v68_apply, e1, e2, v67_at x0 x2 x3 x4 hcnt]
    rfl
  rw [val_main_v75_apply, val_main_v72_apply, val_main_v74_apply, val_main_v71_apply,
    val_main_cst_13_apply, val_main_v73_apply, val_main_cst_14_apply, val_main_v70_apply,
    val_main_v69_apply, hs, v17_at x0 x2 x3 hcnt, v60_at x0 x2 x3 x4 hcnt]
  rfl

/-- Round 4: `m5 = relu(-8 · (ξ4 T) + 0.2 · m4)` at `(R, n)`. -/
theorem v82_at (R : Fin 4096) (n : Fin 264) :
    val_main_v82 (F := Ideal) x0 x2 x3 x4 (ix2 R n) = Spec.m5 (tmpl x4) (featRow x0 x2 x3 R) n := by
  have hs : ∑ k : Fin 2112, val_main_v75 (F := Ideal) x0 x2 x3 x4 (lidx_main_v76 (ix2 R n) k)
        * x4 (ridx_main_v76 (ix2 R n) k)
      = ∑ c : Fin 2112, Spec.xi4 (tmpl x4) (featRow x0 x2 x3 R) c * tmpl x4 c n := by
    refine Finset.sum_congr rfl fun k _ => ?_
    have e1 : lidx_main_v76 (ix2 R n) k = ix2 R k := funext fun a => Fin.ext (by match a with | ⟨0, _⟩ => rfl | ⟨1, _⟩ => rfl)
    have e2 : ridx_main_v76 (ix2 R n) k = ix2 k n := funext fun a => Fin.ext (by match a with | ⟨0, _⟩ => rfl | ⟨1, _⟩ => rfl)
    rw [e1, e2, v75_at x0 x2 x3 x4 hcnt]
    rfl
  rw [val_main_v82_apply, val_main_v81_apply, val_main_v78_apply, val_main_v80_apply,
    val_main_v77_apply, val_main_cst_15_apply, val_main_v79_apply, val_main_cst_16_apply,
    val_main_call5_v0_apply, val_main_call5_cst_apply, val_main_v76_apply, hs, v67_at x0 x2 x3 x4 hcnt]
  rfl

end

end Cert.RefIsSpec

end
-- ==== Proof.RefIsSpec.lean ====
/-
  The reference read one batch row at a time, part 3: the three dense layers, and the whole.

  A dense layer reads its product against the transposed weight matrix (the matrix with its coordinates exchanged), its bias
  through two repetitions (a vector as one row, the row over all batch rows), and a relu as the maximum with the zero
  literal. The last layer's `1 / (1 + exp(-z))`, with the literal `1` evaluated, is the logistic function of `z`.
  Together with parts 1 and 2 this makes the reference's result at `(R, j)` the specification's.
-/
import proofs.«178659_j38689065402872_2_alg».proof.Proof.RefIsSpec2
import Idealize.ShloMosaic.Lib.IdealHost

noncomputable section

namespace Cert.RefIsSpec

open Idealize.ShloMosaic Idealize.ShloMosaic.ValueIdx Cert.ReferenceIdeal Cert.ReferenceIdeal.ReadP
open scoped BigOperators

/-- The word `0x3F800000` is the extended real one. -/
theorem one_word : Ideal.ofBits .f32 0x3F800000#32 = 1 := Ideal.ofBits_one_f32

section
variable (x0 : (⟨S4096x8192, .f32⟩ : BufTy).Contents (Elt Ideal)) (x2 x3 : (⟨S2112x8192, .f32⟩ : BufTy).Contents (Elt Ideal))
  (x4 : (⟨S2112x264, .f32⟩ : BufTy).Contents (Elt Ideal)) (x5 : (⟨S264x264, .f32⟩ : BufTy).Contents (Elt Ideal))
  (x6 : (⟨S264, .f32⟩ : BufTy).Contents (Elt Ideal)) (x7 : (⟨S88x264, .f32⟩ : BufTy).Contents (Elt Ideal))
  (x8 : (⟨S88, .f32⟩ : BufTy).Contents (Elt Ideal)) (x9 : (⟨S88x88, .f32⟩ : BufTy).Contents (Elt Ideal))
  (x10 : (⟨S88, .f32⟩ : BufTy).Contents (Elt Ideal))

/-- The first dense layer's row for batch row `R`. -/
def h1Row (R : Fin 4096) : Fin 264 → EReal :=
  Spec.dense (fun j n => x5 (ix2 j n)) (fun j => x6 (ix1 j)) (Spec.m5 (tmpl x4) (featRow x0 x2 x3 R))

/-- The second dense layer's row for batch row `R`. -/
def h2Row (R : Fin 4096) : Fin 88 → EReal :=
  Spec.dense (fun j n => x7 (ix2 j n)) (fun j => x8 (ix1 j)) (h1Row x0 x2 x3 x4 x5 x6 R)

variable (hcnt : ∀ R : Fin 4096, val_main_v3 (F := Ideal) x0 (ix1 R)
    = Spec.count (fun k => x0 (ix2 R k)) + Spec.lit 0x3F800000#32)
include hcnt

/-- The first dense layer at `(R, j)`. -/
theorem v88_at (R : Fin 4096) (j : Fin 264) :
    val_main_v88 (F := Ideal) x0 x2 x3 x4 x5 x6 (ix2 R j) = h1Row x0 x2 x3 x4 x5 x6 R j := by
  have hs : ∑ k : Fin 264, val_main_v82 (F := Ideal) x0 x2 x3 x4 (lidx_main_v84 (ix2 R j) k)
        * val_main_v83 (F := Ideal) x5 (ridx_main_v84 (ix2 R j) k)
      = ∑ n : Fin 264, Spec.m5 (tmpl x4) (featRow x0 x2 x3 R) n * x5 (ix2 j n) := by
    refine Finset.sum_congr rfl fun k _ => ?_
    have e1 : lidx_main_v84 (ix2 R j) k = ix2 R k := funext fun a => Fin.ext (by match a with | ⟨0, _⟩ => rfl | ⟨1, _⟩ => rfl)
    have e2 : idx_main_v83 (ridx_main_v84 (ix2 R j) k) = ix2 j k := funext fun a => Fin.ext (by match a with | ⟨0, _⟩ => rfl | ⟨1, _⟩ => rfl)
    rw [val_main_v83_apply, e1, e2, v82_at x0 x2 x3 x4 hcnt]
  have eb : idx_main_v85 (idx_main_v86 (ix2 R j)) = ix1 j := funext fun a => Fin.ext (by match a with | ⟨0, _⟩ => rfl)
  rw [val_main_v88_apply, val_main_v87_apply, val_main_call6_v0_apply, val_main_call6_cst_apply, val_main_v86_apply,
    val_main_v85_apply, eb, val_main_v84_apply, hs]
  rfl

/-- The second dense layer at `(R, j)`. -/
theorem v94_at (R : Fin 4096) (j : Fin 88) :
    val_main_v94 (F := Ideal) x0 x2 x3 x4 x5 x6 x7 x8 (ix2 R j) = h2Row x0 x2 x3 x4 x5 x6 x7 x8 R j := by
  have hs : ∑ k : Fin 264, val_main_v88 (F := Ideal) x0 x2 x3 x4 x5 x6 (lidx_main_v90 (ix2 R j) k)
        * val_main_v89 (F := Ideal) x7 (ridx_main_v90 (ix2 R j) k)
      = ∑ n : Fin 264, h1Row x0 x2 x3 x4 x5 x6 R n * x7 (ix2 j n) := by
    refine Finset.sum_congr rfl fun k _ => ?_
    have e1 : lidx_main_v90 (ix2 R j) k = ix2 R k := funext fun a => Fin.ext (by match a with | ⟨0, _⟩ => rfl | ⟨1, _⟩ => rfl)
    have e2 : idx_main_v89 (ridx_main_v90 (ix2 R j) k) = ix2 j k := funext fun a => Fin.ext (by match a with | ⟨0, _⟩ => rfl | ⟨1, _⟩ => rfl)
    rw [val_main_v89_apply, e1, e2, v88_at x0 x2 x3 x4 x5 x6 hcnt]
  have eb : idx_main_v91 (idx_main_v92 (ix2 R j)) = ix1 j := funext fun a => Fin.ext (by match a with | ⟨0, _⟩ => rfl)
  rw [val_main_v94_apply, val_main_v93_apply, val_main_call7_v0_apply, val_main_call7_cst_apply, val_main_v92_apply,
    val_main_v91_apply, eb, val_main_v90_apply, hs]
  rfl

/-- The last layer at `(R, j)`: `1 / (1 + exp(-z))` is the logistic function of `z`. -/
theorem v105_at (R : Fin 4096) (j : Fin 88) :
    val_main_v105 (F := Ideal) x0 x2 x3 x4 x5 x6 x7 x8 x9 x10 (ix2 R j)
      = Spec.last (fun j n => x9 (ix2 j n)) (fun j => x10 (ix1 j)) (h2Row x0 x2 x3 x4 x5 x6 x7 x8 R) j := by
  have hs : ∑ k : Fin 88, val_main_v94 (F := Ideal) x0 x2 x3 x4 x5 x6 x7 x8 (lidx_main_v96 (ix2 R j) k)
        * val_main_v95 (F := Ideal) x9 (ridx_main_v96 (ix2 R j) k)
      = ∑ n : Fin 88, h2Row x0 x2 x3 x4 x5 x6 x7 x8 R n * x9 (ix2 j n) := by
    refine Finset.sum_congr rfl fun k _ => ?_
    have e1 : lidx_main_v96 (ix2 R j) k = ix2 R k := funext fun a => Fin.ext (by match a with | ⟨0, _⟩ => rfl | ⟨1, _⟩ => rfl)
    have e2 : idx_main_v95 (ridx_main_v96 (ix2 R j) k) = ix2 j k := funext fun a => Fin.ext (by match a with | ⟨0, _⟩ => rfl | ⟨1, _⟩ => rfl)
    rw [val_main_v95_apply, e1, e2, v94_at x0 x2 x3 x4 x5 x6 x7 x8 hcnt]
  have eb : idx_main_v97 (idx_main_v98 (ix2 R j)) = ix1 j := funext fun a => Fin.ext (by match a with | ⟨0, _⟩ => rfl)
  rw [val_main_v105_apply, val_main_v104_apply, val_main_cst_18_apply, val_main_v103_apply, val_main_v102_apply,
    val_main_cst_17_apply, val_main_v101_apply, val_main_v100_apply, val_main_v99_apply, val_main_v98_apply,
    val_main_v97_apply, eb, val_main_v96_apply, hs, Ideal.ofBits_def, one_word]
  rfl

end

/-- The reference's result at `(R, j)` is the specification's, given the count stage. -/
theorem ref_at (x0 : (⟨S4096x8192, .f32⟩ : BufTy).Contents (Elt Ideal)) (x2 x3 : (⟨S2112x8192, .f32⟩ : BufTy).Contents (Elt Ideal))
    (x4 : (⟨S2112x264, .f32⟩ : BufTy).Contents (Elt Ideal)) (x5 : (⟨S264x264, .f32⟩ : BufTy).Contents (Elt Ideal))
    (x6 : (⟨S264, .f32⟩ : BufTy).Contents (Elt Ideal)) (x7 : (⟨S88x264, .f32⟩ : BufTy).Contents (Elt Ideal))
    (x8 : (⟨S88, .f32⟩ : BufTy).Contents (Elt Ideal)) (x9 : (⟨S88x88, .f32⟩ : BufTy).Contents (Elt Ideal))
    (x10 : (⟨S88, .f32⟩ : BufTy).Contents (Elt Ideal))
    (hcnt : ∀ R : Fin 4096, Cert.ReferenceIdeal.ReadP.val_main_v3 (F := Ideal) x0 (ix1 R)
      = Cert.Spec.count (fun k => x0 (ix2 R k)) + Cert.Spec.lit 0x3F800000#32)
    (R : Fin 4096) (j : Fin 88) :
    Cert.ReferenceIdeal.ReadP.val_main_v105 (F := Ideal) x0 x2 x3 x4 x5 x6 x7 x8 x9 x10 (ix2 R j)
      = Cert.Spec.G x0 x2 x3 x4 x5 x6 x7 x8 x9 x10 (ix2 R j) := by
  rw [Spec.G_apply, v105_at x0 x2 x3 x4 x5 x6 x7 x8 x9 x10 hcnt]
  rfl

end Cert.RefIsSpec

end
-- ==== Proof.RefFinal.lean ====
/-
  The reference computes the specification. The composed term of the reference's run, read at every index `(R, j)`, is
  `G` of the argument arrays: the count stage is the sum of the indicators plus one, and the later stages are the
  specification's rounds and layers. So every weakly fair execution of the reference ends with its result buffer holding
  `G` of the arguments, and with the arguments unchanged.
-/
import proofs.«178659_j38689065402872_2_alg».proof.Proof.RefRunQ
import proofs.«178659_j38689065402872_2_alg».proof.Proof.RefReadP
import proofs.«178659_j38689065402872_2_alg».proof.Proof.RefCount
import proofs.«178659_j38689065402872_2_alg».proof.Proof.RefIsSpec

noncomputable section

namespace Cert.RefFinal

open Cert.ReferenceIdeal Cert.ReferenceIdeal.Gen Idealize.ShloMosaic Idealize.ShloMosaic.TcCoe Idealize.SL.Sem
  Idealize.ShloMosaic.StableHlo Idealize.ShloMosaic.ValueIdx

/-- The reference's composed result term is `G` of the argument arrays' launch contents. -/
theorem ref_final (m' : (ℓ : Loc nD τ sig) → Buf (Elt Ideal) ℓ) (c : Dev nD) :
    Cert.ReferenceIdeal.ValueP.res_main_v105 (F := Ideal) m' c
      = Cert.Spec.G (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) := by
  rw [Cert.ReferenceIdeal.ReadP.val_main_v105_eq]
  funext i
  rw [eq_ix2 i]
  exact Cert.RefIsSpec.ref_at _ _ _ _ _ _ _ _ _ _ (fun R => Cert.RefCount.ref_count _ R) (i 0) (i 1)

/-- On every device, from any memory with zero counters: every weakly fair execution of the reference terminates with its
    result buffer holding `G` of the arguments and the arguments unchanged. -/
theorem ref_run (m' : (ℓ : Loc nD τ sig) → Buf (Elt Ideal) ℓ) (ρ' : Dev nD → PrngReg) :
    θ_run Cert.ReferenceIdeal.defs (onTc (τ := τ) (main (F := Ideal))) ⟨m', fun _ => 0, ρ'⟩ fun r => ∀ c : Dev nD,
      r.2.mem ((c.tc : Thread nD τ).loc main_v105)
        = Cert.Spec.G (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10) :=
  (θ_run defs _ _).mono (fun _ h c => ⟨(h c).1.trans (ref_final m' c), (h c).2⟩)
    (Cert.ReferenceIdeal.ValueP.run (F := Ideal) m' ρ')

end Cert.RefFinal

end
-- ==== Proof.lean ====
/-
  The kernel and the reference compute one function.

  Both programs, read over the extended reals, end with the `[4096, 88]` array `Cert.Spec.G` of the argument arrays
  (Proof/Spec.lean): for each batch row, its products with the rows of the two big weight matrices and the number of its
  nonzero entries give a feature row; five rounds of a thresholded iteration against the template and three dense layers
  follow. The kernel reaches the products and the count by accumulating over 16 steps of 512 columns per block of 1024
  rows — a regrouping of the same sums —, counts in floating point where the reference counts in 32-bit integers (8192
  ones cannot wrap), and runs the last two layers over weights padded with zeros from 88 to 128, which contribute nothing
  to the first 88 outputs. No step needs the inputs to be finite: only commutativity and associativity of the sums,
  `x · 0 = 0` and `0 - x = -x`, which hold for every extended real.

  The frames of the two kernel programs are the generated frame certificates; the reference's frame is its run with the
  result dropped. The idealization rewrote nothing, so it is preserved trivially.
-/
import proofs.«178659_j38689065402872_2_alg».proof.Defs
import proofs.«178659_j38689065402872_2_alg».proof.Proof.Gen.Kernel
import proofs.«178659_j38689065402872_2_alg».proof.Proof.Gen.Kernel.Skeleton
import proofs.«178659_j38689065402872_2_alg».proof.Proof.Gen.Kernel.Launch
import proofs.«178659_j38689065402872_2_alg».proof.Proof.Gen.Kernel.Points
import proofs.«178659_j38689065402872_2_alg».proof.Proof.Gen.Kernel.Frame
import proofs.«178659_j38689065402872_2_alg».proof.Proof.Gen.KernelIdeal
import proofs.«178659_j38689065402872_2_alg».proof.Proof.Gen.KernelIdeal.Skeleton
import proofs.«178659_j38689065402872_2_alg».proof.Proof.Gen.KernelIdeal.Launch
import proofs.«178659_j38689065402872_2_alg».proof.Proof.Gen.KernelIdeal.Points
import proofs.«178659_j38689065402872_2_alg».proof.Proof.Gen.KernelIdeal.Frame
import proofs.«178659_j38689065402872_2_alg».proof.Proof.Gen.ReferenceIdeal
import proofs.«178659_j38689065402872_2_alg».proof.Proof.Gen.Pre_finite_inputs
import proofs.«178659_j38689065402872_2_alg».proof.Proof.KRun
import proofs.«178659_j38689065402872_2_alg».proof.Proof.RefFinal
import Idealize.ShloMosaic.Adequacy
import Idealize.ShloMosaic.Init

noncomputable section

namespace Cert.Proof

open Idealize.ShloMosaic Idealize.SL.Sem

/-- The kernel as printed runs and leaves its arguments unchanged: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the specification's array of those arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Final.krun m ρ, ?_⟩
  refine (θ_run Cert.ReferenceIdeal.defs _ _).mono (fun _ h c => ⟨(h c).1.trans ?_, (h c).2⟩) (Cert.RefFinal.ref_run m' ρ')
  obtain ⟨a0, _, a2, a3, a4, a5, a6, a7, a8, a9, a10⟩ := hagree c
  rw [a0, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
